-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S1024x1024 : Shape := ⟨2, ![1024, 1024]⟩
abbrev S1024 : Shape := ⟨1, ![1024]⟩
abbrev S2048x1024 : Shape := ⟨2, ![2048, 1024]⟩
abbrev S2048 : Shape := ⟨1, ![2048]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S1024x1024 .f32) (main_arg15 : FVec F S1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  main_v78

def fn_part3 {F : FTy → Type} [FloatOps F] (main_arg11 : FVec F S1024 .f32) (main_arg12 : FVec F S2048x1024 .f32) (main_arg13 : FVec F S2048 .f32) (main_arg14 : FVec F S1024x1024 .f32) (main_arg15 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S2048x1024 .f32 := Host.absf main_arg12
  let main_cst_22 : FVec F S_ .f32 := constant S_ .f32 0x7F800000#32
  let main_v60 : FVec F S2048x1024 .f32 := broadcastInDim S2048x1024 ![] bcast_S_S2048x1024 main_cst_22
  let main_v61 : IVec S2048x1024 1 := cmpf .olt main_v59 main_v60
  let main_c_23 : IVec S_ 1 := constantI S_ 1 1#1
  let main_v62 : IVec S_ 1 := (fun x v => Host.reduce IntOp.andi x v reducesTo_S2048x1024_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_v63 main_v67

def fn_part2 {F : FTy → Type} [FloatOps F] (main_arg7 : FVec F S1024 .f32) (main_arg8 : FVec F S1024 .f32) (main_arg9 : FVec F S1024 .f32) (main_arg10 : FVec F S1024 .f32) (main_arg11 : FVec F S1024 .f32) (main_arg12 : FVec F S2048x1024 .f32) (main_arg13 : FVec F S2048 .f32) (main_arg14 : FVec F S1024x1024 .f32) (main_arg15 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024 .f32) (main_arg9 : FVec F S1024 .f32) (main_arg10 : FVec F S1024 .f32) (main_arg11 : FVec F S1024 .f32) (main_arg12 : FVec F S2048x1024 .f32) (main_arg13 : FVec F S2048 .f32) (main_arg14 : FVec F S1024x1024 .f32) (main_arg15 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4x1024x1024 .f32) (main_arg1 : FVec F S4x1024x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024 .f32) (main_arg9 : FVec F S1024 .f32) (main_arg10 : FVec F S1024 .f32) (main_arg11 : FVec F S1024 .f32) (main_arg12 : FVec F S2048x1024 .f32) (main_arg13 : FVec F S2048 .f32) (main_arg14 : FVec F S1024x1024 .f32) (main_arg15 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4x1024x1024 : Shape := ⟨3, ![4, 1024, 1024]⟩
abbrev S1024x1024 : Shape := ⟨2, ![1024, 1024]⟩
abbrev S1024 : Shape := ⟨1, ![1024]⟩
abbrev S2048x1024 : Shape := ⟨2, ![2048, 1024]⟩
abbrev S2048 : Shape := ⟨1, ![2048]⟩
abbrev S4096x1024 : Shape := ⟨2, ![4096, 1024]⟩
abbrev S512x1024 : Shape := ⟨2, ![512, 1024]⟩
abbrev S1x1024 : Shape := ⟨2, ![1, 1024]⟩
abbrev S512x2048 : Shape := ⟨2, ![512, 2048]⟩
abbrev S1x2048 : Shape := ⟨2, ![1, 2048]⟩
abbrev S16x4x1024x1024 : Shape := ⟨4, ![16, 4, 1024, 1024]⟩
abbrev S1024x128 : Shape := ⟨2, ![1024, 128]⟩
abbrev S2x1x1024x1024 : Shape := ⟨4, ![2, 1, 1024, 1024]⟩
abbrev S1024x64 : Shape := ⟨2, ![1024, 64]⟩
abbrev S1024x1 : Shape := ⟨2, ![1024, 1]⟩
abbrev S1x1x1024x1024 : Shape := ⟨4, ![1, 1, 1024, 1024]⟩
abbrev S512 : Shape := ⟨1, ![512]⟩
abbrev S512x1 : Shape := ⟨2, ![512, 1]⟩
abbrev S64x1024x1024 : Shape := ⟨3, ![64, 1024, 1024]⟩

abbrev nBuf : Space → Nat
  | .hbm => 32
  | .vmem => 36
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S2048x1024, .f32⟩
  | .hbm, ⟨13, _⟩ => ⟨S2048, .f32⟩
  | .hbm, ⟨14, _⟩ => ⟨S1024x1024, .f32⟩
  | .hbm, ⟨15, _⟩ => ⟨S1024, .f32⟩
  | .hbm, ⟨16, _⟩ => ⟨S4096x1024, .f32⟩
  | .hbm, ⟨17, _⟩ => ⟨S4096x1024, .f32⟩
  | .hbm, ⟨18, _⟩ => ⟨S1024x1024, .bf16⟩
  | .hbm, ⟨19, _⟩ => ⟨S2048x1024, .f32⟩
  | .hbm, ⟨20, _⟩ => ⟨S2048x1024, .bf16⟩
  | .hbm, ⟨21, _⟩ => ⟨S2048, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S16x4x1024x1024, .f32⟩
  | .hbm, ⟨27, _⟩ => ⟨S2048x1024, .bf16⟩
  | .hbm, ⟨28, _⟩ => ⟨S1024x1024, .bf16⟩
  | .hbm, ⟨29, _⟩ => ⟨S4096x1024, .f32⟩
  | .hbm, ⟨30, _⟩ => ⟨S4x1024x1024, .f32⟩
  | .hbm, ⟨31, _⟩ => ⟨S64x1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | .local _ .vmem, ⟨9, _⟩ => ⟨S2048, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S2x1x1024x1024, .f32⟩
  | .local _ .vmem, ⟨23, _⟩ => ⟨S2x1x1024x1024, .f32⟩
  | .local _ .vmem, ⟨24, _⟩ => ⟨S512x1024, .f32⟩
  | .local _ .vmem, ⟨25, _⟩ => ⟨S512x1024, .f32⟩
  | .local _ .vmem, ⟨26, _⟩ => ⟨S1024, .f32⟩
  | .local _ .vmem, ⟨27, _⟩ => ⟨S1024, .f32⟩
  | .local _ .vmem, ⟨28, _⟩ => ⟨S2048x1024, .bf16⟩
  | .local _ .vmem, ⟨29, _⟩ => ⟨S2048, .f32⟩
  | .local _ .vmem, ⟨30, _⟩ => ⟨S1024x1024, .bf16⟩
  | .local _ .vmem, ⟨31, _⟩ => ⟨S1024, .f32⟩
  | .local _ .vmem, ⟨32, _⟩ => ⟨S1024, .f32⟩
  | .local _ .vmem, ⟨33, _⟩ => ⟨S1024, .f32⟩
  | .local _ .vmem, ⟨34, _⟩ => ⟨S512x1024, .f32⟩
  | .local _ .vmem, ⟨35, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v8_0 : Ref sig .tc := ⟨.hbm, 25, rfl⟩
abbrev main_v8_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg8_0 : Ref sig .tc := ⟨.vmem, 33, rfl⟩
abbrev cc3_stg9_0 : Ref sig .tc := ⟨.vmem, 34, rfl⟩
abbrev cc3_stg9_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem8_0 : DmaSem sig := 33
abbrev cc3_sem9_0 : DmaSem sig := 34
abbrev cc3_sem9_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2x1x1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2048x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S512x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  shapeCasts_S4x1024x1024_S4096x1024 : S4x1024x1024.ShapeCasts S4096x1024
  bitsLt_bf16_f32 : FTy.bits .bf16 < FTy.bits .f32
  concatenates_S1024x1024_S1024x1024_S2048x1024_d0 : Shape.Concatenates [S1024x1024, S1024x1024] S2048x1024 0
  concatenates_S1024_S1024_S2048_d0 : Shape.Concatenates [S1024, S1024] S2048 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1024x64 : S1024x128.Slices ![0, 0] S1024x64
  reduces_S1024x1024_S1024 : S1024x1024.Reduces [1] S1024
  shapeCasts_S1024_S1024x1 : S1024.ShapeCasts S1024x1
  broadcasts_S1024x1_S1024x1024 : S1024x1.Broadcasts S1024x1024
  inb_S2x1x1024x1024_S1x1x1024x1024_0_0_0_0 : ∀ a, (![0, 0, 0, 0] : Fin 4 → Nat) a + S1x1x1024x1024.size a ≤ S2x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  inb_S1024x128_S1024x64_0_0 : ∀ a, (![0, 0] : Fin 2 → Nat) a + S1024x64.size a ≤ S1024x128.size a
  h_S1024x64 : 0 < S1024x64.numel
  slices_S1024x128_o0_64_S1024x64 : S1024x128.Slices ![0, 64] S1024x64
  inb_S2x1x1024x1024_S1x1x1024x1024_1_0_0_0 : ∀ a, (![1, 0, 0, 0] : Fin 4 → Nat) a + S1x1x1024x1024.size a ≤ S2x1x1024x1024.size a
  inb_S1024x128_S1024x64_0_64 : ∀ a, (![0, 64] : Fin 2 → Nat) a + S1024x64.size a ≤ S1024x128.size a
  reduces_S512x1024_S512 : S512x1024.Reduces [1] S512
  shapeCasts_S512_S512x1 : S512.ShapeCasts S512x1
  broadcasts_S512x1_S512x1024 : S512x1.Broadcasts S512x1024
  shapeCasts_S4096x1024_S4x1024x1024 : S4096x1024.ShapeCasts S4x1024x1024
  shapeCasts_S16x4x1024x1024_S64x1024x1024 : S16x4x1024x1024.ShapeCasts S64x1024x1024
  dot_S512x1024_S1024x1024_S512x1024_1_1_0_0_n_n_wf : DotDims.WF S512x1024 S1024x1024 S512x1024 [1] [1] [0] [0] [] []
  dot_S512x1024_S2048x1024_S512x2048_1_1_0_0_n_n_wf : DotDims.WF S512x1024 S2048x1024 S512x2048 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x1024.size a
  hwx1_1 : ∀ i : grid1.Coords, EltTy.bits .bf16 = 32 ∨ (Rect.block (s := S2048x1024) S2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S2048.size a
  hwx1_2 : ∀ i : grid1.Coords, EltTy.bits .f32 = 32 ∨ (Rect.block (s := S2048) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S4096x1024.size a
  hwx1_4 : ∀ i : grid1.Coords, EltTy.bits .f32 = 32 ∨ (Rect.block (s := S4096x1024) S512x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S4096x1024.size a
  hwx2_0 : ∀ i : grid2.Coords, EltTy.bits .f32 = 32 ∨ (Rect.block (s := S4096x1024) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S4096x1024.size a
  hwx2_1 : ∀ i : grid2.Coords, EltTy.bits .f32 = 32 ∨ (Rect.block (s := S4096x1024) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S4096x1024.size a
  hwx2_2 : ∀ i : grid2.Coords, EltTy.bits .f32 = 32 ∨ (Rect.block (s := S4096x1024) S1024x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S4096x1024.size a
  hwx2_3 : ∀ i : grid2.Coords, EltTy.bits .f32 = 32 ∨ (Rect.block (s := S4096x1024) S1024x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2x1x1024x1024.size a ≤ S16x4x1024x1024.size a
  hwx2_4 : ∀ i : grid2.Coords, EltTy.bits .f32 = 32 ∨ (Rect.block (s := S16x4x1024x1024) S2x1x1024x1024.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S4096x1024.size a
  hwx3_0 : ∀ i : grid3.Coords, EltTy.bits .f32 = 32 ∨ (Rect.block (s := S4096x1024) S512x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024.size a ≤ S1024.size a
  hwx3_1 : ∀ i : grid3.Coords, EltTy.bits .f32 = 32 ∨ (Rect.block (s := S1024) S1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S1024.size a
  hwx3_2 : ∀ i : grid3.Coords, EltTy.bits .f32 = 32 ∨ (Rect.block (s := S1024) S1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2048x1024.size a ≤ S2048x1024.size a
  hwx3_3 : ∀ i : grid3.Coords, EltTy.bits .bf16 = 32 ∨ (Rect.block (s := S2048x1024) S2048x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2048.size a ≤ S2048.size a
  hwx3_4 : ∀ i : grid3.Coords, EltTy.bits .f32 = 32 ∨ (Rect.block (s := S2048) S2048.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1024x1024.size a ≤ S1024x1024.size a
  hwx3_5 : ∀ i : grid3.Coords, EltTy.bits .bf16 = 32 ∨ (Rect.block (s := S1024x1024) S1024x1024.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1024.size a ≤ S1024.size a
  hwx3_6 : ∀ i : grid3.Coords, EltTy.bits .f32 = 32 ∨ (Rect.block (s := S1024) S1024.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1024.size a ≤ S1024.size a
  hwx3_7 : ∀ i : grid3.Coords, EltTy.bits .f32 = 32 ∨ (Rect.block (s := S1024) S1024.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1024.size a ≤ S1024.size a
  hwx3_8 : ∀ i : grid3.Coords, EltTy.bits .f32 = 32 ∨ (Rect.block (s := S1024) S1024.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S512x1024.size a ≤ S4096x1024.size a
  hwx3_9 : ∀ i : grid3.Coords, EltTy.bits .f32 = 32 ∨ (Rect.block (s := S4096x1024) S512x1024.size (cc3_transform_9 i) (hinb3_9 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7_0) S512x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_1) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_0) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7_1) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8_0) S1024x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8_1) S2x1x1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v8_0) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S2048x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S2048.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v10) S1024x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg15) S1024.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg10) S1024.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg11) S1024.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v11) S512x1024.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S4x1024x1024 : Shape := ⟨3, ![4, 1024, 1024]⟩
abbrev S1024x1024 : Shape := ⟨2, ![1024, 1024]⟩
abbrev S1024 : Shape := ⟨1, ![1024]⟩
abbrev S2048x1024 : Shape := ⟨2, ![2048, 1024]⟩
abbrev S2048 : Shape := ⟨1, ![2048]⟩
abbrev S1x1x1024 : Shape := ⟨3, ![1, 1, 1024]⟩
abbrev S4x1024x16x64 : Shape := ⟨4, ![4, 1024, 16, 64]⟩
abbrev S16x4x1024x64 : Shape := ⟨4, ![16, 4, 1024, 64]⟩
abbrev S16x4x1024x1024 : Shape := ⟨4, ![16, 4, 1024, 1024]⟩
abbrev S_ : Shape := ⟨0, ![]⟩
abbrev S16x4x1024 : Shape := ⟨3, ![16, 4, 1024]⟩
abbrev S16x4x1024x1 : Shape := ⟨4, ![16, 4, 1024, 1]⟩
abbrev S4x1024 : Shape := ⟨2, ![4, 1024]⟩
abbrev S4x1024x1 : Shape := ⟨3, ![4, 1024, 1]⟩
abbrev S4x1024x2048 : Shape := ⟨3, ![4, 1024, 2048]⟩
abbrev S1x1x2048 : Shape := ⟨3, ![1, 1, 2048]⟩
abbrev S64x1024x1024 : Shape := ⟨3, ![64, 1024, 1024]⟩

abbrev nBuf : Space → Nat
  | .hbm => 136
  | .vmem => 0
  | .smem => 0
  | _ => 0

abbrev hbmTy0_0 (i : Nat) : BufTy := match i % 128 with
  | 0 => ⟨S4x1024x1024, .f32⟩
  | 1 => ⟨S4x1024x1024, .f32⟩
  | 2 => ⟨S1024x1024, .f32⟩
  | 3 => ⟨S1024, .f32⟩
  | 4 => ⟨S1024x1024, .f32⟩
  | 5 => ⟨S1024, .f32⟩
  | 6 => ⟨S1024x1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S2048x1024, .f32⟩
  | 13 => ⟨S2048, .f32⟩
  | 14 => ⟨S1024x1024, .f32⟩
  | 15 => ⟨S1024, .f32⟩
  | 16 => ⟨S4x1024x1024, .f32⟩
  | 17 => ⟨S1x1x1024, .f32⟩
  | 18 => ⟨S4x1024x1024, .f32⟩
  | 19 => ⟨S4x1024x1024, .f32⟩
  | 20 => ⟨S4x1024x1024, .f32⟩
  | 21 => ⟨S1x1x1024, .f32⟩
  | 22 => ⟨S4x1024x1024, .f32⟩
  | 23 => ⟨S4x1024x1024, .f32⟩
  | 24 => ⟨S4x1024x1024, .f32⟩
  | 25 => ⟨S1x1x1024, .f32⟩
  | 26 => ⟨S4x1024x1024, .f32⟩
  | 27 => ⟨S4x1024x1024, .f32⟩
  | 28 => ⟨S4x1024x16x64, .f32⟩
  | 29 => ⟨S16x4x1024x64, .f32⟩
  | 30 => ⟨S4x1024x16x64, .f32⟩
  | 31 => ⟨S16x4x1024x64, .f32⟩
  | 32 => ⟨S4x1024x16x64, .f32⟩
  | 33 => ⟨S16x4x1024x64, .f32⟩
  | 34 => ⟨S16x4x1024x1024, .f32⟩
  | 35 => ⟨S_, .f32⟩
  | 36 => ⟨S16x4x1024x1024, .f32⟩
  | 37 => ⟨S16x4x1024x1024, .f32⟩
  | 38 => ⟨S_, .f32⟩
  | 39 => ⟨S16x4x1024, .f32⟩
  | 40 => ⟨S_, .f32⟩
  | 41 => ⟨S16x4x1024, .f32⟩
  | 42 => ⟨S16x4x1024, .f32⟩
  | 43 => ⟨S16x4x1024x1, .f32⟩
  | 44 => ⟨S16x4x1024x1024, .f32⟩
  | 45 => ⟨S16x4x1024x1024, .f32⟩
  | 46 => ⟨S16x4x1024x1024, .f32⟩
  | 47 => ⟨S_, .f32⟩
  | 48 => ⟨S16x4x1024, .f32⟩
  | 49 => ⟨S16x4x1024x1, .f32⟩
  | 50 => ⟨S16x4x1024x1024, .f32⟩
  | 51 => ⟨S16x4x1024x1024, .f32⟩
  | 52 => ⟨S16x4x1024x64, .f32⟩
  | 53 => ⟨S16x4x1024x64, .f32⟩
  | 54 => ⟨S4x1024x16x64, .f32⟩
  | 55 => ⟨S4x1024x1024, .f32⟩
  | 56 => ⟨S_, .f32⟩
  | 57 => ⟨S4x1024, .f32⟩
  | 58 => ⟨S4x1024x1, .f32⟩
  | 59 => ⟨S_, .f32⟩
  | 60 => ⟨S4x1024x1, .f32⟩
  | 61 => ⟨S4x1024x1, .f32⟩
  | 62 => ⟨S4x1024x1024, .f32⟩
  | 63 => ⟨S4x1024x1024, .f32⟩
  | 64 => ⟨S4x1024x1024, .f32⟩
  | 65 => ⟨S_, .f32⟩
  | 66 => ⟨S4x1024, .f32⟩
  | 67 => ⟨S4x1024x1, .f32⟩
  | 68 => ⟨S_, .f32⟩
  | 69 => ⟨S4x1024x1, .f32⟩
  | 70 => ⟨S4x1024x1, .f32⟩
  | 71 => ⟨S4x1024x1024, .f32⟩
  | 72 => ⟨S4x1024x1024, .f32⟩
  | 73 => ⟨S_, .f32⟩
  | 74 => ⟨S4x1024x1, .f32⟩
  | 75 => ⟨S4x1024x1, .f32⟩
  | 76 => ⟨S4x1024x1, .f32⟩
  | 77 => ⟨S4x1024x1024, .f32⟩
  | 78 => ⟨S4x1024x1024, .f32⟩
  | 79 => ⟨S1x1x1024, .f32⟩
  | 80 => ⟨S4x1024x1024, .f32⟩
  | 81 => ⟨S4x1024x1024, .f32⟩
  | 82 => ⟨S1x1x1024, .f32⟩
  | 83 => ⟨S4x1024x1024, .f32⟩
  | 84 => ⟨S4x1024x1024, .f32⟩
  | 85 => ⟨S4x1024x2048, .f32⟩
  | 86 => ⟨S1x1x2048, .f32⟩
  | 87 => ⟨S4x1024x2048, .f32⟩
  | 88 => ⟨S4x1024x2048, .f32⟩
  | 89 => ⟨S4x1024x1024, .f32⟩
  | 90 => ⟨S4x1024x1024, .f32⟩
  | 91 => ⟨S4x1024x1024, .f32⟩
  | 92 => ⟨S4x1024x1024, .f32⟩
  | 93 => ⟨S_, .f32⟩
  | 94 => ⟨S4x1024x1024, .f32⟩
  | 95 => ⟨S4x1024x1024, .f32⟩
  | 96 => ⟨S_, .f32⟩
  | 97 => ⟨S4x1024x1024, .f32⟩
  | 98 => ⟨S4x1024x1024, .f32⟩
  | 99 => ⟨S4x1024x1024, .f32⟩
  | 100 => ⟨S4x1024x1024, .f32⟩
  | 101 => ⟨S4x1024x1024, .f32⟩
  | 102 => ⟨S1x1x1024, .f32⟩
  | 103 => ⟨S4x1024x1024, .f32⟩
  | 104 => ⟨S4x1024x1024, .f32⟩
  | 105 => ⟨S4x1024x1024, .f32⟩
  | 106 => ⟨S_, .f32⟩
  | 107 => ⟨S4x1024, .f32⟩
  | 108 => ⟨S4x1024x1, .f32⟩
  | 109 => ⟨S_, .f32⟩
  | 110 => ⟨S4x1024x1, .f32⟩
  | 111 => ⟨S4x1024x1, .f32⟩
  | 112 => ⟨S4x1024x1024, .f32⟩
  | 113 => ⟨S4x1024x1024, .f32⟩
  | 114 => ⟨S4x1024x1024, .f32⟩
  | 115 => ⟨S_, .f32⟩
  | 116 => ⟨S4x1024, .f32⟩
  | 117 => ⟨S4x1024x1, .f32⟩
  | 118 => ⟨S_, .f32⟩
  | 119 => ⟨S4x1024x1, .f32⟩
  | 120 => ⟨S4x1024x1, .f32⟩
  | 121 => ⟨S4x1024x1024, .f32⟩
  | 122 => ⟨S4x1024x1024, .f32⟩
  | 123 => ⟨S_, .f32⟩
  | 124 => ⟨S4x1024x1, .f32⟩
  | 125 => ⟨S4x1024x1, .f32⟩
  | 126 => ⟨S4x1024x1, .f32⟩
  | 127 => ⟨S4x1024x1024, .f32⟩
  | _ => ⟨S4x1024x1024, .f32⟩

abbrev hbmTy0_1 (i : Nat) : BufTy := match i % 128 with
  | 0 => ⟨S4x1024x1024, .f32⟩
  | 1 => ⟨S1x1x1024, .f32⟩
  | 2 => ⟨S4x1024x1024, .f32⟩
  | 3 => ⟨S4x1024x1024, .f32⟩
  | 4 => ⟨S1x1x1024, .f32⟩
  | 5 => ⟨S4x1024x1024, .f32⟩
  | 6 => ⟨S4x1024x1024, .f32⟩
  | 7 => ⟨S64x1024x1024, .f32⟩
  | _ => ⟨S4x1024x1024, .f32⟩

abbrev hbmTy (i : Nat) : BufTy := match i / 128 with
  | 0 => hbmTy0_0 i
  | 1 => hbmTy0_1 i
  | _ => ⟨S4x1024x1024, .f32⟩

abbrev bufTy : (tb : Table) → Fin (tcTables nBuf tb) → BufTy
  | .hbm, ⟨i, _⟩ => hbmTy i
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call0_v0 : Ref sig .tc := ⟨.hbm, 91, rfl⟩
abbrev main_call0_v1 : Ref sig .tc := ⟨.hbm, 92, rfl⟩
abbrev main_call0_cst : Ref sig .tc := ⟨.hbm, 93, rfl⟩
abbrev main_call0_v2 : Ref sig .tc := ⟨.hbm, 94, rfl⟩
abbrev main_call0_v3 : Ref sig .tc := ⟨.hbm, 95, rfl⟩
abbrev main_call0_cst_0 : Ref sig .tc := ⟨.hbm, 96, rfl⟩
abbrev main_call0_v4 : Ref sig .tc := ⟨.hbm, 97, rfl⟩
abbrev main_call0_v5 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_8 : Ref sig .tc := ⟨.hbm, 106, rfl⟩
abbrev main_v73 : Ref sig .tc := ⟨.hbm, 107, rfl⟩
abbrev main_v74 : Ref sig .tc := ⟨.hbm, 108, rfl⟩
abbrev main_cst_9 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_10 : Ref sig .tc := ⟨.hbm, 115, rfl⟩
abbrev main_v80 : Ref sig .tc := ⟨.hbm, 116, rfl⟩
abbrev main_v81 : Ref sig .tc := ⟨.hbm, 117, rfl⟩
abbrev main_cst_11 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_12 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  shapeCasts_S4x1024x1024_S4x1024x16x64 : S4x1024x1024.ShapeCasts S4x1024x16x64
  transposes_S4x1024x16x64_S16x4x1024x64_2_0_1_3 : S4x1024x16x64.Transposes [2, 0, 1, 3] S16x4x1024x64
  bcast_S_S16x4x1024x1024 : S_.BroadcastsInDim S16x4x1024x1024 (![] : Fin 0 → Fin S16x4x1024x1024.rank)
  reducesTo_S16x4x1024x1024_S16x4x1024_d3 : S16x4x1024x1024.ReducesTo [3] S16x4x1024
  h_S_ : 0 < S_.numel
  bcast_S_S16x4x1024 : S_.BroadcastsInDim S16x4x1024 (![] : Fin 0 → Fin S16x4x1024.rank)
  bcast_S16x4x1024_S16x4x1024x1_0_1_2 : S16x4x1024.BroadcastsInDim S16x4x1024x1 (![0, 1, 2] : Fin 3 → Fin S16x4x1024x1.rank)
  bcast_S16x4x1024x1_S16x4x1024x1024_0_1_2_3 : S16x4x1024x1.BroadcastsInDim S16x4x1024x1024 (![0, 1, 2, 3] : Fin 4 → Fin S16x4x1024x1024.rank)
  transposes_S16x4x1024x64_S4x1024x16x64_1_2_0_3 : S16x4x1024x64.Transposes [1, 2, 0, 3] S4x1024x16x64
  shapeCasts_S4x1024x16x64_S4x1024x1024 : S4x1024x16x64.ShapeCasts S4x1024x1024
  reducesTo_S4x1024x1024_S4x1024_d2 : S4x1024x1024.ReducesTo [2] S4x1024
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x1024_0_1_2 : S4x1024x1.BroadcastsInDim S4x1024x1024 (![0, 1, 2] : Fin 3 → Fin S4x1024x1024.rank)
  bcast_S2048_S1x1x2048_2 : S2048.BroadcastsInDim S1x1x2048 (![2] : Fin 1 → Fin S1x1x2048.rank)
  bcast_S1x1x2048_S4x1024x2048_0_1_2 : S1x1x2048.BroadcastsInDim S4x1024x2048 (![0, 1, 2] : Fin 3 → Fin S4x1024x2048.rank)
  slices_S4x1024x2048_S4x1024x1024_0_0_0 : S4x1024x2048.Slices ![0, 0, 0] S4x1024x1024
  slices_S4x1024x2048_S4x1024x1024_0_0_1024 : S4x1024x2048.Slices ![0, 0, 1024] S4x1024x1024
  bcast_S_S4x1024x1024 : S_.BroadcastsInDim S4x1024x1024 (![] : Fin 0 → Fin S4x1024x1024.rank)
  shapeCasts_S16x4x1024x1024_S64x1024x1024 : S16x4x1024x1024.ShapeCasts S64x1024x1024
  dot_S4x1024x1024_S1024x1024_S4x1024x1024_2_1_01_0_n_n_wf : DotDims.WF S4x1024x1024 S1024x1024 S4x1024x1024 [2] [1] [0, 1] [0] [] []
  dot_S16x4x1024x64_S16x4x1024x64_S16x4x1024x1024_3_3_2_2_01_01_wf : DotDims.WF S16x4x1024x64 S16x4x1024x64 S16x4x1024x1024 [3] [3] [2] [2] [0, 1] [0, 1]
  dot_S16x4x1024x1024_S16x4x1024x64_S16x4x1024x64_3_2_2_3_01_01_wf : DotDims.WF S16x4x1024x1024 S16x4x1024x64 S16x4x1024x64 [3] [2] [2] [3] [0, 1] [0, 1]
  dot_S4x1024x1024_S2048x1024_S4x1024x2048_2_1_01_0_n_n_wf : DotDims.WF S4x1024x1024 S2048x1024 S4x1024x2048 [2] [1] [0, 1] [0] [] []

variable [Facts₀]

def dot_S4x1024x1024_S1024x1024_S4x1024x1024_2_1_01_0_n_n : DotDims S4x1024x1024 S1024x1024 S4x1024x1024 where
  lhsContracting := [2]
  rhsContracting := [1]
  lhsNonContracting := [0, 1]
  rhsNonContracting := [0]
  lhsBatch := []
  rhsBatch := []
  wf := dot_S4x1024x1024_S1024x1024_S4x1024x1024_2_1_01_0_n_n_wf
def dot_S16x4x1024x64_S16x4x1024x64_S16x4x1024x1024_3_3_2_2_01_01 : DotDims S16x4x1024x64 S16x4x1024x64 S16x4x1024x1024 where
  lhsContracting := [3]
  rhsContracting := [3]
  lhsNonContracting := [2]
  rhsNonContracting := [2]
  lhsBatch := [0, 1]
  rhsBatch := [0, 1]
  wf := dot_S16x4x1024x64_S16x4x1024x64_S16x4x1024x1024_3_3_2_2_01_01_wf
def dot_S16x4x1024x1024_S16x4x1024x64_S16x4x1024x64_3_2_2_3_01_01 : DotDims S16x4x1024x1024 S16x4x1024x64 S16x4x1024x64 where
  lhsContracting := [3]
  rhsContracting := [2]
  lhsNonContracting := [2]
  rhsNonContracting := [3]
  lhsBatch := [0, 1]
  rhsBatch := [0, 1]
  wf := dot_S16x4x1024x1024_S16x4x1024x64_S16x4x1024x64_3_2_2_3_01_01_wf
def dot_S4x1024x1024_S2048x1024_S4x1024x2048_2_1_01_0_n_n : DotDims S4x1024x1024 S2048x1024 S4x1024x2048 where
  lhsContracting := [2]
  rhsContracting := [1]
  lhsNonContracting := [0, 1]
  rhsNonContracting := [0]
  lhsBatch := []
  rhsBatch := []
  wf := dot_S4x1024x1024_S2048x1024_S4x1024x2048_2_1_01_0_n_n_wf

class Facts : Prop extends Facts₀ where

variable [Facts]
-- ==== Proof.KernelRun.lean ====
/-
  The idealized kernel's run with its two results named.

  The program is four pipelined regions among stretches of host operations.  Run from any memory with zero counters,
  every weakly fair execution terminates, and in the final state every unscoped buffer of a core holds the last boundary's
  contents: the fold `W7` of the launch memory through the host operations and the regions' write-backs.  Read at the two
  result buffers this names the results; read at the arguments it gives them back unchanged.
-/
import proofs.«105725_j43181601194591_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the first result at `W7` read at `main_v12`, the second at `W7` read at
    `main_v13`, and the sixteen arguments as launched. -/
theorem run : θ_run defs (onTc (τ := τ) (main (F := F))) ⟨m, fun _ => 0, ρ⟩ (fun r => ∀ c : Dev nD,
      r.2.mem ((c.tc : Thread nD τ).loc main_v12) = W7 m ρ c (Proc.devRef .tc main_v12)
      ∧ r.2.mem ((c.tc : Thread nD τ).loc main_v13) = W7 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v12 (by decide)),
       h c _ (mem_uc main_v13 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.KernelIdeal.RunValue

end
-- ==== Proof.Spec.lean ====
/-
  The multi-head attention block as functions of coordinates, over the extended reals.

  Arrays are read by their coordinates: a batch `b < 4`, a position `n < 1024`, a channel `v < 1024`; a head `h < 16`
  owns the 64 channels `h * 64 + d`.  The block is built from three row-wise or head-wise pieces:

    * a row through a linear layer:  `lin x W β v = (∑ k, x k * W v k) + β v`  (the weight is stored `[out, in]`);
    * one head's attention: scores `(∑ d, q i d * k j d) * (1/32)`, a softmax along the keys written with the row's
      supremum subtracted before the exponential, and the head's output `q i d + ∑ j, a i j * v j d`;
    * a row through the tail: layer normalisation, the gated feed-forward layer with its residual, and a second
      layer normalisation.

  The floating-point constants stay as their 32-bit words read at the ideal values; only `32`, `1/32` and `1` are
  evaluated, each once, below.
-/
import Idealize.ShloMosaic.PureOps.Ideal
import Idealize.ShloMosaic.PureOps.Ideal.Laws
import Idealize.ShloMosaic.Lib.ValueIdx

noncomputable section

namespace AttnBlock

open Idealize.ShloMosaic

/-- A matrix and a vector by coordinates. -/
abbrev Mat (m n : ℕ) := Fin m → Fin n → EReal
abbrev Vc (n : ℕ) := Fin n → EReal
/-- A `[4, 1024, 1024]` activation by (batch, position, channel). -/
abbrev Act := Fin 4 → Fin 1024 → Fin 1024 → EReal

/-! ## The constants -/

/-- The words of `32`, `1/32`, `1024` and the normalisation's epsilon. -/
def w32 : EReal := Ideal.ofBits .f32 0x42000000#32
def wInv32 : EReal := Ideal.ofBits .f32 0x3D000000#32
def w1024 : EReal := Ideal.ofBits .f32 0x44800000#32
def wEps : EReal := Ideal.ofBits .f32 0x3727C5AC#32

theorem w32_eq : w32 = ((32 : ℝ) : EReal) := by
  unfold w32; simp [Ideal.ofBits, Ideal.ieee, -EReal.coe_mul]; norm_num

theorem wInv32_eq : wInv32 = ((1 / 32 : ℝ) : EReal) := by
  unfold wInv32; simp [Ideal.ofBits, Ideal.ieee, -EReal.coe_mul]; norm_num

/-- The word of `1.0` is one. -/
theorem one_word : Ideal.ofBits .f32 0x3F800000#32 = 1 := by
  simp [Ideal.ofBits, Ideal.ieee, -EReal.coe_mul]; norm_num

/-- Dividing by `32` is multiplying by `1/32`, on every extended real. -/
theorem div_w32 (x : EReal) : Ideal.div x w32 = x * wInv32 := by
  rw [w32_eq, wInv32_eq]; exact Ideal.div_coe (by norm_num) x

/-! ## Coordinates -/

/-- Row `b * 1024 + n` of the flat `[4096, ·]` layout. -/
def row (b : Fin 4) (n : Fin 1024) : Fin 4096 := ⟨b.val * 1024 + n.val, by omega⟩
/-- Channel `h * 64 + d`. -/
def col (h : Fin 16) (d : Fin 64) : Fin 1024 := ⟨h.val * 64 + d.val, by omega⟩
/-- The head and the offset of a channel. -/
def headOfCol (v : Fin 1024) : Fin 16 := ⟨v.val / 64, by omega⟩
def offOfCol (v : Fin 1024) : Fin 64 := ⟨v.val % 64, Nat.mod_lt _ (by norm_num)⟩
/-- The two halves of a packed `[2048]` axis. -/
def lo (j : Fin 1024) : Fin 2048 := ⟨j.val, by omega⟩
def hi (j : Fin 1024) : Fin 2048 := ⟨1024 + j.val, by omega⟩

theorem col_head_off (v : Fin 1024) : col (headOfCol v) (offOfCol v) = v :=
  Fin.ext (by show v.val / 64 * 64 + v.val % 64 = v.val; omega)

/-- The batch and the position of a flat row. -/
def batchOfRow (r : Fin 4096) : Fin 4 := ⟨r.val / 1024, by omega⟩
def posOfRow (r : Fin 4096) : Fin 1024 := ⟨r.val % 1024, Nat.mod_lt _ (by norm_num)⟩

theorem row_batch_pos (r : Fin 4096) : row (batchOfRow r) (posOfRow r) = r :=
  Fin.ext (by show r.val / 1024 * 1024 + r.val % 1024 = r.val; omega)

theorem batchOfRow_row (b : Fin 4) (n : Fin 1024) : batchOfRow (row b n) = b :=
  Fin.ext (by show (b.val * 1024 + n.val) / 1024 = b.val; omega)

theorem posOfRow_row (b : Fin 4) (n : Fin 1024) : posOfRow (row b n) = n :=
  Fin.ext (by show (b.val * 1024 + n.val) % 1024 = n.val; omega)

theorem headOfCol_col (h : Fin 16) (d : Fin 64) : headOfCol (col h d) = h :=
  Fin.ext (by show (h.val * 64 + d.val) / 64 = h.val; omega)

theorem offOfCol_col (h : Fin 16) (d : Fin 64) : offOfCol (col h d) = d :=
  Fin.ext (by show (h.val * 64 + d.val) % 64 = d.val; omega)

/-! ## Arrays read by coordinates -/

open Idealize.ShloMosaic.ValueIdx in
/-- A `[4, 1024, 1024]` array by (batch, position, channel). -/
def act (x : (⟨3, ![4, 1024, 1024]⟩ : Shape).Idx → EReal) : Fin 4 → Fin 1024 → Fin 1024 → EReal := fun b n v => x (ix3 b n v)
open Idealize.ShloMosaic.ValueIdx in
/-- A flat `[4096, 1024]` array by (batch, position, channel): row `b * 1024 + n`. -/
def actFlat (x : (⟨2, ![4096, 1024]⟩ : Shape).Idx → EReal) : Fin 4 → Fin 1024 → Fin 1024 → EReal := fun b n v => x (ix2 (row b n) v)
open Idealize.ShloMosaic.ValueIdx in
/-- A matrix and a vector by coordinates. -/
def mat {m n : ℕ} (x : (⟨2, ![m, n]⟩ : Shape).Idx → EReal) : Fin m → Fin n → EReal := fun i j => x (ix2 i j)
open Idealize.ShloMosaic.ValueIdx in
def vec {n : ℕ} (x : (⟨1, ![n]⟩ : Shape).Idx → EReal) : Fin n → EReal := fun i => x (ix1 i)

/-! ## A linear layer, one row -/

def lin {N K : ℕ} (x : Vc K) (W : Mat N K) (β : Vc N) : Vc N := fun v => (∑ k, x k * W v k) + β v

/-! ## One head -/

def score (q k : Mat 1024 64) : Mat 1024 1024 := fun i j => (∑ d, q i d * k j d) * wInv32

def softmax (s : Mat 1024 1024) : Mat 1024 1024 := fun i j =>
  Ideal.div (Ideal.exp (s i j - ⨆ j', s i j')) (∑ j'', Ideal.exp (s i j'' - ⨆ j', s i j'))

def headOut (q : Mat 1024 64) (a : Mat 1024 1024) (v : Mat 1024 64) : Mat 1024 64 := fun i d =>
  q i d + ∑ j, a i j * v j d

/-- Head `h` of batch `b` of an activation. -/
def headOf (X : Act) (h : Fin 16) (b : Fin 4) : Mat 1024 64 := fun n d => X b n (col h d)

/-- The attention weights `[16, 4, 1024, 1024]`. -/
def attn (Qp Kp : Act) (h : Fin 16) (b : Fin 4) : Mat 1024 1024 := softmax (score (headOf Qp h b) (headOf Kp h b))

/-- The attention output with its residual, heads merged back into channels. -/
def merged (Qp Kp Vp : Act) : Act := fun b n v =>
  headOut (headOf Qp (headOfCol v) b) (attn Qp Kp (headOfCol v) b) (headOf Vp (headOfCol v) b) n (offOfCol v)

/-! ## The tail, one row -/

def mean (x : Vc 1024) : EReal := Ideal.div (∑ k, x k) w1024
def var (x : Vc 1024) : EReal := Ideal.div (∑ k, (x k - mean x) * (x k - mean x)) w1024
def ln (x g β : Vc 1024) : Vc 1024 := fun v => (x v - mean x) * Ideal.rsqrt (var x + wEps) * g v + β v
def silu (z : EReal) : EReal := z * Ideal.logistic z
def gate (xn : Vc 1024) (W12 : Mat 2048 1024) (b12 : Vc 2048) : Vc 1024 := fun j =>
  silu (lin xn W12 b12 (lo j)) * lin xn W12 b12 (hi j)
def ffn (xn : Vc 1024) (W12 : Mat 2048 1024) (b12 : Vc 2048) (W3 : Mat 1024 1024) (b3 : Vc 1024) : Vc 1024 := fun v =>
  xn v + lin (gate xn W12 b12) W3 b3 v
def tail (x g0 β0 : Vc 1024) (W12 : Mat 2048 1024) (b12 : Vc 2048) (W3 : Mat 1024 1024) (b3 g1 β1 : Vc 1024) : Vc 1024 :=
  ln (ffn (ln x g0 β0) W12 b12 W3 b3) g1 β1

/-! ## The whole block -/

/-- The three projections of the inputs. -/
def proj (X : Act) (W : Mat 1024 1024) (β : Vc 1024) : Act := fun b n => lin (X b n) W β

/-- The first result, `[4, 1024, 1024]`. -/
def outO (Q K : Act) (Wq : Mat 1024 1024) (bq : Vc 1024) (Wk : Mat 1024 1024) (bk : Vc 1024) (Wv : Mat 1024 1024) (bv : Vc 1024)
    (g0 β0 g1 β1 : Vc 1024) (W12 : Mat 2048 1024) (b12 : Vc 2048) (W3 : Mat 1024 1024) (b3 : Vc 1024) : Act := fun b n =>
  tail (merged (proj Q Wq bq) (proj K Wk bk) (proj K Wv bv) b n) g0 β0 W12 b12 W3 b3 g1 β1

/-- The attention weights of the block, `[16, 4, 1024, 1024]`. -/
def outA (Q K : Act) (Wq : Mat 1024 1024) (bq : Vc 1024) (Wk : Mat 1024 1024) (bk : Vc 1024) :
    Fin 16 → Fin 4 → Mat 1024 1024 := fun h b => attn (proj Q Wq bq) (proj K Wk bk) h b

end AttnBlock

end
-- ==== Proof.LibTransposedDot.lean ====
/-
  A matrix product with the right operand contracted on its last axis, read at an index, over the extended reals.

  For the dimension numbers of an `M×K` by `N×K` product (contract the left operand's axis 1 with the right operand's
  axis 1, no batch axis) — a product with the transpose, as a query block against the rows of a key block — the
  contraction index is one coordinate `k < K`, the left operand is read at `(p, k)` and the right one at `(q, k)`. So a
  kernel's matmul into a zero accumulator and a host `dot_general` are, at `(p, q)`, the sum over `k : Fin K` of
  `lhs (p, k) * rhs (q, k)`.
-/
import Idealize.ShloMosaic.PureOps.Ideal
import Idealize.ShloMosaic.PureOps.Ideal.Laws
import Idealize.ShloMosaic.Lib.ValueIdx

noncomputable section

namespace Idealize.ShloMosaic.TransposedDot

open Idealize.ShloMosaic Idealize.ShloMosaic.ValueIdx

/-- The left operand's index at output `(p, q)` and contraction position `k` is `(p, k)`. -/
theorem lhsIdx_tr (M K N : ℕ) (p : Fin M) (q : Fin N) (k : Fin K) :
    (DotDims.transposedRhs M K N).lhsIdx (ix2 p q) ((contrEquiv1 (DotDims.transposedRhs M K N) K rfl rfl).symm k) = ix2 p k := by
  funext a
  apply Fin.ext
  match a with
  | ⟨0, _⟩ => rfl
  | ⟨1, _⟩ => rfl

/-- The right operand's index at output `(p, q)` and contraction position `k` is `(q, k)`. -/
theorem rhsIdx_tr (M K N : ℕ) (p : Fin M) (q : Fin N) (k : Fin K) :
    (DotDims.transposedRhs M K N).rhsIdx (ix2 p q) ((contrEquiv1 (DotDims.transposedRhs M K N) K rfl rfl).symm k) = ix2 q k := by
  funext a
  apply Fin.ext
  match a with
  | ⟨0, _⟩ => rfl
  | ⟨1, _⟩ => rfl

/-- The contraction sum, re-indexed by the one contracted coordinate. -/
theorem sum_tr (M K N : ℕ) (a : (⟨2, ![M, K]⟩ : Shape).Idx → EReal) (w : (⟨2, ![N, K]⟩ : Shape).Idx → EReal)
    (p : Fin M) (q : Fin N) :
    ∑ k : (DotDims.transposedRhs M K N).contr.Idx,
        a ((DotDims.transposedRhs M K N).lhsIdx (ix2 p q) k) * w ((DotDims.transposedRhs M K N).rhsIdx (ix2 p q) k)
      = ∑ k : Fin K, a (ix2 p k) * w (ix2 q k) := by
  rw [← Equiv.sum_comp (contrEquiv1 (DotDims.transposedRhs M K N) K rfl rfl).symm]
  exact Finset.sum_congr rfl fun k _ => by rw [lhsIdx_tr, rhsIdx_tr]

/-- A kernel's matmul into the zero accumulator, the right operand contracted on its last axis, read at `(p, q)`. -/
theorem matmul_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  subst hd
  rw [Ideal.matmul_constant_zero_apply]
  exact sum_tr M K N lhs rhs p q

/-- A host `dot_general` with the same dimension numbers read at `(p, q)`. -/
theorem dotGeneral_apply {M K N : ℕ} {φ₁ φ₂ : FTy} (d : DotDims ⟨2, ![M, K]⟩ ⟨2, ![N, K]⟩ ⟨2, ![M, N]⟩)
    (hd : d = DotDims.transposedRhs M K N) (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ k : Fin K, lhs (ix2 p k) * rhs (ix2 q k) := by
  subst hd
  rw [Ideal.dotGeneral_apply]
  exact sum_tr M K N lhs rhs p q

end Idealize.ShloMosaic.TransposedDot

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.ProjQ.lean ====
/-
  The query projection's region: what its output array holds after the run.

  The region walks 8 row tiles of 512 rows.  At tile `t` it reads rows `512 t … 512 t + 511` of the flat input, the whole
  weight `[out, in]` and the whole bias, and writes rows `512 t …` of the output with  x · Wᵀ + b.  Entry `(r, v)` of the
  output array therefore ends as one row of the input through the linear layer: the sum over `k` of `x (r, k) * W (v, k)`,
  plus `b v` — the narrowing of the operands to a shorter float format is the identity on the extended reals.
-/
import proofs.«105725_j43181601194591_2_alg».proof.Proof.Gen.KernelIdeal.Frame
import proofs.«105725_j43181601194591_2_alg».proof.Proof.Spec
import proofs.«105725_j43181601194591_2_alg».proof.Proof.LibTransposedDot
import proofs.«105725_j43181601194591_2_alg».proof.Proof.LibDense
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ProjQ

open Cert.KernelIdeal Cert.KernelIdeal.Gen AttnBlock

theorem hz2 : (![0, 0] : Fin 2 → Nat) = fun _ => 0 := funext fun a => by fin_cases a <;> rfl
theorem hz1 : (![0] : Fin 1 → Nat) = fun _ => 0 := funext fun a => by fin_cases a <;> rfl

/-- The tile's payload at an entry: row `p` of the tile through the linear layer. -/
theorem pay_apply (x0 : Vec Ideal S512x1024 .f32) (x1 : Vec Ideal S1024x1024 .bf16) (x2 : Vec Ideal S1024 .f32)
    (p : Fin 512) (q : Fin 1024) :
    k0_pay1 (F := Ideal) x0 x1 x2 (ix2 p q) = lin (fun k => x0 (ix2 p k)) (mat x1) (vec x2) q := by
  unfold k0_pay1
  beta_reduce
  refine (congrArg₂ (· + ·)
    (TransposedDot.matmul_zero_apply dot_S512x1024_S1024x1024_S512x1024_1_1_0_0_n_n rfl none _ _ p q)
    (DenseLayer.castRow_apply x2 shapeCasts_S1024_S1x1024 broadcasts_S1x1024_S512x1024 p q)).trans ?_
  simp only [shapeCast_self]
  rfl

variable (V : (c : Dev nD) → (b : Ref sig .tc) → Buf (Elt Ideal) ((c : Thread nD τ).loc b))

/-- Entry `(r, v)` of the region's output: row `r` of the flat input through the linear layer. -/
def rowLin (c : Dev nD) (r : Fin 4096) (v : Fin 1024) : EReal :=
  lin (fun k => (V c main_v0 : S4096x1024.Idx → EReal) (ix2 r k)) (mat (V c main_v2 : S1024x1024.Idx → EReal))
    (vec (V c main_arg3 : S1024.Idx → EReal)) v

/-- The region's output array as a function of the contents it is entered with. -/
def outQ (c : Dev nD) : S4096x1024.Idx → EReal := fun i => rowLin V c (i 0) (i 1)

/-- The index maps over the grid: the input tile and the output tile are tile `t` of their arrays, the weight
    and the bias are taken whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- A tile's payload at an entry, from where the tile's rows, the weight and the bias sit in their arrays. -/
theorem tile_entry (A : S4096x1024.Idx → EReal) (W : S1024x1024.Idx → EReal) (B : S1024.Idx → EReal)
    (x0 : Vec Ideal S512x1024 .f32) (x1 : Vec Ideal S1024x1024 .bf16) (x2 : Vec Ideal S1024 .f32)
    (j : S512x1024.Idx) (r : Fin 4096) (v : Fin 1024)
    (h0 : ∀ k : Fin 1024, x0 (ix2 (j 0) k) = A (ix2 r k)) (h1 : ∀ a, x1 a = W a) (h2 : ∀ a, x2 a = B a)
    (hv : v.val = (j 1).val) :
    k0_pay1 (F := Ideal) x0 x1 x2 j = lin (fun k => A (ix2 r k)) (mat W) (vec B) v := by
  obtain ⟨p, q, rfl⟩ : ∃ (p : Fin 512) (q : Fin 1024), j = ix2 p q := ⟨j 0, j 1, eq_ix2 j⟩
  obtain rfl : v = q := Fin.ext hv
  rw [pay_apply]
  unfold lin
  congr 1
  · refine Finset.sum_congr rfl fun k _ => ?_
    show x0 (ix2 p k) * x1 (ix2 v k) = A (ix2 r k) * W (ix2 v k)
    rw [show x0 (ix2 p k) = A (ix2 r k) from h0 k, h1]
  · show x2 (ix1 v) = B (ix1 v)
    exact h2 _

/-- What tile `t` writes back is tile `t` of `outQ`. -/
theorem flushed_eq (c : Dev nD) (t : Fin cfg0.N) :
    (dat0 V c).flushed 3 t = ((cfg0.win 3).blk t).view.read (Elt Ideal) (outQ V c) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S1024x1024) hz2, View.ld_unit_zero (S := S1024) hz1]
  funext j
  show k0_pay1 (F := Ideal) (iblk0 V c 0 t) (iblk0 V c 1 t) (iblk0 V c 2 t) j
    = rowLin V c ((((cfg0.win 3).blk t).view.emb j) 0) ((((cfg0.win 3).blk t).view.emb j) 1)
  obtain ⟨e00, e01, e10, e11, e20, e30, e31⟩ := idx_facts t
  refine tile_entry (V c main_v0) (V c main_v2) (V c main_arg3) _ _ _ j _ _ (fun k => ?_) (fun a => ?_) (fun a => ?_) ?_
  · show V c main_v0 (((cfg0.win 0).blk t).view.emb (ix2 (j 0) k)) = V c main_v0 (ix2 ((((cfg0.win 3).blk t).view.emb j) 0) k)
    congr 1; funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * k.val = k.val; omega
  · show V c main_v2 (((cfg0.win 1).blk t).view.emb a) = V c main_v2 a
    congr 1; funext b; apply Fin.ext
    match b with
    | ⟨0, _⟩ => show win0_1.index t (0 : Fin 2) * 1024 + 1 * (a 0).val = (a 0).val; omega
    | ⟨1, _⟩ => show win0_1.index t (1 : Fin 2) * 1024 + 1 * (a 1).val = (a 1).val; omega
  · show V c main_arg3 (((cfg0.win 2).blk t).view.emb a) = V c main_arg3 a
    congr 1; funext b; apply Fin.ext
    match b with
    | ⟨0, _⟩ => show win0_2.index t (0 : Fin 1) * 1024 + 1 * (a 0).val = (a 0).val; omega
  · show win0_3.index t (1 : Fin 2) * 1024 + 1 * (j 1).val = (j 1).val; omega

/-- An index of the output array is in tile `t`'s block iff each coordinate is in the block's range on its axis. -/
theorem mem_blk (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v6).slice (win0_3.rect t)).set ↔ _
  rw [View.set_slice_whole, Rect.mem_set_unit]
  exact Iff.rfl

/-- After the region the output array is `outQ`: row `r` lies in tile `r / 512`, and every tile is written back. -/
theorem final (c : Dev nD) : (dat0 V c).arrAt 3 cfg0.N = outQ V c :=
  (dat0 V c).arrAt_eq_of_cover 3 (outQ V c) (fun t _ => flushed_eq V c t) fun i => by
    have hi0 : (i 0).val < 4096 := (i 0).isLt
    have hi1 : (i 1).val < 1024 := (i 1).isLt
    have hN : cfg0.N = 8 := N_0
    refine ⟨⟨(i 0).val / 512, by rw [hN]; omega⟩, flush0_3 _, ?_⟩
    rw [mem_blk]
    obtain ⟨-, -, -, -, -, e30, e31⟩ := idx_facts ⟨(i 0).val / 512, by rw [hN]; omega⟩
    intro a
    match a with
    | ⟨0, _⟩ =>
      show win0_3.index _ (0 : Fin 2) * 512 ≤ (i 0).val ∧ (i 0).val < win0_3.index _ (0 : Fin 2) * 512 + 512
      rw [e30]; show (i 0).val / 512 * 512 ≤ (i 0).val ∧ (i 0).val < (i 0).val / 512 * 512 + 512; omega
    | ⟨1, _⟩ =>
      show win0_3.index _ (1 : Fin 2) * 1024 ≤ (i 1).val ∧ (i 1).val < win0_3.index _ (1 : Fin 2) * 1024 + 1024
      rw [e31]; omega

end Cert.KernelIdeal.ProjQ

end
-- ==== Proof.ProjKV.lean ====
/-
  The key and value projections' region: what its two output arrays hold after the run.

  The region walks 8 row tiles of 512 rows.  At tile `t` it reads rows `512 t …` of the flat input, the whole packed weight
  `[2048, 1024]` (the key weight above the value weight) and the whole packed bias `[2048]`, forms  x · Wᵀ + b  of width
  2048, and writes its columns `0 … 1023` to the first output and `1024 … 2047` to the second.  Entry `(r, v)` of the first
  output is therefore row `r` through the packed linear layer at column `v`, and of the second at column `1024 + v`.
-/
import proofs.«105725_j43181601194591_2_alg».proof.Proof.Gen.KernelIdeal.Frame
import proofs.«105725_j43181601194591_2_alg».proof.Proof.Spec
import proofs.«105725_j43181601194591_2_alg».proof.Proof.LibTransposedDot
import proofs.«105725_j43181601194591_2_alg».proof.Proof.LibDense
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ProjKV

open Cert.KernelIdeal Cert.KernelIdeal.Gen AttnBlock

theorem hz2 : (![0, 0] : Fin 2 → Nat) = fun _ => 0 := funext fun a => by fin_cases a <;> rfl
theorem hz1 : (![0] : Fin 1 → Nat) = fun _ => 0 := funext fun a => by fin_cases a <;> rfl

/-- The tile's packed product at an entry: row `p` of the tile through the packed linear layer. -/
theorem pay1_apply (x0 : Vec Ideal S512x1024 .f32) (x1 : Vec Ideal S2048x1024 .bf16) (x2 : Vec Ideal S2048 .f32)
    (p : Fin 512) (u : Fin 2048) :
    k1_pay1 (F := Ideal) x0 x1 x2 (ix2 p u) = lin (fun k => x0 (ix2 p k)) (mat x1) (vec x2) u := by
  unfold k1_pay1
  beta_reduce
  refine (congrArg₂ (· + ·)
    (TransposedDot.matmul_zero_apply dot_S512x1024_S2048x1024_S512x2048_1_1_0_0_n_n rfl none _ _ p u)
    (DenseLayer.castRow_apply (shapeCast S2048 x2 shapeCasts_S2048_S2048) shapeCasts_S2048_S1x2048 broadcasts_S1x2048_S512x2048 p u)).trans ?_
  simp only [shapeCast_self]
  rfl

/-- The left half of a `[512, 2048]` array: columns `0 … 1023`. -/
theorem slice_lo (y : FVec Ideal S512x2048 .f32) (p : Fin 512) (q : Fin 1024) :
    extractStridedSlice S512x1024 ![0, 0] y slices_S512x2048_o0_0_S512x1024 (ix2 p q) = y (ix2 p (lo q)) := by
  refine extractStridedSlice_apply ![0, 0] y slices_S512x2048_o0_0_S512x1024 (ix2 p q) (ix2 p (lo q)) fun ax => ?_
  match ax with
  | ⟨0, _⟩ => show p.val = 0 + p.val; omega
  | ⟨1, _⟩ => show q.val = 0 + q.val; omega

/-- The right half: columns `1024 … 2047`. -/
theorem slice_hi (y : FVec Ideal S512x2048 .f32) (p : Fin 512) (q : Fin 1024) :
    extractStridedSlice S512x1024 ![0, 1024] y slices_S512x2048_o0_1024_S512x1024 (ix2 p q) = y (ix2 p (hi q)) := by
  refine extractStridedSlice_apply ![0, 1024] y slices_S512x2048_o0_1024_S512x1024 (ix2 p q) (ix2 p (hi q)) fun ax => ?_
  match ax with
  | ⟨0, _⟩ => show p.val = 0 + p.val; omega
  | ⟨1, _⟩ => show 1024 + q.val = 1024 + q.val; rfl

/-- The left half of the packed product. -/
theorem pay2_apply (x0 : Vec Ideal S512x1024 .f32) (x1 : Vec Ideal S2048x1024 .bf16) (x2 : Vec Ideal S2048 .f32)
    (p : Fin 512) (q : Fin 1024) :
    k1_pay2 (F := Ideal) x0 x1 x2 (ix2 p q) = lin (fun k => x0 (ix2 p k)) (mat x1) (vec x2) (lo q) :=
  (slice_lo (k1_pay1 (F := Ideal) x0 x1 x2) p q).trans (pay1_apply x0 x1 x2 p (lo q))

/-- The right half of the packed product. -/
theorem pay3_apply (x0 : Vec Ideal S512x1024 .f32) (x1 : Vec Ideal S2048x1024 .bf16) (x2 : Vec Ideal S2048 .f32)
    (p : Fin 512) (q : Fin 1024) :
    k1_pay3 (F := Ideal) x0 x1 x2 (ix2 p q) = lin (fun k => x0 (ix2 p k)) (mat x1) (vec x2) (hi q) :=
  (slice_hi (k1_pay1 (F := Ideal) x0 x1 x2) p q).trans (pay1_apply x0 x1 x2 p (hi q))

variable (V : (c : Dev nD) → (b : Ref sig .tc) → Buf (Elt Ideal) ((c : Thread nD τ).loc b))

/-- Row `r` of the flat input through the packed linear layer, at packed column `u`. -/
def rowLin (c : Dev nD) (r : Fin 4096) (u : Fin 2048) : EReal :=
  lin (fun k => (V c main_v1 : S4096x1024.Idx → EReal) (ix2 r k)) (mat (V c main_v4 : S2048x1024.Idx → EReal))
    (vec (V c main_v5 : S2048.Idx → EReal)) u

/-- The region's two output arrays as functions of the contents it is entered with. -/
def outK (c : Dev nD) : S4096x1024.Idx → EReal := fun i => rowLin V c (i 0) (lo (i 1))
def outV (c : Dev nD) : S4096x1024.Idx → EReal := fun i => rowLin V c (i 0) (hi (i 1))

/-- The index maps over the grid: the input tile and both output tiles are tile `t` of their arrays, the packed
    weight and bias are taken whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The packed linear layer of a tile's row is that of the array's row, from where the tile's rows, the weight and the
    bias sit in their arrays. -/
theorem tile_entry (A : S4096x1024.Idx → EReal) (W : S2048x1024.Idx → EReal) (B : S2048.Idx → EReal)
    (x0 : Vec Ideal S512x1024 .f32) (x1 : Vec Ideal S2048x1024 .bf16) (x2 : Vec Ideal S2048 .f32)
    (p : Fin 512) (r : Fin 4096) (u : Fin 2048)
    (h0 : ∀ k : Fin 1024, x0 (ix2 p k) = A (ix2 r k)) (h1 : ∀ a, x1 a = W a) (h2 : ∀ a, x2 a = B a) :
    lin (fun k => x0 (ix2 p k)) (mat x1) (vec x2) u = lin (fun k => A (ix2 r k)) (mat W) (vec B) u := by
  unfold lin
  congr 1
  · refine Finset.sum_congr rfl fun k _ => ?_
    show x0 (ix2 p k) * x1 (ix2 u k) = A (ix2 r k) * W (ix2 u k)
    rw [h0 k, h1]
  · show x2 (ix1 u) = B (ix1 u)
    exact h2 _

/-- Where the blocks of tile `t` sit: the input tile's row `p` is row `512 t + p` of the array, the weight and the bias are
    whole. -/
theorem blocks (c : Dev nD) (t : Fin cfg1.N) (p : Fin 512) (r : Fin 4096) (hr : r.val = t.val * 512 + p.val) :
    (∀ k : Fin 1024, (iblk1 V c 0 t : Vec Ideal S512x1024 .f32) (ix2 p k) = (V c main_v1 : S4096x1024.Idx → EReal) (ix2 r k))
    ∧ (∀ a, (iblk1 V c 1 t : Vec Ideal S2048x1024 .bf16) a = (V c main_v4 : S2048x1024.Idx → EReal) a)
    ∧ (∀ a, (iblk1 V c 2 t : Vec Ideal S2048 .f32) a = (V c main_v5 : S2048.Idx → EReal) a) := by
  obtain ⟨e00, e01, e10, e11, e20, -, -, -, -⟩ := idx_facts t
  refine ⟨fun k => ?_, fun a => ?_, fun a => ?_⟩
  · show V c main_v1 (((cfg1.win 0).blk t).view.emb (ix2 p k)) = V c main_v1 (ix2 r k)
    congr 1; funext a; apply Fin.ext
    match a with
    | ⟨0, _⟩ => show win1_0.index t (0 : Fin 2) * 512 + 1 * p.val = r.val; omega
    | ⟨1, _⟩ => show win1_0.index t (1 : Fin 2) * 1024 + 1 * k.val = k.val; omega
  · show V c main_v4 (((cfg1.win 1).blk t).view.emb a) = V c main_v4 a
    congr 1; funext b; apply Fin.ext
    match b with
    | ⟨0, _⟩ => show win1_1.index t (0 : Fin 2) * 2048 + 1 * (a 0).val = (a 0).val; omega
    | ⟨1, _⟩ => show win1_1.index t (1 : Fin 2) * 1024 + 1 * (a 1).val = (a 1).val; omega
  · show V c main_v5 (((cfg1.win 2).blk t).view.emb a) = V c main_v5 a
    congr 1; funext b; apply Fin.ext
    match b with
    | ⟨0, _⟩ => show win1_2.index t (0 : Fin 1) * 2048 + 1 * (a 0).val = (a 0).val; omega

/-- What tile `t` writes back to the first output is tile `t` of `outK`. -/
theorem flushedK_eq (c : Dev nD) (t : Fin cfg1.N) :
    (dat1 V c).flushed 3 t = ((cfg1.win 3).blk t).view.read (Elt Ideal) (outK V c) := by
  show (cfg1.win 3).cut (grid1.coords t) ((dat1 V c).after 3 t) = _
  rw [after1_3]
  unfold out1_3
  rw [View.canon_unit_zero hz2]
  simp only [View.ld_unit_zero (S := S512x1024) hz2, View.ld_unit_zero (S := S2048x1024) hz2, View.ld_unit_zero (S := S2048) hz1]
  funext j
  show k1_pay2 (F := Ideal) (iblk1 V c 0 t) (iblk1 V c 1 t) (iblk1 V c 2 t) j
    = rowLin V c ((((cfg1.win 3).blk t).view.emb j) 0) (lo ((((cfg1.win 3).blk t).view.emb j) 1))
  obtain ⟨-, -, -, -, -, e30, e31, -, -⟩ := idx_facts t
  have hj : j = ix2 (j 0) (j 1) := eq_ix2 (n0 := 512) (n1 := 1024) j
  have hcol : ((((cfg1.win 3).blk t).view.emb j) 1) = j 1 :=
    Fin.ext (show win1_3.index t (1 : Fin 2) * 1024 + 1 * (j 1).val = (j 1).val by omega)
  obtain ⟨b0, b1, b2⟩ := blocks V c t (j 0) ((((cfg1.win 3).blk t).view.emb j) 0)
    (show win1_3.index t (0 : Fin 2) * 512 + 1 * (j 0).val = t.val * 512 + (j 0).val by omega)
  rw [hcol]
  refine (congrArg (k1_pay2 (F := Ideal) (iblk1 V c 0 t) (iblk1 V c 1 t) (iblk1 V c 2 t)) hj).trans ?_
  exact (pay2_apply _ _ _ (j 0) (j 1)).trans (tile_entry _ _ _ _ _ _ (j 0) _ (lo (j 1)) b0 b1 b2)

/-- What tile `t` writes back to the second output is tile `t` of `outV`. -/
theorem flushedV_eq (c : Dev nD) (t : Fin cfg1.N) :
    (dat1 V c).flushed 4 t = ((cfg1.win 4).blk t).view.read (Elt Ideal) (outV V c) := by
  show (cfg1.win 4).cut (grid1.coords t) ((dat1 V c).after 4 t) = _
  rw [after1_4]
  unfold out1_4
  rw [View.canon_unit_zero hz2]
  simp only [View.ld_unit_zero (S := S512x1024) hz2, View.ld_unit_zero (S := S2048x1024) hz2, View.ld_unit_zero (S := S2048) hz1]
  funext j
  show k1_pay3 (F := Ideal) (iblk1 V c 0 t) (iblk1 V c 1 t) (iblk1 V c 2 t) j
    = rowLin V c ((((cfg1.win 4).blk t).view.emb j) 0) (hi ((((cfg1.win 4).blk t).view.emb j) 1))
  obtain ⟨-, -, -, -, -, -, -, e40, e41⟩ := idx_facts t
  have hj : j = ix2 (j 0) (j 1) := eq_ix2 (n0 := 512) (n1 := 1024) j
  have hcol : ((((cfg1.win 4).blk t).view.emb j) 1) = j 1 :=
    Fin.ext (show win1_4.index t (1 : Fin 2) * 1024 + 1 * (j 1).val = (j 1).val by omega)
  obtain ⟨b0, b1, b2⟩ := blocks V c t (j 0) ((((cfg1.win 4).blk t).view.emb j) 0)
    (show win1_4.index t (0 : Fin 2) * 512 + 1 * (j 0).val = t.val * 512 + (j 0).val by omega)
  rw [hcol]
  refine (congrArg (k1_pay3 (F := Ideal) (iblk1 V c 0 t) (iblk1 V c 1 t) (iblk1 V c 2 t)) hj).trans ?_
  exact (pay3_apply _ _ _ (j 0) (j 1)).trans (tile_entry _ _ _ _ _ _ (j 0) _ (hi (j 1)) b0 b1 b2)

/-- An index of output one is in tile `t`'s block iff each coordinate is in the block's range on its axis. -/
theorem mem_blkK (t : Fin cfg1.N) (i : S4096x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v7_0).slice (win1_3.rect t)).set ↔ _
  rw [View.set_slice_whole, Rect.mem_set_unit]
  exact Iff.rfl

/-- After the region output one is `outK`: row `r` lies in tile `r / 512`, and every tile is written back. -/
theorem finalK (c : Dev nD) : (dat1 V c).arrAt 3 cfg1.N = outK V c :=
  (dat1 V c).arrAt_eq_of_cover 3 (outK V c) (fun t _ => flushedK_eq V c t) fun i => by
    have hi0 : (i 0).val < 4096 := (i 0).isLt
    have hi1 : (i 1).val < 1024 := (i 1).isLt
    have hN : cfg1.N = 8 := N_1
    refine ⟨⟨(i 0).val / 512, by rw [hN]; omega⟩, flush1_3 _, ?_⟩
    rw [mem_blkK]
    obtain ⟨-, -, -, -, -, e30, e31, e40, e41⟩ := idx_facts ⟨(i 0).val / 512, by rw [hN]; omega⟩
    intro a
    match a with
    | ⟨0, _⟩ =>
      show win1_3.index _ (0 : Fin 2) * 512 ≤ (i 0).val ∧ (i 0).val < win1_3.index _ (0 : Fin 2) * 512 + 512
      rw [e30]; show (i 0).val / 512 * 512 ≤ (i 0).val ∧ (i 0).val < (i 0).val / 512 * 512 + 512; omega
    | ⟨1, _⟩ =>
      show win1_3.index _ (1 : Fin 2) * 1024 ≤ (i 1).val ∧ (i 1).val < win1_3.index _ (1 : Fin 2) * 1024 + 1024
      rw [e31]; omega

/-- An index of output two is in tile `t`'s block iff each coordinate is in the block's range on its axis. -/
theorem mem_blkV (t : Fin cfg1.N) (i : S4096x1024.Idx) :
    i ∈ ((cfg1.win 4).blk t).view.set ↔ ∀ a : Fin 2, win1_4.index t a * S512x1024.size a ≤ (i a).val
      ∧ (i a).val < win1_4.index t a * S512x1024.size a + S512x1024.size a := by
  show i ∈ ((View.whole main_v7_1).slice (win1_4.rect t)).set ↔ _
  rw [View.set_slice_whole, Rect.mem_set_unit]
  exact Iff.rfl

/-- After the region output two is `outV`: row `r` lies in tile `r / 512`, and every tile is written back. -/
theorem finalV (c : Dev nD) : (dat1 V c).arrAt 4 cfg1.N = outV V c :=
  (dat1 V c).arrAt_eq_of_cover 4 (outV V c) (fun t _ => flushedV_eq V c t) fun i => by
    have hi0 : (i 0).val < 4096 := (i 0).isLt
    have hi1 : (i 1).val < 1024 := (i 1).isLt
    have hN : cfg1.N = 8 := N_1
    refine ⟨⟨(i 0).val / 512, by rw [hN]; omega⟩, flush1_4 _, ?_⟩
    rw [mem_blkV]
    obtain ⟨-, -, -, -, -, e30, e31, e40, e41⟩ := idx_facts ⟨(i 0).val / 512, by rw [hN]; omega⟩
    intro a
    match a with
    | ⟨0, _⟩ =>
      show win1_4.index _ (0 : Fin 2) * 512 ≤ (i 0).val ∧ (i 0).val < win1_4.index _ (0 : Fin 2) * 512 + 512
      rw [e40]; show (i 0).val / 512 * 512 ≤ (i 0).val ∧ (i 0).val < (i 0).val / 512 * 512 + 512; omega
    | ⟨1, _⟩ =>
      show win1_4.index _ (1 : Fin 2) * 1024 ≤ (i 1).val ∧ (i 1).val < win1_4.index _ (1 : Fin 2) * 1024 + 1024
      rw [e41]; omega

end Cert.KernelIdeal.ProjKV

end
-- ==== Proof.ChainFront.lean ====
/-
  The contents of the idealized kernel's buffers at the boundaries of its first two regions, in terms of the launch memory.

  Before the first region the host reshapes the two inputs `[4, 1024, 1024]` to flat `[4096, 1024]` arrays (row
  `b * 1024 + n`), narrows the query weight, and packs the key weight above the value weight and the key bias before the
  value bias.  Narrowing is the identity on the extended reals.  So the first region leaves the query projection of the
  launch arrays, and the second region, whose packed product is read at column `v` and at column `1024 + v`, leaves the
  key and the value projections: each as a flat array whose row `b * 1024 + n` is the projection at `(b, n)`.
-/
import proofs.«105725_j43181601194591_2_alg».proof.Proof.Gen.KernelIdeal.Frame
import proofs.«105725_j43181601194591_2_alg».proof.Proof.Spec
import proofs.«105725_j43181601194591_2_alg».proof.Proof.ProjQ
import proofs.«105725_j43181601194591_2_alg».proof.Proof.ProjKV
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen AttnBlock

variable (m : (ℓ : Loc nD τ sig) → Buf (Elt Ideal) ℓ) (ρ : Dev nD → PrngReg)

/-! ## Layout operations read at coordinates -/

/-- A `[4, 1024, 1024]` array reshaped to `[4096, 1024]`: row `b * 1024 + n` is position `(b, n)`. -/
theorem flatten_apply (x : S4x1024x1024.Idx → EReal) (b : Fin 4) (n k : Fin 1024) :
    shapeCast S4096x1024 x shapeCasts_S4x1024x1024_S4096x1024 (ix2 (row b n) k) = x (ix3 b n k) :=
  shapeCast_apply x shapeCasts_S4x1024x1024_S4096x1024 _ _ (by
    rw [Shape.rowMajor_val_three, Shape.rowMajor_val_two]
    show (b.val * 1024 + n.val) * 1024 + k.val = (b.val * 1024 + n.val) * 1024 + k.val
    rfl)

/-- The upper half of two `[1024, 1024]` matrices packed one above the other is the first. -/
theorem packed_mat_lo (x₁ x₂ : S1024x1024.Idx → EReal) (v k : Fin 1024) :
    concatenate S2048x1024 0 [⟨S1024x1024, x₁⟩, ⟨S1024x1024, x₂⟩] concatenates_S1024x1024_S1024x1024_S2048x1024_d0 (ix2 (lo v) k)
      = x₁ (ix2 v k) :=
  concatenate_pair_apply_left (0 : Fin 2) x₁ x₂ concatenates_S1024x1024_S1024x1024_S2048x1024_d0 (ix2 (lo v) k) rfl (ix2 v k)
    (fun b => by match b with | ⟨0, _⟩ => rfl | ⟨1, _⟩ => rfl)

/-- The lower half is the second. -/
theorem packed_mat_hi (x₁ x₂ : S1024x1024.Idx → EReal) (v k : Fin 1024) :
    concatenate S2048x1024 0 [⟨S1024x1024, x₁⟩, ⟨S1024x1024, x₂⟩] concatenates_S1024x1024_S1024x1024_S2048x1024_d0 (ix2 (hi v) k)
      = x₂ (ix2 v k) :=
  concatenate_pair_apply_right (0 : Fin 2) x₁ x₂ concatenates_S1024x1024_S1024x1024_S2048x1024_d0 (ix2 (hi v) k) rfl rfl (ix2 v k)
    (fun b hb => by match b with | ⟨0, _⟩ => exact absurd rfl hb | ⟨1, _⟩ => rfl)
    (by show v.val + 1024 = 1024 + v.val; omega)

/-- The same for two `[1024]` vectors packed end to end. -/
theorem packed_vec_lo (x₁ x₂ : S1024.Idx → EReal) (v : Fin 1024) :
    concatenate S2048 0 [⟨S1024, x₁⟩, ⟨S1024, x₂⟩] concatenates_S1024_S1024_S2048_d0 (ix1 (lo v)) = x₁ (ix1 v) :=
  concatenate_pair_apply_left (0 : Fin 1) x₁ x₂ concatenates_S1024_S1024_S2048_d0 (ix1 (lo v)) rfl (ix1 v)
    (fun b => by match b with | ⟨0, _⟩ => rfl)

theorem packed_vec_hi (x₁ x₂ : S1024.Idx → EReal) (v : Fin 1024) :
    concatenate S2048 0 [⟨S1024, x₁⟩, ⟨S1024, x₂⟩] concatenates_S1024_S1024_S2048_d0 (ix1 (hi v)) = x₂ (ix1 v) :=
  concatenate_pair_apply_right (0 : Fin 1) x₁ x₂ concatenates_S1024_S1024_S2048_d0 (ix1 (hi v)) rfl rfl (ix1 v)
    (fun b hb => by match b with | ⟨0, _⟩ => exact absurd rfl hb)
    (by show v.val + 1024 = 1024 + v.val; omega)

/-! ## Before the first region -/

theorem V1_v0 (c : Dev nD) : (V1 m ρ c main_v0 : S4096x1024.Idx → EReal)
    = shapeCast S4096x1024 (m ((c : Thread nD τ).loc main_arg0) : S4x1024x1024.Idx → EReal) shapeCasts_S4x1024x1024_S4096x1024 := by
  show StableHlo.after hostOps0 (W0 m ρ c) (Proc.devRef .tc main_v0) = _
  after_results <;> rfl

theorem V1_v1 (c : Dev nD) : (V1 m ρ c main_v1 : S4096x1024.Idx → EReal)
    = shapeCast S4096x1024 (m ((c : Thread nD τ).loc main_arg1) : S4x1024x1024.Idx → EReal) shapeCasts_S4x1024x1024_S4096x1024 := by
  show StableHlo.after hostOps0 (W0 m ρ c) (Proc.devRef .tc main_v1) = _
  after_results <;> rfl

theorem V1_v2 (c : Dev nD) : (V1 m ρ c main_v2 : S1024x1024.Idx → EReal) = m ((c : Thread nD τ).loc main_arg2) := by
  show StableHlo.after hostOps0 (W0 m ρ c) (Proc.devRef .tc main_v2) = _
  after_results <;> rfl

theorem V1_arg3 (c : Dev nD) : (V1 m ρ c main_arg3 : S1024.Idx → EReal) = m ((c : Thread nD τ).loc main_arg3) := by
  show StableHlo.after hostOps0 (W0 m ρ c) (Proc.devRef .tc main_arg3) = _
  after_results

theorem V1_v4 (c : Dev nD) : (V1 m ρ c main_v4 : S2048x1024.Idx → EReal)
    = concatenate S2048x1024 0 [⟨S1024x1024, (m ((c : Thread nD τ).loc main_arg4) : S1024x1024.Idx → EReal)⟩,
        ⟨S1024x1024, (m ((c : Thread nD τ).loc main_arg6) : S1024x1024.Idx → EReal)⟩] concatenates_S1024x1024_S1024x1024_S2048x1024_d0 := by
  show StableHlo.after hostOps0 (W0 m ρ c) (Proc.devRef .tc main_v4) = _
  after_results <;> rfl

theorem V1_v5 (c : Dev nD) : (V1 m ρ c main_v5 : S2048.Idx → EReal)
    = concatenate S2048 0 [⟨S1024, (m ((c : Thread nD τ).loc main_arg5) : S1024.Idx → EReal)⟩,
        ⟨S1024, (m ((c : Thread nD τ).loc main_arg7) : S1024.Idx → EReal)⟩] concatenates_S1024_S1024_S2048_d0 := by
  show StableHlo.after hostOps0 (W0 m ρ c) (Proc.devRef .tc main_v5) = _
  after_results <;> rfl

/-! ## The three projections -/

/-- The launch arrays by coordinates. -/
abbrev Qin (c : Dev nD) : Act := act (m ((c : Thread nD τ).loc main_arg0) : S4x1024x1024.Idx → EReal)
abbrev Kin (c : Dev nD) : Act := act (m ((c : Thread nD τ).loc main_arg1) : S4x1024x1024.Idx → EReal)
abbrev Wq (c : Dev nD) : Mat 1024 1024 := mat (m ((c : Thread nD τ).loc main_arg2) : S1024x1024.Idx → EReal)
abbrev bq (c : Dev nD) : Vc 1024 := vec (m ((c : Thread nD τ).loc main_arg3) : S1024.Idx → EReal)
abbrev Wk (c : Dev nD) : Mat 1024 1024 := mat (m ((c : Thread nD τ).loc main_arg4) : S1024x1024.Idx → EReal)
abbrev bk (c : Dev nD) : Vc 1024 := vec (m ((c : Thread nD τ).loc main_arg5) : S1024.Idx → EReal)
abbrev Wv (c : Dev nD) : Mat 1024 1024 := mat (m ((c : Thread nD τ).loc main_arg6) : S1024x1024.Idx → EReal)
abbrev bv (c : Dev nD) : Vc 1024 := vec (m ((c : Thread nD τ).loc main_arg7) : S1024.Idx → EReal)

/-- After the first region `main_v6` holds the query projection. -/
theorem Qp_eq (c : Dev nD) :
    actFlat (V2 m ρ c main_v6 : S4096x1024.Idx → EReal) = proj (Qin m c) (Wq m c) (bq m c) := by
  have h : (V2 m ρ c main_v6 : S4096x1024.Idx → EReal) = ProjQ.outQ (V1 m ρ) c :=
    (W2_arr m ρ c 3).trans (ProjQ.final (V1 m ρ) c)
  rw [h]
  funext b n v
  show lin (fun k => (V1 m ρ c main_v0 : S4096x1024.Idx → EReal) (ix2 (row b n) k)) (mat (V1 m ρ c main_v2 : S1024x1024.Idx → EReal))
      (vec (V1 m ρ c main_arg3 : S1024.Idx → EReal)) v = lin (Qin m c b n) (Wq m c) (bq m c) v
  rw [V1_v0, V1_v2, V1_arg3]
  refine congrArg (fun f => lin f (Wq m c) (bq m c) v) (funext fun k => ?_)
  exact flatten_apply _ b n k

/-- The second region is entered with the first region's other buffers untouched. -/
theorem V2_v1 (c : Dev nD) : (V2 m ρ c main_v1 : S4096x1024.Idx → EReal) = V1 m ρ c main_v1 := W2_of_ne m ρ c main_v1 (by decide)
theorem V2_v4 (c : Dev nD) : (V2 m ρ c main_v4 : S2048x1024.Idx → EReal) = V1 m ρ c main_v4 := W2_of_ne m ρ c main_v4 (by decide)
theorem V2_v5 (c : Dev nD) : (V2 m ρ c main_v5 : S2048.Idx → EReal) = V1 m ρ c main_v5 := W2_of_ne m ρ c main_v5 (by decide)

/-- After the second region `main_v7_0` holds the key projection. -/
theorem Kp_eq (c : Dev nD) :
    actFlat (V3 m ρ c main_v7_0 : S4096x1024.Idx → EReal) = proj (Kin m c) (Wk m c) (bk m c) := by
  have h : (V3 m ρ c main_v7_0 : S4096x1024.Idx → EReal) = ProjKV.outK (V2 m ρ) c :=
    (W3_arr m ρ c 3).trans (ProjKV.finalK (V2 m ρ) c)
  rw [h]
  funext b n v
  show lin (fun k => (V2 m ρ c main_v1 : S4096x1024.Idx → EReal) (ix2 (row b n) k)) (mat (V2 m ρ c main_v4 : S2048x1024.Idx → EReal))
      (vec (V2 m ρ c main_v5 : S2048.Idx → EReal)) (lo v) = lin (Kin m c b n) (Wk m c) (bk m c) v
  rw [V2_v1, V2_v4, V2_v5, V1_v1, V1_v4, V1_v5]
  unfold lin
  refine congrArg₂ (· + ·) (Finset.sum_congr rfl fun k _ => ?_) (packed_vec_lo _ _ v)
  exact congrArg₂ (· * ·) (flatten_apply _ b n k) (packed_mat_lo _ _ v k)

/-- And `main_v7_1` the value projection. -/
theorem Vp_eq (c : Dev nD) :
    actFlat (V3 m ρ c main_v7_1 : S4096x1024.Idx → EReal) = proj (Kin m c) (Wv m c) (bv m c) := by
  have h : (V3 m ρ c main_v7_1 : S4096x1024.Idx → EReal) = ProjKV.outV (V2 m ρ) c :=
    (W3_arr m ρ c 4).trans (ProjKV.finalV (V2 m ρ) c)
  rw [h]
  funext b n v
  show lin (fun k => (V2 m ρ c main_v1 : S4096x1024.Idx → EReal) (ix2 (row b n) k)) (mat (V2 m ρ c main_v4 : S2048x1024.Idx → EReal))
      (vec (V2 m ρ c main_v5 : S2048.Idx → EReal)) (hi v) = lin (Kin m c b n) (Wv m c) (bv m c) v
  rw [V2_v1, V2_v4, V2_v5, V1_v1, V1_v4, V1_v5]
  unfold lin
  refine congrArg₂ (· + ·) (Finset.sum_congr rfl fun k _ => ?_) (packed_vec_hi _ _ v)
  exact congrArg₂ (· * ·) (flatten_apply _ b n k) (packed_mat_hi _ _ v k)

/-- The third region is entered with the query projection untouched by the second. -/
theorem V3_v6 (c : Dev nD) : (V3 m ρ c main_v6 : S4096x1024.Idx → EReal) = V2 m ρ c main_v6 := W3_of_ne m ρ c main_v6 (by decide)

end Cert.KernelIdeal.Chain

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibMaxSup.lean ====
/-
  Maxima from minus infinity at the ideal values are suprema.

  At the ideal values a float is an extended real, `maximumf` is `max`, and the f32 pattern 0xFF800000 is minus infinity,
  the bottom element. A fold of `max` from the bottom over a finite set is the supremum over the set, so
  - a `vector.multi_reduction <maximumf>` over one axis with the accumulator 0xFF800000, read at a result index, is the
    supremum over that axis's coordinates (`multiReduction_maximumf_negInf_single`), and
  - a host `stablehlo.reduce` with a maximum body from a rank-0 constant 0xFF800000, over any list of axes, read at a
    result index, is the supremum over the operand indices that drop to it (`hostReduce_maximumf_negInf`).
  Suprema need no finiteness hypothesis and no order of evaluation.
-/
import Idealize.ShloMosaic.PureOps.Ideal
import Idealize.ShloMosaic.PureOps.Ideal.Laws
import Idealize.ShloMosaic.PureOps.Reduce
import Mathlib.Data.Finset.Fold

noncomputable section

namespace MaxSup

open Idealize.ShloMosaic

/-- The f32 pattern of minus infinity denotes the bottom of the extended reals. -/
theorem neg_inf_f32 : Ideal.ofBits .f32 0xFF800000#32 = (⊥ : EReal) := by
  simp [Ideal.ofBits, Ideal.ieee]

/-- The same, spelt with the float operations' own `ofBits` read at the ideal values. -/
theorem neg_inf_f32' : (FloatOps.ofBits .f32 0xFF800000#32 : Ideal .f32) = (⊥ : EReal) := neg_inf_f32

/-- The fold of max from the bottom over a finite set is the supremum over the set. -/
theorem fold_max_bot_eq {ι : Type} (s : Finset ι) (f : ι → EReal) :
    s.fold max ⊥ f = ⨆ i, ⨆ _ : i ∈ s, f i := by
  apply le_antisymm
  · exact (Finset.fold_max_le _).mpr ⟨bot_le, fun i hi => le_iSup₂_of_le i hi le_rfl⟩
  · exact iSup₂_le fun i hi => (Finset.le_fold_max _).mpr (Or.inr ⟨i, hi, le_rfl⟩)

/-- Over a whole finite type it is the supremum over the type. -/
theorem fold_max_bot_univ {ι : Type} [Fintype ι] (f : ι → EReal) :
    (Finset.univ : Finset ι).fold max ⊥ f = ⨆ i, f i := by
  rw [fold_max_bot_eq]
  exact iSup_congr fun i => iSup_pos (Finset.mem_univ i)

/-- A `vector.multi_reduction <maximumf>` over ONE axis from minus infinity, read at the ideal values at a result index
    `j`: the supremum, over that axis's coordinates `k`, of the source at `j` with `k` inserted on the reduced axis. The
    accumulator's proof is typed as a printed program carries it. -/
theorem multiReduction_maximumf_negInf_single {s t : Shape} {a : Fin s.rank} (src : FVec Ideal s .f32)
    (h : s.Reduces [a] t) (hφ : FKind.Formats .f32)
    (hacc : (0xFF800000#32 : BitVec 32) = FKind.maximumf.neutral .f32 hφ) (j : t.Idx) :
    multiReduction (F := Ideal) .maximumf [a] t src 0xFF800000#32 h hφ hacc j
      = ⨆ k : Fin (s.size a), src (h.lift j k) := by
  refine (Ideal.multiReduction_maximumf_single src _ h hφ hacc j).trans ?_
  rw [neg_inf_f32', fold_max_bot_univ]
  rfl

/-- A host one-operand reduce with a maximum body from a rank-0 minus infinity, over any axes, read at the ideal values
    at a result index `j`: the supremum of the operand over the indices that drop to `j`. -/
theorem hostReduce_maximumf_negInf {s t : Shape} {axes : List (Fin s.rank)} (x : s.Idx → EReal)
    (h : s.ReducesTo axes t) (hu : 0 < (⟨0, ![]⟩ : Shape).numel) (j : t.Idx) :
    Host.reduce (FloatOps.maximumf (F := Ideal) (φ := .f32)) x (constant (F := Ideal) ⟨0, ![]⟩ .f32 0xFF800000#32) h hu j
      = ⨆ i, ⨆ _ : h.drop i = j, x i := by
  rw [Host.reduce_eq_fold]
  show (Finset.univ.filter fun i => h.drop i = j).fold max (Ideal.ofBits .f32 0xFF800000#32) x = _
  rw [neg_inf_f32, fold_max_bot_eq]
  exact iSup_congr fun i => iSup_congr_Prop (by simp) (fun _ => rfl)

end MaxSup

end
-- ==== Proof.Attention.lean ====
/-
  The attention region: what its two output arrays hold after the run.

  The region walks 8 head pairs by 4 batches.  At point (pair, batch) it reads the 128 columns of the pair from the 1024
  rows of the batch in the projected queries, keys and values.  The two heads of the pair are the column halves.  For
  each head the scores are the query rows against the key rows over the head's 64 columns, times 1/32; each row of
  scores goes through a softmax written with the row's supremum subtracted before the exponential.  The weights of the
  two heads are the two leading slices of the block of attention weights; the head's output, the query plus the weights
  times the values, is the head's column half of the output block.  Narrowing an operand to a shorter float format is
  the identity on the extended reals, and a maximum taken from minus infinity is a supremum.
-/
import proofs.«105725_j43181601194591_2_alg».proof.Proof.Gen.KernelIdeal.Frame
import proofs.«105725_j43181601194591_2_alg».proof.Proof.Spec
import proofs.«105725_j43181601194591_2_alg».proof.Proof.LibTransposedDot
import proofs.«105725_j43181601194591_2_alg».proof.Proof.LibPlainDot
import proofs.«105725_j43181601194591_2_alg».proof.Proof.LibRowReduce
import proofs.«105725_j43181601194591_2_alg».proof.Proof.LibColumns
import proofs.«105725_j43181601194591_2_alg».proof.Proof.LibMaxSup
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Attn

open Cert.KernelIdeal Cert.KernelIdeal.Gen AttnBlock

/-- Each row's maximum, spread back over the row. -/
def rowMaxB (x : FVec Ideal S1024x1024 .f32) : FVec Ideal S1024x1024 .f32 :=
  broadcastTo S1024x1024 (shapeCast S1024x1 (multiReduction .maximumf [1] S1024 x 0xFF800000#32 reduces_S1024x1024_S1024 (.inl rfl) rfl) shapeCasts_S1024_S1024x1) broadcasts_S1024x1_S1024x1024

/-- Each row's sum, spread back over the row. -/
def rowSumB (x : FVec Ideal S1024x1024 .f32) : FVec Ideal S1024x1024 .f32 :=
  broadcastTo S1024x1024 (shapeCast S1024x1 (multiReduction .add [1] S1024 x 0x00000000#32 reduces_S1024x1024_S1024 (.inl rfl) rfl) shapeCasts_S1024_S1024x1) broadcasts_S1024x1_S1024x1024

/-- The row softmax of a matrix of scores, as the region computes it. -/
def smax (x : FVec Ideal S1024x1024 .f32) : FVec Ideal S1024x1024 .f32 :=
  divf (exp (subf x (rowMaxB x))) (rowSumB (exp (subf x (rowMaxB x))))

theorem pay1_eq (v36 : FVec Ideal S1024x1024 .f32) (c : Ideal .f32) :
    k2_pay1 (F := Ideal) v36 c = smax (mulf v36 (broadcast S1024x1024 c)) := rfl

/-- The row maximum, spread back, at an entry: the supremum of the row. -/
theorem rowmax_apply (x : FVec Ideal S1024x1024 .f32) (p q : Fin 1024) :
    rowMaxB x (ix2 p q) = ⨆ k : Fin 1024, x (ix2 p k) := by
  unfold rowMaxB
  refine (broadcastTo_a1_ab_apply _ broadcasts_S1024x1_S1024x1024 p q).trans ?_
  refine (RowReduce.shapeCast_a_a1_apply _ shapeCasts_S1024_S1024x1 p 0).trans ?_
  refine (RowReduce.multiReduction_maximumf_row x 0xFF800000#32 reduces_S1024x1024_S1024 (.inl rfl) rfl p).trans ?_
  rw [MaxSup.neg_inf_f32, MaxSup.fold_max_bot_univ]

theorem rowsum_apply (x : FVec Ideal S1024x1024 .f32) (p q : Fin 1024) :
    rowSumB x (ix2 p q) = ∑ k : Fin 1024, x (ix2 p k) := by
  unfold rowSumB
  refine (broadcastTo_a1_ab_apply _ broadcasts_S1024x1_S1024x1024 p q).trans ?_
  refine (RowReduce.shapeCast_a_a1_apply _ shapeCasts_S1024_S1024x1 p 0).trans ?_
  exact RowReduce.multiReduction_add_row x 0x00000000#32 reduces_S1024x1024_S1024 (.inl rfl) rfl p

/-- The softmax at an entry. -/
theorem smax_apply (x : FVec Ideal S1024x1024 .f32) (p q : Fin 1024) :
    smax x (ix2 p q) = Ideal.div (Ideal.exp (x (ix2 p q) - ⨆ k : Fin 1024, x (ix2 p k)))
      (∑ j : Fin 1024, Ideal.exp (x (ix2 p j) - ⨆ k : Fin 1024, x (ix2 p k))) := by
  show Ideal.div (Ideal.exp (x (ix2 p q) - rowMaxB x (ix2 p q))) (rowSumB (exp (subf x (rowMaxB x))) (ix2 p q)) = _
  rw [rowmax_apply, rowsum_apply]
  refine congrArg (Ideal.div _) ?_
  refine Finset.sum_congr rfl fun j _ => ?_
  show Ideal.exp (x (ix2 p j) - rowMaxB x (ix2 p j)) = _
  rw [rowmax_apply]

/-- The softmax chain over an array that reads as the matrix `s`. -/
theorem smax_of (x : FVec Ideal S1024x1024 .f32) (s : Mat 1024 1024) (hs : ∀ p q, x (ix2 p q) = s p q) (p q : Fin 1024) :
    smax x (ix2 p q) = softmax s p q := by
  obtain rfl : s = fun p q => x (ix2 p q) := funext fun p => funext fun q => (hs p q).symm
  exact smax_apply x p q

/-- Column `d` of head `e` of a pair, inside the pair's 128 columns. -/
def cl (e : Fin 2) (d : Fin 64) : Fin 128 := ⟨e.val * 64 + d.val, by omega⟩

/-- A 64-column half of a block at an entry. -/
theorem half_apply (off : Fin 2 → ℕ) (e : Fin 2) (h0 : off 0 = 0) (h1 : off 1 = e.val * 64)
    (x : Vec Ideal S1024x128 .f32) (h : S1024x128.Slices off S1024x64) (p : Fin 1024) (d : Fin 64) :
    extractStridedSlice S1024x64 off (shapeCast S1024x128 x shapeCasts_S1024x128_S1024x128) h (ix2 p d) = x (ix2 p (cl e d)) := by
  rw [shapeCast_self]
  refine extractStridedSlice_apply off x h (ix2 p d) (ix2 p (cl e d)) fun ax => ?_
  match ax with
  | ⟨0, _⟩ => show p.val = off 0 + p.val; omega
  | ⟨1, _⟩ => show e.val * 64 + d.val = off 1 + d.val; omega

/-- A matrix cast to a `[1, 1, ·, ·]` array reads the matrix. -/
theorem cast4_apply {α : Type} (x : S1024x1024.Idx → α) (u v : Fin 1) (p q : Fin 1024) :
    shapeCast S1x1x1024x1024 x shapeCasts_S1024x1024_S1x1x1024x1024 (ix4 u v p q) = x (ix2 p q) :=
  shapeCast_apply x _ _ _ (by
    rw [Shape.rowMajor_val_two, Shape.rowMajor_val_four]
    show p.val * 1024 + q.val = ((u.val * 1 + v.val) * 1024 + p.val) * 1024 + q.val
    have := u.isLt; have := v.isLt; omega)

/-- The scores of head `e` of a pair: its 64 columns of the query block against the key block's, scaled. -/
def scM (e : Fin 2) (x0 x1 : Vec Ideal S1024x128 .f32) : Mat 1024 1024 := fun p q =>
  (∑ d : Fin 64, x0 (ix2 p (cl e d)) * x1 (ix2 q (cl e d))) * wInv32

/-- The first head's attention weights, as stored. -/
theorem pay9_apply (x0 x1 : Vec Ideal S1024x128 .f32) (u v : Fin 1) (p q : Fin 1024) :
    k2_pay9 (F := Ideal) x0 x1 (ix4 u v p q) = softmax (scM 0 x0 x1) p q := by
  unfold k2_pay9
  beta_reduce
  refine (cast4_apply _ u v p q).trans ?_
  refine smax_of _ _ (fun p q => ?_) p q
  show _ * Ideal.ofBits .f32 0x3D000000#32 = _ * wInv32
  refine congrArg₂ (· * ·) ?_ rfl
  refine (TransposedDot.matmul_zero_apply dot_S1024x64_S1024x64_S1024x1024_1_1_0_0_n_n rfl none _ _ p q).trans ?_
  refine Finset.sum_congr rfl fun d _ => ?_
  exact congrArg₂ (· * ·) (half_apply ![0, 0] 0 rfl rfl x0 slices_S1024x128_o0_0_S1024x64 p d)
    (half_apply ![0, 0] 0 rfl rfl x1 slices_S1024x128_o0_0_S1024x64 q d)

/-- The second head's scores before scaling. -/
theorem pay13_apply (x0 x1 : Vec Ideal S1024x128 .f32) (p q : Fin 1024) :
    k2_pay13 (F := Ideal) x0 x1 (ix2 p q) = ∑ d : Fin 64, x0 (ix2 p (cl 1 d)) * x1 (ix2 q (cl 1 d)) := by
  unfold k2_pay13
  beta_reduce
  refine (TransposedDot.matmul_zero_apply dot_S1024x64_S1024x64_S1024x1024_1_1_0_0_n_n rfl none _ _ p q).trans ?_
  refine Finset.sum_congr rfl fun d _ => ?_
  exact congrArg₂ (· * ·) (half_apply ![0, 64] 1 rfl rfl x0 slices_S1024x128_o0_64_S1024x64 p d)
    (half_apply ![0, 64] 1 rfl rfl x1 slices_S1024x128_o0_64_S1024x64 q d)

/-- The second head's attention weights, as stored. -/
theorem pay2_apply (x0 x1 : Vec Ideal S1024x128 .f32) (u v : Fin 1) (p q : Fin 1024) :
    k2_pay2 (F := Ideal) (k2_pay13 x0 x1) (Scalar.ofBits .f32 0x3D000000#32) (ix4 u v p q) = softmax (scM 1 x0 x1) p q := by
  unfold k2_pay2
  beta_reduce
  refine (cast4_apply _ u v p q).trans ?_
  rw [pay1_eq]
  refine smax_of _ _ (fun p q => ?_) p q
  show k2_pay13 x0 x1 (ix2 p q) * Ideal.ofBits .f32 0x3D000000#32 = _ * wInv32
  exact congrArg₂ (· * ·) (pay13_apply x0 x1 p q) rfl

theorem hz2 : (![0, 0] : Fin 2 → Nat) = fun _ => 0 := funext fun a => by fin_cases a <;> rfl

/-- What a block of attention weights holds: head `e` of the pair at leading index `e`. -/
def G4 (x0 x1 : Vec Ideal S1024x128 .f32) : S2x1x1024x1024.Idx → EReal := fun y => softmax (scM (y 0) x0 x1) (y 2) (y 3)

theorem G4_at (x0 x1 : Vec Ideal S1024x128 .f32) (y : S2x1x1024x1024.Idx) (e : Fin 2) (p q : Fin 1024)
    (h0 : (y 0).val = e.val) (h2 : (y 2).val = p.val) (h3 : (y 3).val = q.val) :
    G4 x0 x1 y = softmax (scM e x0 x1) p q := by
  obtain rfl : y 0 = e := Fin.ext h0
  obtain rfl : y 2 = p := Fin.ext h2
  obtain rfl : y 3 = q := Fin.ext h3
  rfl

/-- The block of attention weights the body leaves, at an index. -/
theorem out4_apply (x0 x1 x2 : Vec Ideal S1024x128 .f32) (y : S2x1x1024x1024.Idx) :
    out2_4 (F := Ideal) x0 x1 x2 y = G4 x0 x1 y := by
  unfold out2_4
  simp only [View.ld_unit_zero (S := S1024x128) hz2]
  refine View.canon_apply_of_pieces (Val := Elt Ideal) (e := .f32) (G4 x0 x1) _ (fun pc hpc x => ?_) y (cover2_4 _ _ y)
  rcases List.mem_cons.mp hpc with rfl | hpc'
  · obtain ⟨u, v, p, q, rfl⟩ : ∃ (u v : Fin 1) (p q : Fin 1024), x = ix4 u v p q := ⟨x 0, x 1, x 2, x 3, eq_ix4 x⟩
    refine (pay2_apply x0 x1 u v p q).trans (G4_at x0 x1 _ 1 p q ?_ ?_ ?_).symm
    · show 1 + 1 * u.val = 1; have := u.isLt; omega
    · show 0 + 1 * p.val = p.val; omega
    · show 0 + 1 * q.val = q.val; omega
  · obtain rfl := List.mem_singleton.mp hpc'
    obtain ⟨u, v, p, q, rfl⟩ : ∃ (u v : Fin 1) (p q : Fin 1024), x = ix4 u v p q := ⟨x 0, x 1, x 2, x 3, eq_ix4 x⟩
    refine (pay9_apply x0 x1 u v p q).trans (G4_at x0 x1 _ 0 p q ?_ ?_ ?_).symm
    · show 0 + 1 * u.val = 0; have := u.isLt; omega
    · show 0 + 1 * p.val = p.val; omega
    · show 0 + 1 * q.val = q.val; omega

/-- The block scores of head `e` of pair `hp` are the head's scores, when the blocks hold the pair's columns of batch `b`. -/
theorem scM_eq (Q K : Act) (x0 x1 : Vec Ideal S1024x128 .f32) (b : Fin 4) (hp : Fin 8) (e : Fin 2) (h : Fin 16)
    (hh : h.val = 2 * hp.val + e.val)
    (h0 : ∀ (n : Fin 1024) (c' : Fin 128) (v : Fin 1024), v.val = hp.val * 128 + c'.val → x0 (ix2 n c') = Q b n v)
    (h1 : ∀ (n : Fin 1024) (c' : Fin 128) (v : Fin 1024), v.val = hp.val * 128 + c'.val → x1 (ix2 n c') = K b n v) :
    scM e x0 x1 = score (headOf Q h b) (headOf K h b) := by
  funext p q
  unfold scM score headOf
  refine congrArg₂ (· * ·) (Finset.sum_congr rfl fun d _ => ?_) rfl
  have hc : (col h d).val = hp.val * 128 + (cl e d).val := by
    show h.val * 64 + d.val = hp.val * 128 + (e.val * 64 + d.val); omega
  exact congrArg₂ (· * ·) (h0 p (cl e d) (col h d) hc) (h1 q (cl e d) (col h d) hc)

variable (V : (c : Dev nD) → (b : Ref sig .tc) → Buf (Elt Ideal) ((c : Thread nD τ).loc b))

/-- The attention weights as a function of the contents the region is entered with. -/
def outA (c : Dev nD) : S16x4x1024x1024.Idx → EReal := fun i =>
  AttnBlock.attn (actFlat (V c main_v6 : S4096x1024.Idx → EReal)) (actFlat (V c main_v7_0 : S4096x1024.Idx → EReal)) (i 0) (i 1) (i 2) (i 3)

/-- The index maps over the grid: point `t` is head pair `t / 4` of batch `t % 4`; the three inputs and the first
    output take block (batch, pair) of their flat arrays, the attention weights block (pair, batch, 0, 0). -/
theorem idx_facts : ∀ t : Fin cfg2.N,
    win2_0.index t (0 : Fin 2) = t.val % 4 ∧ win2_0.index t (1 : Fin 2) = t.val / 4
    ∧ win2_1.index t (0 : Fin 2) = t.val % 4 ∧ win2_1.index t (1 : Fin 2) = t.val / 4
    ∧ win2_2.index t (0 : Fin 2) = t.val % 4 ∧ win2_2.index t (1 : Fin 2) = t.val / 4
    ∧ win2_3.index t (0 : Fin 2) = t.val % 4 ∧ win2_3.index t (1 : Fin 2) = t.val / 4
    ∧ win2_4.index t (0 : Fin 4) = t.val / 4 ∧ win2_4.index t (1 : Fin 4) = t.val % 4
    ∧ win2_4.index t (2 : Fin 4) = 0 ∧ win2_4.index t (3 : Fin 4) = 0 :=
  (by decide +kernel : ∀ t : Fin grid2.N, _)

/-- A block of attention weights at an entry, from where the query and key blocks sit in their arrays. -/
theorem tile4 (Q K : Act) (x0 x1 x2 : Vec Ideal S1024x128 .f32) (b : Fin 4) (hp : Fin 8)
    (h0 : ∀ (n : Fin 1024) (c' : Fin 128) (v : Fin 1024), v.val = hp.val * 128 + c'.val → x0 (ix2 n c') = Q b n v)
    (h1 : ∀ (n : Fin 1024) (c' : Fin 128) (v : Fin 1024), v.val = hp.val * 128 + c'.val → x1 (ix2 n c') = K b n v)
    (j : S2x1x1024x1024.Idx) (h : Fin 16) (i2 i3 : Fin 1024)
    (hh : h.val = 2 * hp.val + (j 0).val) (h2 : i2.val = (j 2).val) (h3 : i3.val = (j 3).val) :
    out2_4 (F := Ideal) x0 x1 x2 j = attn Q K h b i2 i3 := by
  rw [out4_apply]
  refine (G4_at x0 x1 j (j 0) i2 i3 rfl h2.symm h3.symm).trans ?_
  unfold attn
  rw [scM_eq Q K x0 x1 b hp (j 0) h hh h0 h1]

/-- What point `t` writes back of the attention weights is block `t` of `outA`. -/
theorem flushed_eq4 (c : Dev nD) (t : Fin cfg2.N) :
    (dat2 V c).flushed 4 t = ((cfg2.win 4).blk t).view.read (Elt Ideal) (outA V c) := by
  show (cfg2.win 4).cut (grid2.coords t) ((dat2 V c).after 4 t) = _
  rw [after2_4]
  funext j
  show out2_4 (F := Ideal) (iblk2 V c 0 t) (iblk2 V c 1 t) (iblk2 V c 2 t) j
    = attn (actFlat (V c main_v6 : S4096x1024.Idx → EReal)) (actFlat (V c main_v7_0 : S4096x1024.Idx → EReal))
        ((((cfg2.win 4).blk t).view.emb j) 0) ((((cfg2.win 4).blk t).view.emb j) 1)
        ((((cfg2.win 4).blk t).view.emb j) 2) ((((cfg2.win 4).blk t).view.emb j) 3)
  obtain ⟨e00, e01, e10, e11, e20, e21, e30, e31, e40, e41, e42, e43⟩ := idx_facts t
  have ht : t.val < 32 := by have := t.isLt; have hN : cfg2.N = 32 := N_2; omega
  have hj1 : (j 1).val < 1 := (j 1).isLt
  refine tile4 _ _ _ _ _ _ ⟨t.val / 4, by omega⟩ (fun n c' v hv => ?_) (fun n c' v hv => ?_) j _ _ _ ?_ ?_ ?_
  · show V c main_v6 (((cfg2.win 0).blk t).view.emb (ix2 n c')) = V c main_v6 (ix2 (row ((((cfg2.win 4).blk t).view.emb j) 1) n) v)
    congr 1; funext a; apply Fin.ext
    match a with
    | ⟨0, _⟩ => show win2_0.index t (0 : Fin 2) * 1024 + 1 * n.val = (win2_4.index t (1 : Fin 4) * 1 + 1 * (j 1).val) * 1024 + n.val; omega
    | ⟨1, _⟩ => show win2_0.index t (1 : Fin 2) * 128 + 1 * c'.val = v.val; rw [hv, e01]; show t.val / 4 * 128 + 1 * c'.val = t.val / 4 * 128 + c'.val; omega
  · show V c main_v7_0 (((cfg2.win 1).blk t).view.emb (ix2 n c')) = V c main_v7_0 (ix2 (row ((((cfg2.win 4).blk t).view.emb j) 1) n) v)
    congr 1; funext a; apply Fin.ext
    match a with
    | ⟨0, _⟩ => show win2_1.index t (0 : Fin 2) * 1024 + 1 * n.val = (win2_4.index t (1 : Fin 4) * 1 + 1 * (j 1).val) * 1024 + n.val; omega
    | ⟨1, _⟩ => show win2_1.index t (1 : Fin 2) * 128 + 1 * c'.val = v.val; rw [hv, e11]; show t.val / 4 * 128 + 1 * c'.val = t.val / 4 * 128 + c'.val; omega
  · show win2_4.index t (0 : Fin 4) * 2 + 1 * (j 0).val = 2 * (t.val / 4) + (j 0).val; omega
  · show win2_4.index t (2 : Fin 4) * 1024 + 1 * (j 2).val = (j 2).val; omega
  · show win2_4.index t (3 : Fin 4) * 1024 + 1 * (j 3).val = (j 3).val; omega

/-- An index of the attention weights is in point `t`'s block iff each coordinate is in the block's range on its axis. -/
theorem mem_blk4 (t : Fin cfg2.N) (i : S16x4x1024x1024.Idx) :
    i ∈ ((cfg2.win 4).blk t).view.set ↔ ∀ a : Fin 4, win2_4.index t a * S2x1x1024x1024.size a ≤ (i a).val
      ∧ (i a).val < win2_4.index t a * S2x1x1024x1024.size a + S2x1x1024x1024.size a := by
  show i ∈ ((View.whole main_v8_1).slice (win2_4.rect t)).set ↔ _
  rw [View.set_slice_whole, Rect.mem_set_unit]
  exact Iff.rfl

/-- After the region the attention weights are `outA`: entry `(h, b, ·, ·)` lies in the block of point `(h / 2) * 4 + b`,
    and every point's block is written back. -/
theorem finalA (c : Dev nD) : (dat2 V c).arrAt 4 cfg2.N = outA V c :=
  (dat2 V c).arrAt_eq_of_cover 4 (outA V c) (fun t _ => flushed_eq4 V c t) fun i => by
    have hi0 : (i 0).val < 16 := (i 0).isLt
    have hi1 : (i 1).val < 4 := (i 1).isLt
    have hi2 : (i 2).val < 1024 := (i 2).isLt
    have hi3 : (i 3).val < 1024 := (i 3).isLt
    have hN : cfg2.N = 32 := N_2
    refine ⟨⟨(i 0).val / 2 * 4 + (i 1).val, by rw [hN]; omega⟩, flush2_4 _, ?_⟩
    rw [mem_blk4]
    obtain ⟨-, -, -, -, -, -, -, -, e40, e41, e42, e43⟩ := idx_facts ⟨(i 0).val / 2 * 4 + (i 1).val, by rw [hN]; omega⟩
    intro a
    match a with
    | ⟨0, _⟩ =>
      show win2_4.index _ (0 : Fin 4) * 2 ≤ (i 0).val ∧ (i 0).val < win2_4.index _ (0 : Fin 4) * 2 + 2
      rw [e40]; show ((i 0).val / 2 * 4 + (i 1).val) / 4 * 2 ≤ (i 0).val ∧ (i 0).val < ((i 0).val / 2 * 4 + (i 1).val) / 4 * 2 + 2; omega
    | ⟨1, _⟩ =>
      show win2_4.index _ (1 : Fin 4) * 1 ≤ (i 1).val ∧ (i 1).val < win2_4.index _ (1 : Fin 4) * 1 + 1
      rw [e41]; show ((i 0).val / 2 * 4 + (i 1).val) % 4 * 1 ≤ (i 1).val ∧ (i 1).val < ((i 0).val / 2 * 4 + (i 1).val) % 4 * 1 + 1; omega
    | ⟨2, _⟩ =>
      show win2_4.index _ (2 : Fin 4) * 1024 ≤ (i 2).val ∧ (i 2).val < win2_4.index _ (2 : Fin 4) * 1024 + 1024
      rw [e42]; omega
    | ⟨3, _⟩ =>
      show win2_4.index _ (3 : Fin 4) * 1024 ≤ (i 3).val ∧ (i 3).val < win2_4.index _ (3 : Fin 4) * 1024 + 1024
      rw [e43]; omega

/-! ## The attention output -/

/-- The first head's attention weights before they are stored. -/
theorem pay8_apply (x0 x1 : Vec Ideal S1024x128 .f32) (p q : Fin 1024) :
    k2_pay8 (F := Ideal) x0 x1 (ix2 p q) = softmax (scM 0 x0 x1) p q :=
  (cast4_apply (k2_pay8 (F := Ideal) x0 x1) 0 0 p q).symm.trans (pay9_apply x0 x1 0 0 p q)

/-- The second head's attention weights before they are stored. -/
theorem pay1_13_apply (x0 x1 : Vec Ideal S1024x128 .f32) (p q : Fin 1024) :
    k2_pay1 (F := Ideal) (k2_pay13 x0 x1) (Scalar.ofBits .f32 0x3D000000#32) (ix2 p q) = softmax (scM 1 x0 x1) p q :=
  (cast4_apply (k2_pay1 (F := Ideal) (k2_pay13 x0 x1) (Scalar.ofBits .f32 0x3D000000#32)) 0 0 p q).symm.trans (pay2_apply x0 x1 0 0 p q)

/-- Head `e`'s output on a block triple: the query plus the weights times the values, on the head's columns. -/
def hoM (e : Fin 2) (x0 x1 x2 : Vec Ideal S1024x128 .f32) (p : Fin 1024) (d : Fin 64) : EReal :=
  x0 (ix2 p (cl e d)) + ∑ j : Fin 1024, softmax (scM e x0 x1) p j * x2 (ix2 j (cl e d))

theorem pay10_apply (x0 x1 x2 : Vec Ideal S1024x128 .f32) (p : Fin 1024) (d : Fin 64) :
    k2_pay10 (F := Ideal) x0 x1 x2 (ix2 p d) = hoM 0 x0 x1 x2 p d := by
  unfold k2_pay10
  beta_reduce
  refine (congrArg₂ (· + ·) (half_apply ![0, 0] 0 rfl rfl x0 slices_S1024x128_o0_0_S1024x64 p d)
    (PlainDot.matmul_zero_apply dot_S1024x1024_S1024x64_S1024x64_1_0_0_1_n_n rfl none _ _ p d)).trans ?_
  refine congrArg₂ (· + ·) rfl (Finset.sum_congr rfl fun j _ => ?_)
  exact congrArg₂ (· * ·) (pay8_apply x0 x1 p j) (half_apply ![0, 0] 0 rfl rfl x2 slices_S1024x128_o0_0_S1024x64 j d)

theorem pay3_apply (x0 x1 x2 : Vec Ideal S1024x128 .f32) (p : Fin 1024) (d : Fin 64) :
    k2_pay3 (F := Ideal) (k2_pay11 x0) (k2_pay12 x2) (k2_pay13 x0 x1) (Scalar.ofBits .f32 0x3D000000#32) (ix2 p d) = hoM 1 x0 x1 x2 p d := by
  unfold k2_pay3
  beta_reduce
  refine (congrArg₂ (· + ·) (half_apply ![0, 64] 1 rfl rfl x0 slices_S1024x128_o0_64_S1024x64 p d)
    (PlainDot.matmul_zero_apply dot_S1024x1024_S1024x64_S1024x64_1_0_0_1_n_n rfl none _ _ p d)).trans ?_
  refine congrArg₂ (· + ·) rfl (Finset.sum_congr rfl fun j _ => ?_)
  exact congrArg₂ (· * ·) (pay1_13_apply x0 x1 p j) (half_apply ![0, 64] 1 rfl rfl x2 slices_S1024x128_o0_64_S1024x64 j d)

/-- The head and the offset of a column of a pair. -/
def eOf (c' : Fin 128) : Fin 2 := ⟨c'.val / 64, by omega⟩
def dOf (c' : Fin 128) : Fin 64 := ⟨c'.val % 64, Nat.mod_lt _ (by norm_num)⟩

/-- What an output block holds: column `c'` belongs to head `c' / 64` at offset `c' % 64`. -/
def G3 (x0 x1 x2 : Vec Ideal S1024x128 .f32) : S1024x128.Idx → EReal := fun y => hoM (eOf (y 1)) x0 x1 x2 (y 0) (dOf (y 1))

theorem G3_at (x0 x1 x2 : Vec Ideal S1024x128 .f32) (y : S1024x128.Idx) (e : Fin 2) (p : Fin 1024) (d : Fin 64)
    (h0 : (y 0).val = p.val) (h1 : (y 1).val = e.val * 64 + d.val) :
    G3 x0 x1 x2 y = hoM e x0 x1 x2 p d := by
  obtain rfl : y 0 = p := Fin.ext h0
  have he : eOf (y 1) = e := Fin.ext (by show (y 1).val / 64 = e.val; omega)
  have hd : dOf (y 1) = d := Fin.ext (by show (y 1).val % 64 = d.val; omega)
  unfold G3
  rw [he, hd]

/-- The output block the body leaves, at an index. -/
theorem out3_apply (x0 x1 x2 : Vec Ideal S1024x128 .f32) (y : S1024x128.Idx) :
    out2_3 (F := Ideal) x0 x1 x2 y = G3 x0 x1 x2 y := by
  unfold out2_3
  simp only [View.ld_unit_zero (S := S1024x128) hz2]
  refine View.canon_apply_of_pieces (Val := Elt Ideal) (e := .f32) (G3 x0 x1 x2) _ (fun pc hpc x => ?_) y (cover2_3 _ _ y)
  rcases List.mem_cons.mp hpc with rfl | hpc'
  · obtain ⟨p, d, rfl⟩ : ∃ (p : Fin 1024) (d : Fin 64), x = ix2 p d := ⟨x 0, x 1, eq_ix2 x⟩
    refine (pay3_apply x0 x1 x2 p d).trans (G3_at x0 x1 x2 _ 1 p d ?_ ?_).symm
    · show 0 + 1 * p.val = p.val; omega
    · show 64 + 1 * d.val = 1 * 64 + d.val; omega
  · obtain rfl := List.mem_singleton.mp hpc'
    obtain ⟨p, d, rfl⟩ : ∃ (p : Fin 1024) (d : Fin 64), x = ix2 p d := ⟨x 0, x 1, eq_ix2 x⟩
    refine (pay10_apply x0 x1 x2 p d).trans (G3_at x0 x1 x2 _ 0 p d ?_ ?_).symm
    · show 0 + 1 * p.val = p.val; omega
    · show 0 + 1 * d.val = 0 * 64 + d.val; omega

/-- An output block at an entry, from where the query, key and value blocks sit in their arrays. -/
theorem tile3 (Q K W : Act) (x0 x1 x2 : Vec Ideal S1024x128 .f32) (b : Fin 4) (hp : Fin 8)
    (h0 : ∀ (n : Fin 1024) (c' : Fin 128) (v : Fin 1024), v.val = hp.val * 128 + c'.val → x0 (ix2 n c') = Q b n v)
    (h1 : ∀ (n : Fin 1024) (c' : Fin 128) (v : Fin 1024), v.val = hp.val * 128 + c'.val → x1 (ix2 n c') = K b n v)
    (h2 : ∀ (n : Fin 1024) (c' : Fin 128) (v : Fin 1024), v.val = hp.val * 128 + c'.val → x2 (ix2 n c') = W b n v)
    (j : S1024x128.Idx) (n : Fin 1024) (v : Fin 1024) (hn : n.val = (j 0).val) (hv : v.val = hp.val * 128 + (j 1).val) :
    out2_3 (F := Ideal) x0 x1 x2 j = merged Q K W b n v := by
  have hj1 : (j 1).val < 128 := (j 1).isLt
  have hh : (headOfCol v).val = 2 * hp.val + (eOf (j 1)).val := by
    show v.val / 64 = 2 * hp.val + (j 1).val / 64; omega
  have hd : offOfCol v = dOf (j 1) := Fin.ext (by show v.val % 64 = (j 1).val % 64; omega)
  have hc : (col (headOfCol v) (dOf (j 1))).val = hp.val * 128 + (cl (eOf (j 1)) (dOf (j 1))).val := by
    show v.val / 64 * 64 + (j 1).val % 64 = hp.val * 128 + ((j 1).val / 64 * 64 + (j 1).val % 64); omega
  rw [out3_apply]
  refine (G3_at x0 x1 x2 j (eOf (j 1)) n (dOf (j 1)) hn.symm ?_).trans ?_
  · show (j 1).val = (j 1).val / 64 * 64 + (j 1).val % 64; omega
  unfold merged headOut attn
  rw [hd, ← scM_eq Q K x0 x1 b hp (eOf (j 1)) (headOfCol v) hh h0 h1]
  unfold hoM headOf
  exact congrArg₂ (· + ·) (h0 n _ _ hc) (Finset.sum_congr rfl fun j' _ => congrArg₂ (· * ·) rfl (h2 j' _ _ hc))

/-- The attention output as a function of the contents the region is entered with. -/
def outM (c : Dev nD) : S4096x1024.Idx → EReal := fun i =>
  AttnBlock.merged (actFlat (V c main_v6 : S4096x1024.Idx → EReal)) (actFlat (V c main_v7_0 : S4096x1024.Idx → EReal))
    (actFlat (V c main_v7_1 : S4096x1024.Idx → EReal)) (batchOfRow (i 0)) (posOfRow (i 0)) (i 1)

/-- What point `t` writes back of the attention output is block `t` of `outM`. -/
theorem flushed_eq3 (c : Dev nD) (t : Fin cfg2.N) :
    (dat2 V c).flushed 3 t = ((cfg2.win 3).blk t).view.read (Elt Ideal) (outM V c) := by
  show (cfg2.win 3).cut (grid2.coords t) ((dat2 V c).after 3 t) = _
  rw [after2_3]
  funext j
  show out2_3 (F := Ideal) (iblk2 V c 0 t) (iblk2 V c 1 t) (iblk2 V c 2 t) j
    = merged (actFlat (V c main_v6 : S4096x1024.Idx → EReal)) (actFlat (V c main_v7_0 : S4096x1024.Idx → EReal))
        (actFlat (V c main_v7_1 : S4096x1024.Idx → EReal))
        (batchOfRow ((((cfg2.win 3).blk t).view.emb j) 0)) (posOfRow ((((cfg2.win 3).blk t).view.emb j) 0))
        ((((cfg2.win 3).blk t).view.emb j) 1)
  obtain ⟨e00, e01, e10, e11, e20, e21, e30, e31, e40, e41, e42, e43⟩ := idx_facts t
  have ht : t.val < 32 := by have := t.isLt; have hN : cfg2.N = 32 := N_2; omega
  have hj0 : (j 0).val < 1024 := (j 0).isLt
  have hj1 : (j 1).val < 128 := (j 1).isLt
  refine tile3 _ _ _ _ _ _ _ ⟨t.val / 4, by omega⟩ (fun n c' v hv => ?_) (fun n c' v hv => ?_) (fun n c' v hv => ?_) j _ _ ?_ ?_
  · show V c main_v6 (((cfg2.win 0).blk t).view.emb (ix2 n c')) = V c main_v6 (ix2 (row (batchOfRow ((((cfg2.win 3).blk t).view.emb j) 0)) n) v)
    congr 1; funext a; apply Fin.ext
    match a with
    | ⟨0, _⟩ => show win2_0.index t (0 : Fin 2) * 1024 + 1 * n.val = (win2_3.index t (0 : Fin 2) * 1024 + 1 * (j 0).val) / 1024 * 1024 + n.val; omega
    | ⟨1, _⟩ => show win2_0.index t (1 : Fin 2) * 128 + 1 * c'.val = v.val; rw [hv, e01]; show t.val / 4 * 128 + 1 * c'.val = t.val / 4 * 128 + c'.val; omega
  · show V c main_v7_0 (((cfg2.win 1).blk t).view.emb (ix2 n c')) = V c main_v7_0 (ix2 (row (batchOfRow ((((cfg2.win 3).blk t).view.emb j) 0)) n) v)
    congr 1; funext a; apply Fin.ext
    match a with
    | ⟨0, _⟩ => show win2_1.index t (0 : Fin 2) * 1024 + 1 * n.val = (win2_3.index t (0 : Fin 2) * 1024 + 1 * (j 0).val) / 1024 * 1024 + n.val; omega
    | ⟨1, _⟩ => show win2_1.index t (1 : Fin 2) * 128 + 1 * c'.val = v.val; rw [hv, e11]; show t.val / 4 * 128 + 1 * c'.val = t.val / 4 * 128 + c'.val; omega
  · show V c main_v7_1 (((cfg2.win 2).blk t).view.emb (ix2 n c')) = V c main_v7_1 (ix2 (row (batchOfRow ((((cfg2.win 3).blk t).view.emb j) 0)) n) v)
    congr 1; funext a; apply Fin.ext
    match a with
    | ⟨0, _⟩ => show win2_2.index t (0 : Fin 2) * 1024 + 1 * n.val = (win2_3.index t (0 : Fin 2) * 1024 + 1 * (j 0).val) / 1024 * 1024 + n.val; omega
    | ⟨1, _⟩ => show win2_2.index t (1 : Fin 2) * 128 + 1 * c'.val = v.val; rw [hv, e21]; show t.val / 4 * 128 + 1 * c'.val = t.val / 4 * 128 + c'.val; omega
  · show (win2_3.index t (0 : Fin 2) * 1024 + 1 * (j 0).val) % 1024 = (j 0).val; omega
  · show win2_3.index t (1 : Fin 2) * 128 + 1 * (j 1).val = t.val / 4 * 128 + (j 1).val; omega

/-- An index of the attention output is in point `t`'s block iff each coordinate is in the block's range on its axis. -/
theorem mem_blk3 (t : Fin cfg2.N) (i : S4096x1024.Idx) :
    i ∈ ((cfg2.win 3).blk t).view.set ↔ ∀ a : Fin 2, win2_3.index t a * S1024x128.size a ≤ (i a).val
      ∧ (i a).val < win2_3.index t a * S1024x128.size a + S1024x128.size a := by
  show i ∈ ((View.whole main_v8_0).slice (win2_3.rect t)).set ↔ _
  rw [View.set_slice_whole, Rect.mem_set_unit]
  exact Iff.rfl

/-- After the region the attention output is `outM`: entry `(r, v)` lies in the block of point `(v / 128) * 4 + r / 1024`,
    and every point's block is written back. -/
theorem finalM (c : Dev nD) : (dat2 V c).arrAt 3 cfg2.N = outM V c :=
  (dat2 V c).arrAt_eq_of_cover 3 (outM V c) (fun t _ => flushed_eq3 V c t) fun i => by
    have hi0 : (i 0).val < 4096 := (i 0).isLt
    have hi1 : (i 1).val < 1024 := (i 1).isLt
    have hN : cfg2.N = 32 := N_2
    refine ⟨⟨(i 1).val / 128 * 4 + (i 0).val / 1024, by rw [hN]; omega⟩, flush2_3 _, ?_⟩
    rw [mem_blk3]
    obtain ⟨-, -, -, -, -, -, e30, e31, -, -, -, -⟩ := idx_facts ⟨(i 1).val / 128 * 4 + (i 0).val / 1024, by rw [hN]; omega⟩
    intro a
    match a with
    | ⟨0, _⟩ =>
      show win2_3.index _ (0 : Fin 2) * 1024 ≤ (i 0).val ∧ (i 0).val < win2_3.index _ (0 : Fin 2) * 1024 + 1024
      rw [e30]; show ((i 1).val / 128 * 4 + (i 0).val / 1024) % 4 * 1024 ≤ (i 0).val ∧ (i 0).val < ((i 1).val / 128 * 4 + (i 0).val / 1024) % 4 * 1024 + 1024; omega
    | ⟨1, _⟩ =>
      show win2_3.index _ (1 : Fin 2) * 128 ≤ (i 1).val ∧ (i 1).val < win2_3.index _ (1 : Fin 2) * 128 + 128
      rw [e31]; show ((i 1).val / 128 * 4 + (i 0).val / 1024) / 4 * 128 ≤ (i 1).val ∧ (i 1).val < ((i 1).val / 128 * 4 + (i 0).val / 1024) / 4 * 128 + 128; omega

end Cert.KernelIdeal.Attn

end
-- ==== Proof.TailRegion.lean ====
/-
  The last region: layer normalisation, the gated feed-forward layer with its residual, and a second layer
  normalisation, on row tiles of 512 rows.

  Everything in this region acts on one row at a time.  The mean of a row is its lane sum divided by the word of 1024; the
  variance is the mean of the squared deviations; the normalised row is  (x - mean) * rsqrt (variance + eps) * g + b.  The
  gated layer forms the packed product  xn · W12ᵀ + b12  of width 2048, takes  silu(left half) * right half, multiplies by
  W3ᵀ, adds b3 and the residual xn.  The kernel spells the normalisation twice with the same operations, once on the
  loaded tile and once on the residual sum, so it is read at an entry once, for an arbitrary tile.
-/
import proofs.«105725_j43181601194591_2_alg».proof.Proof.Gen.KernelIdeal.Frame
import proofs.«105725_j43181601194591_2_alg».proof.Proof.Spec
import proofs.«105725_j43181601194591_2_alg».proof.Proof.LibTransposedDot
import proofs.«105725_j43181601194591_2_alg».proof.Proof.LibDense
import proofs.«105725_j43181601194591_2_alg».proof.Proof.LibRowReduce
import proofs.«105725_j43181601194591_2_alg».proof.Proof.LibColumns
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.TailRegion

open Cert.KernelIdeal Cert.KernelIdeal.Gen AttnBlock

theorem hz2 : (![0, 0] : Fin 2 → Nat) = fun _ => 0 := funext fun a => by fin_cases a <;> rfl
theorem hz1 : (![0] : Fin 1 → Nat) = fun _ => 0 := funext fun a => by fin_cases a <;> rfl

/-! ## The normalisation of a tile -/

/-- The row means of a tile, kept as a column: the lane sums divided by the word of 1024. -/
def meanCol (y : FVec Ideal S512x1024 .f32) : FVec Ideal S512x1 .f32 :=
  divf (shapeCast S512x1 (multiReduction .add [1] S512 y 0x00000000#32 reduces_S512x1024_S512 (.inl rfl) rfl) shapeCasts_S512_S512x1)
    (broadcast S512x1 (Scalar.ofBits .f32 0x44800000#32))

/-- The tile with each row's mean subtracted. -/
def centred (y : FVec Ideal S512x1024 .f32) : FVec Ideal S512x1024 .f32 :=
  subf y (broadcastTo S512x1024 (meanCol y) broadcasts_S512x1_S512x1024)

/-- The reciprocal square root of each row's variance plus epsilon, kept as a column. -/
def invStd (y : FVec Ideal S512x1024 .f32) : FVec Ideal S512x1 .f32 :=
  rsqrt (addf (meanCol (mulf (centred y) (centred y))) (broadcast S512x1 (Scalar.ofBits .f32 0x3727C5AC#32)))

/-- The kernel's layer normalisation of a tile with scale `g` and shift `β`. -/
def lnTile (y : FVec Ideal S512x1024 .f32) (g β : Vec Ideal S1024 .f32) : FVec Ideal S512x1024 .f32 :=
  addf (mulf (mulf (centred y) (broadcastTo S512x1024 (invStd y) broadcasts_S512x1_S512x1024))
      (broadcastTo S512x1024 (shapeCast S1x1024 g shapeCasts_S1024_S1x1024) broadcasts_S1x1024_S512x1024))
    (broadcastTo S512x1024 (shapeCast S1x1024 β shapeCasts_S1024_S1x1024) broadcasts_S1x1024_S512x1024)

theorem meanCol_apply (y : FVec Ideal S512x1024 .f32) (p : Fin 512) (u : Fin 1) :
    meanCol y (ix2 p u) = mean (fun k => y (ix2 p k)) := by
  unfold meanCol mean
  show Ideal.div (shapeCast S512x1 _ shapeCasts_S512_S512x1 (ix2 p u)) w1024 = _
  rw [RowReduce.shapeCast_a_a1_apply]
  exact congrArg (Ideal.div · w1024) (RowReduce.multiReduction_add_row y _ reduces_S512x1024_S512 _ _ p)

theorem centred_apply (y : FVec Ideal S512x1024 .f32) (p : Fin 512) (v : Fin 1024) :
    centred y (ix2 p v) = y (ix2 p v) - mean (fun k => y (ix2 p k)) := by
  unfold centred
  show y (ix2 p v) - broadcastTo S512x1024 (meanCol y) broadcasts_S512x1_S512x1024 (ix2 p v) = _
  rw [broadcastTo_a1_ab_apply, meanCol_apply]

theorem invStd_apply (y : FVec Ideal S512x1024 .f32) (p : Fin 512) (u : Fin 1) :
    invStd y (ix2 p u) = Ideal.rsqrt (var (fun k => y (ix2 p k)) + wEps) := by
  unfold invStd
  show Ideal.rsqrt (meanCol (mulf (centred y) (centred y)) (ix2 p u) + wEps) = _
  rw [meanCol_apply]
  have h : ∀ k : Fin 1024, mulf (centred y) (centred y) (ix2 p k)
      = (y (ix2 p k) - mean (fun k => y (ix2 p k))) * (y (ix2 p k) - mean (fun k => y (ix2 p k))) := fun k => by
    show centred y (ix2 p k) * centred y (ix2 p k) = _
    rw [centred_apply]
  simp only [h]
  rfl

theorem lnTile_apply (y : FVec Ideal S512x1024 .f32) (g β : Vec Ideal S1024 .f32) (p : Fin 512) (v : Fin 1024) :
    lnTile y g β (ix2 p v) = ln (fun k => y (ix2 p k)) (vec g) (vec β) v := by
  unfold lnTile
  show centred y (ix2 p v) * broadcastTo S512x1024 (invStd y) broadcasts_S512x1_S512x1024 (ix2 p v)
      * broadcastTo S512x1024 (shapeCast S1x1024 g shapeCasts_S1024_S1x1024) broadcasts_S1x1024_S512x1024 (ix2 p v)
      + broadcastTo S512x1024 (shapeCast S1x1024 β shapeCasts_S1024_S1x1024) broadcasts_S1x1024_S512x1024 (ix2 p v) = _
  rw [broadcastTo_a1_ab_apply, DenseLayer.castRow_apply, DenseLayer.castRow_apply, centred_apply, invStd_apply]
  rfl

/-! ## The gated layer of a tile -/

/-- The packed product  xn · W12ᵀ + b12  of a tile. -/
def packedLin (xn : FVec Ideal S512x1024 .f32) (W : Vec Ideal S2048x1024 .bf16) (b : Vec Ideal S2048 .f32) : FVec Ideal S512x2048 .f32 :=
  addf (matmul dot_S512x1024_S2048x1024_S512x2048_1_1_0_0_n_n none (truncf .bf16 xn bitsLt_bf16_f32)
      (shapeCast S2048x1024 W shapeCasts_S2048x1024_S2048x1024 : FVec Ideal S2048x1024 .bf16) (constant S512x2048 .f32 0x00000000#32))
    (broadcastTo S512x2048 (shapeCast S1x2048 b shapeCasts_S2048_S1x2048) broadcasts_S1x2048_S512x2048)

theorem packedLin_apply (xn : FVec Ideal S512x1024 .f32) (W : Vec Ideal S2048x1024 .bf16) (b : Vec Ideal S2048 .f32)
    (p : Fin 512) (u : Fin 2048) :
    packedLin xn W b (ix2 p u) = lin (fun k => xn (ix2 p k)) (mat W) (vec b) u := by
  unfold packedLin
  refine (congrArg₂ (· + ·)
    (TransposedDot.matmul_zero_apply dot_S512x1024_S2048x1024_S512x2048_1_1_0_0_n_n rfl none _ _ p u)
    (DenseLayer.castRow_apply b shapeCasts_S2048_S1x2048 broadcasts_S1x2048_S512x2048 p u)).trans ?_
  simp only [shapeCast_self]
  rfl

/-- The left half of a `[512, 2048]` array: columns `0 … 1023`. -/
theorem slice_lo (y : FVec Ideal S512x2048 .f32) (p : Fin 512) (q : Fin 1024) :
    extractStridedSlice S512x1024 ![0, 0] y slices_S512x2048_o0_0_S512x1024 (ix2 p q) = y (ix2 p (lo q)) := by
  refine extractStridedSlice_apply ![0, 0] y slices_S512x2048_o0_0_S512x1024 (ix2 p q) (ix2 p (lo q)) fun ax => ?_
  match ax with
  | ⟨0, _⟩ => show p.val = 0 + p.val; omega
  | ⟨1, _⟩ => show q.val = 0 + q.val; omega

/-- The right half: columns `1024 … 2047`. -/
theorem slice_hi (y : FVec Ideal S512x2048 .f32) (p : Fin 512) (q : Fin 1024) :
    extractStridedSlice S512x1024 ![0, 1024] y slices_S512x2048_o0_1024_S512x1024 (ix2 p q) = y (ix2 p (hi q)) := by
  refine extractStridedSlice_apply ![0, 1024] y slices_S512x2048_o0_1024_S512x1024 (ix2 p q) (ix2 p (hi q)) fun ax => ?_
  match ax with
  | ⟨0, _⟩ => show p.val = 0 + p.val; omega
  | ⟨1, _⟩ => show 1024 + q.val = 1024 + q.val; rfl

/-- The gate of a tile: silu of the left half of the packed product times its right half. -/
def gateTile (xn : FVec Ideal S512x1024 .f32) (W : Vec Ideal S2048x1024 .bf16) (b : Vec Ideal S2048 .f32) : FVec Ideal S512x1024 .f32 :=
  mulf (mulf (extractStridedSlice S512x1024 ![0, 0] (packedLin xn W b) slices_S512x2048_o0_0_S512x1024)
      (logistic (extractStridedSlice S512x1024 ![0, 0] (packedLin xn W b) slices_S512x2048_o0_0_S512x1024)))
    (extractStridedSlice S512x1024 ![0, 1024] (packedLin xn W b) slices_S512x2048_o0_1024_S512x1024)

theorem gateTile_apply (xn : FVec Ideal S512x1024 .f32) (W : Vec Ideal S2048x1024 .bf16) (b : Vec Ideal S2048 .f32)
    (p : Fin 512) (j : Fin 1024) :
    gateTile xn W b (ix2 p j) = gate (fun k => xn (ix2 p k)) (mat W) (vec b) j := by
  unfold gateTile
  show extractStridedSlice S512x1024 ![0, 0] (packedLin xn W b) slices_S512x2048_o0_0_S512x1024 (ix2 p j)
      * Ideal.logistic (extractStridedSlice S512x1024 ![0, 0] (packedLin xn W b) slices_S512x2048_o0_0_S512x1024 (ix2 p j))
      * extractStridedSlice S512x1024 ![0, 1024] (packedLin xn W b) slices_S512x2048_o0_1024_S512x1024 (ix2 p j) = _
  rw [slice_lo, slice_hi, packedLin_apply, packedLin_apply]
  rfl

/-- The residual sum of a tile:  xn + (h · W3ᵀ + b3). -/
def residTile (xn : FVec Ideal S512x1024 .f32) (h : FVec Ideal S512x1024 .bf16) (W3 : FVec Ideal S1024x1024 .bf16)
    (b3 : Vec Ideal S1024 .f32) : FVec Ideal S512x1024 .f32 :=
  addf xn (addf (matmul dot_S512x1024_S1024x1024_S512x1024_1_1_0_0_n_n none h W3 (constant S512x1024 .f32 0x00000000#32))
    (broadcastTo S512x1024 (shapeCast S1x1024 b3 shapeCasts_S1024_S1x1024) broadcasts_S1x1024_S512x1024))

theorem residTile_apply (xn : FVec Ideal S512x1024 .f32) (h : FVec Ideal S512x1024 .bf16) (W3 : FVec Ideal S1024x1024 .bf16)
    (b3 : Vec Ideal S1024 .f32) (p : Fin 512) (v : Fin 1024) :
    residTile xn h W3 b3 (ix2 p v) = xn (ix2 p v) + lin (fun j => h (ix2 p j)) (mat W3) (vec b3) v := by
  unfold residTile
  refine congrArg (xn (ix2 p v) + ·) ?_
  exact (congrArg₂ (· + ·)
    (TransposedDot.matmul_zero_apply dot_S512x1024_S1024x1024_S512x1024_1_1_0_0_n_n rfl none h W3 p v)
    (DenseLayer.castRow_apply b3 shapeCasts_S1024_S1x1024 broadcasts_S1x1024_S512x1024 p v))

/-! ## The payloads are these -/

theorem pay2_eq (x0 : Vec Ideal S512x1024 .f32) (g β : Vec Ideal S1024 .f32) :
    k3_pay2 (F := Ideal) x0 g β = lnTile x0 g β := by
  have h : k3_pay2 (F := Ideal) x0 g β = lnTile (shapeCast S512x1024 x0 shapeCasts_S512x1024_S512x1024) g β := rfl
  rw [h, shapeCast_self]

theorem pay3_eq (x0 : Vec Ideal S512x1024 .f32) (g β : Vec Ideal S1024 .f32) (W : Vec Ideal S2048x1024 .bf16) (b : Vec Ideal S2048 .f32) :
    k3_pay3 (F := Ideal) x0 g β W b = truncf .bf16 (gateTile (k3_pay2 (F := Ideal) x0 g β) W b) bitsLt_bf16_f32 := rfl

theorem pay1_eq (v27 : FVec Ideal S512x1024 .f32) (v41 : FVec Ideal S512x1024 .bf16) (v43 : FVec Ideal S1024x1024 .bf16)
    (b3 g β : Vec Ideal S1024 .f32) :
    k3_pay1 (F := Ideal) v27 v41 v43 b3 g β = lnTile (residTile v27 v41 v43 b3) g β := rfl

/-- The region's payload at an entry: row `p` of the tile through the whole tail. -/
theorem pay_apply (x0 : Vec Ideal S512x1024 .f32) (x1 x2 : Vec Ideal S1024 .f32) (x3 : Vec Ideal S2048x1024 .bf16)
    (x4 : Vec Ideal S2048 .f32) (x5 : Vec Ideal S1024x1024 .bf16) (x6 x7 x8 : Vec Ideal S1024 .f32) (p : Fin 512) (v : Fin 1024) :
    k3_pay1 (F := Ideal) (k3_pay2 x0 x1 x2) (k3_pay3 x0 x1 x2 x3 x4) (k3_pay4 x5) x6 x7 x8 (ix2 p v)
      = tail (fun k => x0 (ix2 p k)) (vec x1) (vec x2) (mat x3) (vec x4) (mat x5) (vec x6) (vec x7) (vec x8) v := by
  rw [pay1_eq, lnTile_apply]
  unfold tail
  refine congrArg (fun f => ln f (vec x7) (vec x8) v) (funext fun w => ?_)
  rw [residTile_apply, pay3_eq, pay2_eq, lnTile_apply]
  unfold ffn
  refine congrArg (ln (fun k => x0 (ix2 p k)) (vec x1) (vec x2) w + ·) ?_
  unfold lin
  refine congrArg (· + vec x6 w) (Finset.sum_congr rfl fun j _ => ?_)
  show gateTile (lnTile x0 x1 x2) x3 x4 (ix2 p j) * k3_pay4 (F := Ideal) x5 (ix2 w j) = _
  rw [gateTile_apply]
  unfold k3_pay4
  simp only [shapeCast_self]
  refine congrArg (fun f => gate f (mat x3) (vec x4) j * mat x5 w j) (funext fun k => ?_)
  exact lnTile_apply x0 x1 x2 p k

variable (V : (c : Dev nD) → (b : Ref sig .tc) → Buf (Elt Ideal) ((c : Thread nD τ).loc b))

/-- Entry `(r, v)` of the region's output: row `r` of the flat input through the tail. -/
def rowTail (c : Dev nD) (r : Fin 4096) (v : Fin 1024) : EReal :=
  tail (fun k => (V c main_v8_0 : S4096x1024.Idx → EReal) (ix2 r k))
    (vec (V c main_arg8 : S1024.Idx → EReal)) (vec (V c main_arg9 : S1024.Idx → EReal))
    (mat (V c main_v9 : S2048x1024.Idx → EReal)) (vec (V c main_arg13 : S2048.Idx → EReal))
    (mat (V c main_v10 : S1024x1024.Idx → EReal)) (vec (V c main_arg15 : S1024.Idx → EReal))
    (vec (V c main_arg10 : S1024.Idx → EReal)) (vec (V c main_arg11 : S1024.Idx → EReal)) v

/-- The region's output array as a function of the contents it is entered with. -/
def outT (c : Dev nD) : S4096x1024.Idx → EReal := fun i => rowTail V c (i 0) (i 1)

/-- The index maps over the grid: the input tile and the output tile are tile `t` of their arrays, every
    parameter is taken whole. -/
theorem idx_facts : ∀ t : Fin cfg3.N,
    win3_0.index t (0 : Fin 2) = t.val ∧ win3_0.index t (1 : Fin 2) = 0
    ∧ win3_1.index t (0 : Fin 1) = 0 ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0 ∧ win3_7.index t (0 : Fin 1) = 0 ∧ win3_8.index t (0 : Fin 1) = 0
    ∧ win3_9.index t (0 : Fin 2) = t.val ∧ win3_9.index t (1 : Fin 2) = 0 :=
  (by decide +kernel : ∀ t : Fin grid3.N, _)

/-- The tail of a row depends on the row and the parameters only through their entries. -/
theorem tail_congr {x x' g0 g0' β0 β0' : Vc 1024} {W12 W12' : Mat 2048 1024} {b12 b12' : Vc 2048} {W3 W3' : Mat 1024 1024}
    {b3 b3' g1 g1' β1 β1' : Vc 1024} (hx : ∀ k, x k = x' k) (h1 : ∀ k, g0 k = g0' k) (h2 : ∀ k, β0 k = β0' k)
    (h3 : ∀ a k, W12 a k = W12' a k) (h4 : ∀ k, b12 k = b12' k) (h5 : ∀ a k, W3 a k = W3' a k) (h6 : ∀ k, b3 k = b3' k)
    (h7 : ∀ k, g1 k = g1' k) (h8 : ∀ k, β1 k = β1' k) (v : Fin 1024) :
    tail x g0 β0 W12 b12 W3 b3 g1 β1 v = tail x' g0' β0' W12' b12' W3' b3' g1' β1' v := by
  obtain rfl : x = x' := funext hx
  obtain rfl : g0 = g0' := funext h1
  obtain rfl : β0 = β0' := funext h2
  obtain rfl : W12 = W12' := funext fun a => funext (h3 a)
  obtain rfl : b12 = b12' := funext h4
  obtain rfl : W3 = W3' := funext fun a => funext (h5 a)
  obtain rfl : b3 = b3' := funext h6
  obtain rfl : g1 = g1' := funext h7
  obtain rfl : β1 = β1' := funext h8
  rfl

/-- What tile `t` writes back is tile `t` of `outT`. -/
theorem flushed_eq (c : Dev nD) (t : Fin cfg3.N) :
    (dat3 V c).flushed 9 t = ((cfg3.win 9).blk t).view.read (Elt Ideal) (outT V c) := by
  show (cfg3.win 9).cut (grid3.coords t) ((dat3 V c).after 9 t) = _
  rw [after3_9]
  unfold out3_9
  rw [View.canon_unit_zero hz2]
  simp only [View.ld_unit_zero (S := S512x1024) hz2, View.ld_unit_zero (S := S2048x1024) hz2, View.ld_unit_zero (S := S1024x1024) hz2,
    View.ld_unit_zero (S := S1024) hz1, View.ld_unit_zero (S := S2048) hz1]
  funext j
  show k3_pay1 (F := Ideal) (k3_pay2 (iblk3 V c 0 t) (iblk3 V c 1 t) (iblk3 V c 2 t))
      (k3_pay3 (iblk3 V c 0 t) (iblk3 V c 1 t) (iblk3 V c 2 t) (iblk3 V c 3 t) (iblk3 V c 4 t)) (k3_pay4 (iblk3 V c 5 t))
      (iblk3 V c 6 t) (iblk3 V c 7 t) (iblk3 V c 8 t) j
    = rowTail V c ((((cfg3.win 9).blk t).view.emb j) 0) ((((cfg3.win 9).blk t).view.emb j) 1)
  obtain ⟨e00, e01, e10, e20, e30, e31, e40, e50, e51, e60, e70, e80, e90, e91⟩ := idx_facts t
  have hj : j = ix2 (j 0) (j 1) := eq_ix2 (n0 := 512) (n1 := 1024) j
  have hcol : ((((cfg3.win 9).blk t).view.emb j) 1) = j 1 :=
    Fin.ext (show win3_9.index t (1 : Fin 2) * 1024 + 1 * (j 1).val = (j 1).val by omega)
  rw [hcol]
  refine (congrArg (k3_pay1 (F := Ideal) (k3_pay2 (iblk3 V c 0 t) (iblk3 V c 1 t) (iblk3 V c 2 t))
      (k3_pay3 (iblk3 V c 0 t) (iblk3 V c 1 t) (iblk3 V c 2 t) (iblk3 V c 3 t) (iblk3 V c 4 t)) (k3_pay4 (iblk3 V c 5 t))
      (iblk3 V c 6 t) (iblk3 V c 7 t) (iblk3 V c 8 t)) hj).trans ?_
  refine (pay_apply _ _ _ _ _ _ _ _ _ (j 0) (j 1)).trans ?_
  unfold rowTail
  refine tail_congr (fun k => ?_) (fun k => ?_) (fun k => ?_) (fun a k => ?_) (fun k => ?_) (fun a k => ?_) (fun k => ?_)
    (fun k => ?_) (fun k => ?_) (j 1)
  · show V c main_v8_0 (((cfg3.win 0).blk t).view.emb (ix2 (j 0) k)) = V c main_v8_0 (ix2 ((((cfg3.win 9).blk t).view.emb j) 0) k)
    congr 1; funext a; apply Fin.ext
    match a with
    | ⟨0, _⟩ => show win3_0.index t (0 : Fin 2) * 512 + 1 * (j 0).val = win3_9.index t (0 : Fin 2) * 512 + 1 * (j 0).val; omega
    | ⟨1, _⟩ => show win3_0.index t (1 : Fin 2) * 1024 + 1 * k.val = k.val; omega
  · show V c main_arg8 (((cfg3.win 1).blk t).view.emb (ix1 k)) = V c main_arg8 (ix1 k)
    congr 1; funext b; apply Fin.ext
    match b with
    | ⟨0, _⟩ => show win3_1.index t (0 : Fin 1) * 1024 + 1 * k.val = k.val; omega
  · show V c main_arg9 (((cfg3.win 2).blk t).view.emb (ix1 k)) = V c main_arg9 (ix1 k)
    congr 1; funext b; apply Fin.ext
    match b with
    | ⟨0, _⟩ => show win3_2.index t (0 : Fin 1) * 1024 + 1 * k.val = k.val; omega
  · show V c main_v9 (((cfg3.win 3).blk t).view.emb (ix2 a k)) = V c main_v9 (ix2 a k)
    congr 1; funext b; apply Fin.ext
    match b with
    | ⟨0, _⟩ => show win3_3.index t (0 : Fin 2) * 2048 + 1 * a.val = a.val; omega
    | ⟨1, _⟩ => show win3_3.index t (1 : Fin 2) * 1024 + 1 * k.val = k.val; omega
  · show V c main_arg13 (((cfg3.win 4).blk t).view.emb (ix1 k)) = V c main_arg13 (ix1 k)
    congr 1; funext b; apply Fin.ext
    match b with
    | ⟨0, _⟩ => show win3_4.index t (0 : Fin 1) * 2048 + 1 * k.val = k.val; omega
  · show V c main_v10 (((cfg3.win 5).blk t).view.emb (ix2 a k)) = V c main_v10 (ix2 a k)
    congr 1; funext b; apply Fin.ext
    match b with
    | ⟨0, _⟩ => show win3_5.index t (0 : Fin 2) * 1024 + 1 * a.val = a.val; omega
    | ⟨1, _⟩ => show win3_5.index t (1 : Fin 2) * 1024 + 1 * k.val = k.val; omega
  · show V c main_arg15 (((cfg3.win 6).blk t).view.emb (ix1 k)) = V c main_arg15 (ix1 k)
    congr 1; funext b; apply Fin.ext
    match b with
    | ⟨0, _⟩ => show win3_6.index t (0 : Fin 1) * 1024 + 1 * k.val = k.val; omega
  · show V c main_arg10 (((cfg3.win 7).blk t).view.emb (ix1 k)) = V c main_arg10 (ix1 k)
    congr 1; funext b; apply Fin.ext
    match b with
    | ⟨0, _⟩ => show win3_7.index t (0 : Fin 1) * 1024 + 1 * k.val = k.val; omega
  · show V c main_arg11 (((cfg3.win 8).blk t).view.emb (ix1 k)) = V c main_arg11 (ix1 k)
    congr 1; funext b; apply Fin.ext
    match b with
    | ⟨0, _⟩ => show win3_8.index t (0 : Fin 1) * 1024 + 1 * k.val = k.val; omega

/-- An index of the output array is in tile `t`'s block iff each coordinate is in the block's range on its axis. -/
theorem mem_blk (t : Fin cfg3.N) (i : S4096x1024.Idx) :
    i ∈ ((cfg3.win 9).blk t).view.set ↔ ∀ a : Fin 2, win3_9.index t a * S512x1024.size a ≤ (i a).val
      ∧ (i a).val < win3_9.index t a * S512x1024.size a + S512x1024.size a := by
  show i ∈ ((View.whole main_v11).slice (win3_9.rect t)).set ↔ _
  rw [View.set_slice_whole, Rect.mem_set_unit]
  exact Iff.rfl

/-- After the region the output array is `outT`: row `r` lies in tile `r / 512`, and every tile is written back. -/
theorem final (c : Dev nD) : (dat3 V c).arrAt 9 cfg3.N = outT V c :=
  (dat3 V c).arrAt_eq_of_cover 9 (outT V c) (fun t _ => flushed_eq V c t) fun i => by
    have hi0 : (i 0).val < 4096 := (i 0).isLt
    have hi1 : (i 1).val < 1024 := (i 1).isLt
    have hN : cfg3.N = 8 := N_3
    refine ⟨⟨(i 0).val / 512, by rw [hN]; omega⟩, flush3_9 _, ?_⟩
    rw [mem_blk]
    obtain ⟨-, -, -, -, -, -, -, -, -, -, -, -, e90, e91⟩ := idx_facts ⟨(i 0).val / 512, by rw [hN]; omega⟩
    intro a
    match a with
    | ⟨0, _⟩ =>
      show win3_9.index _ (0 : Fin 2) * 512 ≤ (i 0).val ∧ (i 0).val < win3_9.index _ (0 : Fin 2) * 512 + 512
      rw [e90]; show (i 0).val / 512 * 512 ≤ (i 0).val ∧ (i 0).val < (i 0).val / 512 * 512 + 512; omega
    | ⟨1, _⟩ =>
      show win3_9.index _ (1 : Fin 2) * 1024 ≤ (i 1).val ∧ (i 1).val < win3_9.index _ (1 : Fin 2) * 1024 + 1024
      rw [e91]; omega

end Cert.KernelIdeal.TailRegion

end
-- ==== Proof.ChainBack.lean ====
/-
  The contents of the idealized kernel's buffers from the attention region to the return, in terms of the launch memory.

  After the attention region the host narrows the two feed-forward weights (the identity on the extended reals); the last
  region sends every row of the merged attention output through the tail; the host reshapes the flat `[4096, 1024]`
  result back to `[4, 1024, 1024]` (position `(b, n)` is row `b * 1024 + n`) and the attention weights
  `[16, 4, 1024, 1024]` to `[64, 1024, 1024]`.  With the three projections of the launch arrays in hand, the first result is
  the specification's `outO` and the second the reshape of its `outA`.
-/
import proofs.«105725_j43181601194591_2_alg».proof.Proof.Gen.KernelIdeal.Frame
import proofs.«105725_j43181601194591_2_alg».proof.Proof.Spec
import proofs.«105725_j43181601194591_2_alg».proof.Proof.ChainFront
import proofs.«105725_j43181601194591_2_alg».proof.Proof.Attention
import proofs.«105725_j43181601194591_2_alg».proof.Proof.TailRegion
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen AttnBlock

variable (m : (ℓ : Loc nD τ sig) → Buf (Elt Ideal) ℓ) (ρ : Dev nD → PrngReg)

/-! ## The launch arguments are untouched up to the last region -/

theorem W4_main_arg8 (c : Dev nD) : W4 m ρ c (Proc.devRef .tc main_arg8) = m ((c : Thread nD τ).loc main_arg8) :=
  (W4_of_ne m ρ c main_arg8 (by decide)).trans ((W3_of_ne m ρ c main_arg8 (by decide)).trans ((W2_of_ne m ρ c main_arg8 (by decide)).trans (by
    show StableHlo.after hostOps0 (W0 m ρ c) (Proc.devRef .tc main_arg8) = _
    after_results)))
theorem W4_main_arg9 (c : Dev nD) : W4 m ρ c (Proc.devRef .tc main_arg9) = m ((c : Thread nD τ).loc main_arg9) :=
  (W4_of_ne m ρ c main_arg9 (by decide)).trans ((W3_of_ne m ρ c main_arg9 (by decide)).trans ((W2_of_ne m ρ c main_arg9 (by decide)).trans (by
    show StableHlo.after hostOps0 (W0 m ρ c) (Proc.devRef .tc main_arg9) = _
    after_results)))
theorem W4_main_arg10 (c : Dev nD) : W4 m ρ c (Proc.devRef .tc main_arg10) = m ((c : Thread nD τ).loc main_arg10) :=
  (W4_of_ne m ρ c main_arg10 (by decide)).trans ((W3_of_ne m ρ c main_arg10 (by decide)).trans ((W2_of_ne m ρ c main_arg10 (by decide)).trans (by
    show StableHlo.after hostOps0 (W0 m ρ c) (Proc.devRef .tc main_arg10) = _
    after_results)))
theorem W4_main_arg11 (c : Dev nD) : W4 m ρ c (Proc.devRef .tc main_arg11) = m ((c : Thread nD τ).loc main_arg11) :=
  (W4_of_ne m ρ c main_arg11 (by decide)).trans ((W3_of_ne m ρ c main_arg11 (by decide)).trans ((W2_of_ne m ρ c main_arg11 (by decide)).trans (by
    show StableHlo.after hostOps0 (W0 m ρ c) (Proc.devRef .tc main_arg11) = _
    after_results)))
theorem W4_main_arg12 (c : Dev nD) : W4 m ρ c (Proc.devRef .tc main_arg12) = m ((c : Thread nD τ).loc main_arg12) :=
  (W4_of_ne m ρ c main_arg12 (by decide)).trans ((W3_of_ne m ρ c main_arg12 (by decide)).trans ((W2_of_ne m ρ c main_arg12 (by decide)).trans (by
    show StableHlo.after hostOps0 (W0 m ρ c) (Proc.devRef .tc main_arg12) = _
    after_results)))
theorem W4_main_arg13 (c : Dev nD) : W4 m ρ c (Proc.devRef .tc main_arg13) = m ((c : Thread nD τ).loc main_arg13) :=
  (W4_of_ne m ρ c main_arg13 (by decide)).trans ((W3_of_ne m ρ c main_arg13 (by decide)).trans ((W2_of_ne m ρ c main_arg13 (by decide)).trans (by
    show StableHlo.after hostOps0 (W0 m ρ c) (Proc.devRef .tc main_arg13) = _
    after_results)))
theorem W4_main_arg14 (c : Dev nD) : W4 m ρ c (Proc.devRef .tc main_arg14) = m ((c : Thread nD τ).loc main_arg14) :=
  (W4_of_ne m ρ c main_arg14 (by decide)).trans ((W3_of_ne m ρ c main_arg14 (by decide)).trans ((W2_of_ne m ρ c main_arg14 (by decide)).trans (by
    show StableHlo.after hostOps0 (W0 m ρ c) (Proc.devRef .tc main_arg14) = _
    after_results)))
theorem W4_main_arg15 (c : Dev nD) : W4 m ρ c (Proc.devRef .tc main_arg15) = m ((c : Thread nD τ).loc main_arg15) :=
  (W4_of_ne m ρ c main_arg15 (by decide)).trans ((W3_of_ne m ρ c main_arg15 (by decide)).trans ((W2_of_ne m ρ c main_arg15 (by decide)).trans (by
    show StableHlo.after hostOps0 (W0 m ρ c) (Proc.devRef .tc main_arg15) = _
    after_results)))

theorem V5_main_arg8 (c : Dev nD) : (V5 m ρ c main_arg8 : S1024.Idx → EReal) = m ((c : Thread nD τ).loc main_arg8) := by
  refine Eq.trans ?_ (W4_main_arg8 m ρ c)
  show StableHlo.after hostOps3 (W4 m ρ c) (Proc.devRef .tc main_arg8) = W4 m ρ c (Proc.devRef .tc main_arg8)
  after_results
theorem V5_main_arg9 (c : Dev nD) : (V5 m ρ c main_arg9 : S1024.Idx → EReal) = m ((c : Thread nD τ).loc main_arg9) := by
  refine Eq.trans ?_ (W4_main_arg9 m ρ c)
  show StableHlo.after hostOps3 (W4 m ρ c) (Proc.devRef .tc main_arg9) = W4 m ρ c (Proc.devRef .tc main_arg9)
  after_results
theorem V5_main_arg10 (c : Dev nD) : (V5 m ρ c main_arg10 : S1024.Idx → EReal) = m ((c : Thread nD τ).loc main_arg10) := by
  refine Eq.trans ?_ (W4_main_arg10 m ρ c)
  show StableHlo.after hostOps3 (W4 m ρ c) (Proc.devRef .tc main_arg10) = W4 m ρ c (Proc.devRef .tc main_arg10)
  after_results
theorem V5_main_arg11 (c : Dev nD) : (V5 m ρ c main_arg11 : S1024.Idx → EReal) = m ((c : Thread nD τ).loc main_arg11) := by
  refine Eq.trans ?_ (W4_main_arg11 m ρ c)
  show StableHlo.after hostOps3 (W4 m ρ c) (Proc.devRef .tc main_arg11) = W4 m ρ c (Proc.devRef .tc main_arg11)
  after_results
theorem V5_main_arg13 (c : Dev nD) : (V5 m ρ c main_arg13 : S2048.Idx → EReal) = m ((c : Thread nD τ).loc main_arg13) := by
  refine Eq.trans ?_ (W4_main_arg13 m ρ c)
  show StableHlo.after hostOps3 (W4 m ρ c) (Proc.devRef .tc main_arg13) = W4 m ρ c (Proc.devRef .tc main_arg13)
  after_results
theorem V5_main_arg15 (c : Dev nD) : (V5 m ρ c main_arg15 : S1024.Idx → EReal) = m ((c : Thread nD τ).loc main_arg15) := by
  refine Eq.trans ?_ (W4_main_arg15 m ρ c)
  show StableHlo.after hostOps3 (W4 m ρ c) (Proc.devRef .tc main_arg15) = W4 m ρ c (Proc.devRef .tc main_arg15)
  after_results

theorem V5_v9 (c : Dev nD) : (V5 m ρ c main_v9 : S2048x1024.Idx → EReal) = m ((c : Thread nD τ).loc main_arg12) := by
  refine Eq.trans ?_ (W4_main_arg12 m ρ c)
  show StableHlo.after hostOps3 (W4 m ρ c) (Proc.devRef .tc main_v9) = W4 m ρ c (Proc.devRef .tc main_arg12)
  after_results <;> rfl

theorem V5_v10 (c : Dev nD) : (V5 m ρ c main_v10 : S1024x1024.Idx → EReal) = m ((c : Thread nD τ).loc main_arg14) := by
  refine Eq.trans ?_ (W4_main_arg14 m ρ c)
  show StableHlo.after hostOps3 (W4 m ρ c) (Proc.devRef .tc main_v10) = W4 m ρ c (Proc.devRef .tc main_arg14)
  after_results <;> rfl

/-! ## The attention region's outputs, and what the last region and the last host operations make of them -/

theorem V5_v8_0 (c : Dev nD) : (V5 m ρ c main_v8_0 : S4096x1024.Idx → EReal) = Attn.outM (V3 m ρ) c := by
  refine Eq.trans ?_ ((W4_arr m ρ c 3).trans (Attn.finalM (V3 m ρ) c))
  show StableHlo.after hostOps3 (W4 m ρ c) (Proc.devRef .tc main_v8_0) = W4 m ρ c (Proc.devRef .tc main_v8_0)
  after_results

theorem W6_v11 (c : Dev nD) : (W6 m ρ c (Proc.devRef .tc main_v11) : S4096x1024.Idx → EReal) = TailRegion.outT (V5 m ρ) c :=
  (W6_arr m ρ c 9).trans (TailRegion.final (V5 m ρ) c)

theorem W6_v8_1 (c : Dev nD) : (W6 m ρ c (Proc.devRef .tc main_v8_1) : S16x4x1024x1024.Idx → EReal) = Attn.outA (V3 m ρ) c := by
  refine (W6_of_ne m ρ c main_v8_1 (by decide)).trans (Eq.trans ?_ ((W4_arr m ρ c 4).trans (Attn.finalA (V3 m ρ) c)))
  show StableHlo.after hostOps3 (W4 m ρ c) (Proc.devRef .tc main_v8_1) = W4 m ρ c (Proc.devRef .tc main_v8_1)
  after_results

theorem W7_v12 (c : Dev nD) : (W7 m ρ c (Proc.devRef .tc main_v12) : S4x1024x1024.Idx → EReal)
    = shapeCast S4x1024x1024 (W6 m ρ c (Proc.devRef .tc main_v11) : S4096x1024.Idx → EReal) shapeCasts_S4096x1024_S4x1024x1024 := by
  show StableHlo.after hostOps4 (W6 m ρ c) (Proc.devRef .tc main_v12) = _
  after_results <;> rfl

theorem W7_v13 (c : Dev nD) : (W7 m ρ c (Proc.devRef .tc main_v13) : S64x1024x1024.Idx → EReal)
    = shapeCast S64x1024x1024 (W6 m ρ c (Proc.devRef .tc main_v8_1) : S16x4x1024x1024.Idx → EReal) shapeCasts_S16x4x1024x1024_S64x1024x1024 := by
  show StableHlo.after hostOps4 (W6 m ρ c) (Proc.devRef .tc main_v13) = _
  after_results <;> rfl

/-! ## The two results -/

/-- The remaining launch arrays by coordinates. -/
abbrev g0 (c : Dev nD) : Vc 1024 := vec (m ((c : Thread nD τ).loc main_arg8) : S1024.Idx → EReal)
abbrev β0 (c : Dev nD) : Vc 1024 := vec (m ((c : Thread nD τ).loc main_arg9) : S1024.Idx → EReal)
abbrev g1 (c : Dev nD) : Vc 1024 := vec (m ((c : Thread nD τ).loc main_arg10) : S1024.Idx → EReal)
abbrev β1 (c : Dev nD) : Vc 1024 := vec (m ((c : Thread nD τ).loc main_arg11) : S1024.Idx → EReal)
abbrev W12 (c : Dev nD) : Mat 2048 1024 := mat (m ((c : Thread nD τ).loc main_arg12) : S2048x1024.Idx → EReal)
abbrev b12 (c : Dev nD) : Vc 2048 := vec (m ((c : Thread nD τ).loc main_arg13) : S2048.Idx → EReal)
abbrev W3 (c : Dev nD) : Mat 1024 1024 := mat (m ((c : Thread nD τ).loc main_arg14) : S1024x1024.Idx → EReal)
abbrev b3 (c : Dev nD) : Vc 1024 := vec (m ((c : Thread nD τ).loc main_arg15) : S1024.Idx → EReal)

/-- A flat `[4096, 1024]` array reshaped to `[4, 1024, 1024]`: position `(b, n)` is row `b * 1024 + n`. -/
theorem unflatten_apply (y : S4096x1024.Idx → EReal) (b : Fin 4) (n v : Fin 1024) :
    shapeCast S4x1024x1024 y shapeCasts_S4096x1024_S4x1024x1024 (ix3 b n v) = y (ix2 (row b n) v) :=
  shapeCast_apply y shapeCasts_S4096x1024_S4x1024x1024 _ _ (by
    rw [Shape.rowMajor_val_two, Shape.rowMajor_val_three]
    show (b.val * 1024 + n.val) * 1024 + v.val = (b.val * 1024 + n.val) * 1024 + v.val
    rfl)

/-- The first result of the idealized kernel is the specification's `outO` of the launch arrays. -/
theorem resO (c : Dev nD) : (W7 m ρ c (Proc.devRef .tc main_v12) : S4x1024x1024.Idx → EReal)
    = fun i => outO (Qin m c) (Kin m c) (Wq m c) (bq m c) (Wk m c) (bk m c) (Wv m c) (bv m c) (g0 m c) (β0 m c) (g1 m c) (β1 m c)
        (W12 m c) (b12 m c) (W3 m c) (b3 m c) (i 0) (i 1) (i 2) := by
  rw [W7_v12, W6_v11]
  funext i
  obtain ⟨b, n, v, rfl⟩ : ∃ (b : Fin 4) (n v : Fin 1024), i = ix3 b n v := ⟨i 0, i 1, i 2, eq_ix3 i⟩
  rw [unflatten_apply]
  show tail (fun k => (V5 m ρ c main_v8_0 : S4096x1024.Idx → EReal) (ix2 (row b n) k))
      (vec (V5 m ρ c main_arg8 : S1024.Idx → EReal)) (vec (V5 m ρ c main_arg9 : S1024.Idx → EReal))
      (mat (V5 m ρ c main_v9 : S2048x1024.Idx → EReal)) (vec (V5 m ρ c main_arg13 : S2048.Idx → EReal))
      (mat (V5 m ρ c main_v10 : S1024x1024.Idx → EReal)) (vec (V5 m ρ c main_arg15 : S1024.Idx → EReal))
      (vec (V5 m ρ c main_arg10 : S1024.Idx → EReal)) (vec (V5 m ρ c main_arg11 : S1024.Idx → EReal)) v
    = tail (merged (proj (Qin m c) (Wq m c) (bq m c)) (proj (Kin m c) (Wk m c) (bk m c)) (proj (Kin m c) (Wv m c) (bv m c)) b n)
      (g0 m c) (β0 m c) (W12 m c) (b12 m c) (W3 m c) (b3 m c) (g1 m c) (β1 m c) v
  rw [V5_v8_0, V5_main_arg8, V5_main_arg9, V5_v9, V5_main_arg13, V5_v10, V5_main_arg15, V5_main_arg10, V5_main_arg11]
  refine congrArg (fun f => tail f (g0 m c) (β0 m c) (W12 m c) (b12 m c) (W3 m c) (b3 m c) (g1 m c) (β1 m c) v) (funext fun k => ?_)
  show merged (actFlat (V3 m ρ c main_v6 : S4096x1024.Idx → EReal)) (actFlat (V3 m ρ c main_v7_0 : S4096x1024.Idx → EReal))
      (actFlat (V3 m ρ c main_v7_1 : S4096x1024.Idx → EReal)) (batchOfRow (row b n)) (posOfRow (row b n)) k = _
  rw [batchOfRow_row, posOfRow_row, V3_v6, Qp_eq, Kp_eq, Vp_eq]

/-- The second result is the reshape of the specification's `outA` of the launch arrays. -/
theorem resA (c : Dev nD) : (W7 m ρ c (Proc.devRef .tc main_v13) : S64x1024x1024.Idx → EReal)
    = shapeCast S64x1024x1024 (fun i : S16x4x1024x1024.Idx =>
        outA (Qin m c) (Kin m c) (Wq m c) (bq m c) (Wk m c) (bk m c) (i 0) (i 1) (i 2) (i 3)) shapeCasts_S16x4x1024x1024_S64x1024x1024 := by
  rw [W7_v13, W6_v8_1]
  refine congrArg (fun y => shapeCast S64x1024x1024 y shapeCasts_S16x4x1024x1024_S64x1024x1024) (funext fun i => ?_)
  show attn (actFlat (V3 m ρ c main_v6 : S4096x1024.Idx → EReal)) (actFlat (V3 m ρ c main_v7_0 : S4096x1024.Idx → EReal))
      (i 0) (i 1) (i 2) (i 3) = _
  rw [V3_v6, Qp_eq, Kp_eq]
  rfl

end Cert.KernelIdeal.Chain

end
-- ==== Proof.LibLastAxisMax.lean ====
/-
  A maximum over the last axis of a rank-four array, read at an index.

  The host's reduce with a maximum body over the last axis of an [a, b, c, m] array leaves one value per (p, q, r).
  The source indices that reduce to it are (p, q, r, k) for k below m, and a fold of max from the bottom element over
  them is their supremum. So when the initial value is minus infinity the result at (p, q, r) is the supremum over k
  of the source at (p, q, r, k), with no order of evaluation and no finiteness entering.
-/
import proofs.«105725_j43181601194591_2_alg».proof.Proof.LibMaxSup
import Idealize.ShloMosaic.Lib.ValueIdx

noncomputable section

namespace LastAxisMax

open Idealize.ShloMosaic Idealize.ShloMosaic.ValueIdx

/-- The source index over (p, q, r) with coordinate k on the reduced last axis is (p, q, r, k). -/
theorem lift_last4 {a b c m : ℕ} (h : (⟨4, ![a, b, c, m]⟩ : Shape).Reduces [3] ⟨3, ![a, b, c]⟩)
    (p : Fin a) (q : Fin b) (r : Fin c) (k : Fin m) : h.lift (ix3 p q r) k = ix4 p q r k := by
  funext ax
  apply Fin.ext
  refine (h.lift_val (ix3 p q r) k ax).trans ?_
  match ax with
  | ⟨0, _⟩ => rfl
  | ⟨1, _⟩ => rfl
  | ⟨2, _⟩ => rfl
  | ⟨3, _⟩ => rfl

/-- The host's reduce with a maximum body over the last axis, from an initial value that is minus infinity, at
    (p, q, r): the supremum of the entries (p, q, r, k). -/
theorem hostReduce_maximumf_last4 {a b c m : ℕ} {u : Shape} (x : FVec Ideal ⟨4, ![a, b, c, m]⟩ .f32)
    (init : u.Idx → Ideal .f32)
    (h' : (⟨4, ![a, b, c, m]⟩ : Shape).ReducesTo [3] ⟨3, ![a, b, c]⟩)
    (h : (⟨4, ![a, b, c, m]⟩ : Shape).Reduces [3] ⟨3, ![a, b, c]⟩)
    (hu : 0 < u.numel) (hinit : init (Shape.Idx.first hu) = (⊥ : EReal)) (p : Fin a) (q : Fin b) (r : Fin c) :
    Host.reduce (FloatOps.maximumf (F := Ideal) (φ := .f32)) x init h' hu (ix3 p q r)
      = ⨆ k : Fin m, x (ix4 p q r k) := by
  refine (Host.reduce_eq_fold_single (FloatOps.maximumf (F := Ideal) (φ := .f32)) x init h' h hu (ix3 p q r)).trans ?_
  rw [hinit]
  refine (MaxSup.fold_max_bot_univ (ι := Fin m) (x ∘ h.lift (ix3 p q r))).trans ?_
  exact iSup_congr fun k => congrArg x (lift_last4 h p q r k)

end LastAxisMax

end
-- ==== Proof.RefIsSpec.lean ====
/-
  The reference program computes the specification.

  Each operation of the reference writes an array that is read here at explicit coordinates: the three projections are
  rows through a linear layer; the head split sends (head, batch, position, offset) to the projection at channel
  head * 64 + offset; the scores are a sum over the offset divided by 32; the softmax subtracts the row's supremum,
  exponentiates and divides by the row's sum; the head outputs are merged back into channels; the tail is a layer
  normalisation, the gated layer with its residual, and a second layer normalisation. Both sides of every step are the
  same expression tree, so each step reads both sides at an index and identifies the index functions with
  coordinates. The only algebra used: dividing by 32 is multiplying by 1/32, max ⊥ x = x, and 0 + x = x.
-/
import proofs.«105725_j43181601194591_2_alg».proof.Proof.RefRead
import proofs.«105725_j43181601194591_2_alg».proof.Proof.Spec
import proofs.«105725_j43181601194591_2_alg».proof.Proof.LibMaxSup
import proofs.«105725_j43181601194591_2_alg».proof.Proof.LibLastAxisMax
import Idealize.ShloMosaic.Lib.ValueIdx
import Idealize.ShloMosaic.PureOps.Ideal.Laws

set_option maxRecDepth 16384

noncomputable section

namespace Cert.ReferenceIdeal.IsSpec

open Cert.ReferenceIdeal Cert.ReferenceIdeal.Gen Cert.ReferenceIdeal.Read
open Idealize.ShloMosaic Idealize.ShloMosaic.TcCoe Idealize.SL.Sem Idealize.ShloMosaic.StableHlo
open AttnBlock Idealize.ShloMosaic.ValueIdx

/-- Index functions are equal when they agree at every axis. -/
theorem idx_ext1 {n0 : ℕ} {f g : (⟨1, ![n0]⟩ : Shape).Idx} (h0 : f 0 = g 0) : f = g := by
  funext a; match a with | ⟨0, _⟩ => exact h0
theorem idx_ext2 {n0 n1 : ℕ} {f g : (⟨2, ![n0, n1]⟩ : Shape).Idx} (h0 : f 0 = g 0) (h1 : f 1 = g 1) : f = g := by
  funext a; match a with | ⟨0, _⟩ => exact h0 | ⟨1, _⟩ => exact h1
theorem idx_ext3 {n0 n1 n2 : ℕ} {f g : (⟨3, ![n0, n1, n2]⟩ : Shape).Idx} (h0 : f 0 = g 0) (h1 : f 1 = g 1)
    (h2 : f 2 = g 2) : f = g := by
  funext a; match a with | ⟨0, _⟩ => exact h0 | ⟨1, _⟩ => exact h1 | ⟨2, _⟩ => exact h2
theorem idx_ext4 {n0 n1 n2 n3 : ℕ} {f g : (⟨4, ![n0, n1, n2, n3]⟩ : Shape).Idx} (h0 : f 0 = g 0) (h1 : f 1 = g 1)
    (h2 : f 2 = g 2) (h3 : f 3 = g 3) : f = g := by
  funext a; match a with | ⟨0, _⟩ => exact h0 | ⟨1, _⟩ => exact h1 | ⟨2, _⟩ => exact h2 | ⟨3, _⟩ => exact h3

/-- Two index functions that agree at every axis by unfolding are equal. -/
macro "idx_rfl" : tactic => `(tactic| first
  | exact idx_ext1 rfl
  | exact idx_ext2 rfl rfl
  | exact idx_ext3 rfl rfl rfl
  | exact idx_ext4 rfl rfl rfl rfl)

variable (x0 x1 : (⟨S4x1024x1024, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 x8 x9 x10 x11 : (⟨S1024, .f32⟩ : BufTy).Contents (Elt Ideal))
  (x12 : (⟨S2048x1024, .f32⟩ : BufTy).Contents (Elt Ideal)) (x13 : (⟨S2048, .f32⟩ : BufTy).Contents (Elt Ideal))
  (x14 : (⟨S1024x1024, .f32⟩ : BufTy).Contents (Elt Ideal)) (x15 : (⟨S1024, .f32⟩ : BufTy).Contents (Elt Ideal))

/-- The three projected activations; one row of the merged attention output; that row after the first normalisation;
    and after the gated layer with its residual. -/
abbrev Qp : Act := proj (act x0) (mat x2) (vec x3)
abbrev Kp : Act := proj (act x1) (mat x4) (vec x5)
abbrev Vp : Act := proj (act x1) (mat x6) (vec x7)
abbrev Mg (b : Fin 4) (n : Fin 1024) : Vc 1024 := merged (Qp x0 x2 x3) (Kp x1 x4 x5) (Vp x1 x6 x7) b n
abbrev Xn (b : Fin 4) (n : Fin 1024) : Vc 1024 := ln (Mg x0 x1 x2 x3 x4 x5 x6 x7 b n) (vec x8) (vec x9)
abbrev Ff (b : Fin 4) (n : Fin 1024) : Vc 1024 :=
  ffn (Xn x0 x1 x2 x3 x4 x5 x6 x7 x8 x9 b n) (mat x12) (vec x13) (mat x14) (vec x15)

/-! ## The three projections -/

/-- A projection at (batch, position, channel): the row through the linear layer. -/
theorem v3_at (b : Fin 4) (n v : Fin 1024) :
    val_main_v3 (F := Ideal) x0 x2 x3 (ix3 b n v) = proj (act x0) (mat x2) (vec x3) b n v := by
  rw [val_main_v3_apply, val_main_v0_apply, val_main_v2_apply, val_main_v1_apply]
  show _ + _ = (∑ k, act x0 b n k * mat x2 v k) + vec x3 v
  exact congrArg₂ (· + ·)
    (Finset.sum_congr rfl fun k _ => congrArg₂ (· * ·) (congrArg x0 (by idx_rfl)) (congrArg x2 (by idx_rfl)))
    (congrArg x3 (by idx_rfl))

theorem v7_at (b : Fin 4) (n v : Fin 1024) :
    val_main_v7 (F := Ideal) x1 x4 x5 (ix3 b n v) = proj (act x1) (mat x4) (vec x5) b n v := v3_at x1 x4 x5 b n v

theorem v11_at (b : Fin 4) (n v : Fin 1024) :
    val_main_v11 (F := Ideal) x1 x6 x7 (ix3 b n v) = proj (act x1) (mat x6) (vec x7) b n v := v3_at x1 x6 x7 b n v

/-! ## The head split -/

/-- Entry (head, batch, position, offset) of the split array sits at flat offset
    ((batch * 1024 + position) * 16 + head) * 64 + offset of the projection, which is (batch, position, head * 64 + offset). -/
theorem split_idx (h : Fin 16) (b : Fin 4) (n : Fin 1024) (d : Fin 64) :
    idx_main_v12 (idx_main_v13 (ix4 h b n d)) = ix3 b n (col h d) := by
  funext a
  apply Fin.ext
  have hh := h.isLt; have hb := b.isLt; have hn := n.isLt; have hd := d.isLt
  match a with
  | ⟨0, _⟩ => show (((b.val * 1024 + n.val) * 16 + h.val) * 64 + d.val) / 1048576 = b.val; omega
  | ⟨1, _⟩ => show (((b.val * 1024 + n.val) * 16 + h.val) * 64 + d.val) / 1024 % 1024 = n.val; omega
  | ⟨2, _⟩ => show (((b.val * 1024 + n.val) * 16 + h.val) * 64 + d.val) % 1024 = h.val * 64 + d.val; omega

theorem v13_at (h : Fin 16) (b : Fin 4) (n : Fin 1024) (d : Fin 64) :
    val_main_v13 (F := Ideal) x0 x2 x3 (ix4 h b n d) = headOf (Qp x0 x2 x3) h b n d := by
  rw [val_main_v13_apply, val_main_v12_apply, split_idx, v3_at]
  rfl

theorem v15_at (h : Fin 16) (b : Fin 4) (n : Fin 1024) (d : Fin 64) :
    val_main_v15 (F := Ideal) x1 x4 x5 (ix4 h b n d) = headOf (Kp x1 x4 x5) h b n d := v13_at x1 x4 x5 h b n d

theorem v17_at (h : Fin 16) (b : Fin 4) (n : Fin 1024) (d : Fin 64) :
    val_main_v17 (F := Ideal) x1 x6 x7 (ix4 h b n d) = headOf (Vp x1 x6 x7) h b n d := v13_at x1 x6 x7 h b n d

/-! ## The scores -/

theorem v20_at (h : Fin 16) (b : Fin 4) (q k : Fin 1024) :
    val_main_v20 (F := Ideal) x0 x1 x2 x3 x4 x5 (ix4 h b q k) = score (headOf (Qp x0 x2 x3) h b) (headOf (Kp x1 x4 x5) h b) q k := by
  rewrite [val_main_v20_apply, val_main_v18_apply, val_main_v19_apply]
  show Ideal.div _ w32 = (∑ d, headOf (Qp x0 x2 x3) h b q d * headOf (Kp x1 x4 x5) h b k d) * wInv32
  rw [div_w32]
  refine congrArg (· * wInv32) (Finset.sum_congr rfl fun d _ => ?_)
  rw [show lidx_main_v18 (ix4 h b q k) d = ix4 h b q d from by idx_rfl,
    show ridx_main_v18 (ix4 h b q k) d = ix4 h b k d from by idx_rfl, v13_at, v15_at]

/-! ## The softmax -/

/-- The row maximum from minus infinity is the supremum of the row. -/
theorem v21_at (h : Fin 16) (b : Fin 4) (q : Fin 1024) :
    val_main_v21 (F := Ideal) x0 x1 x2 x3 x4 x5 (ix3 h b q) = ⨆ k : Fin 1024, val_main_v20 (F := Ideal) x0 x1 x2 x3 x4 x5 (ix4 h b q k) := by
  unfold val_main_v21
  exact LastAxisMax.hostReduce_maximumf_last4 _ _ reducesTo_S16x4x1024x1024_S16x4x1024_d3 (by decide) h_S_
    MaxSup.neg_inf_f32 h b q

theorem v23_at (h : Fin 16) (b : Fin 4) (q : Fin 1024) :
    val_main_v23 (F := Ideal) x0 x1 x2 x3 x4 x5 (ix3 h b q)
      = ⨆ k : Fin 1024, score (headOf (Qp x0 x2 x3) h b) (headOf (Kp x1 x4 x5) h b) q k := by
  rewrite [val_main_v23_apply, val_main_v22_apply, v21_at]
  show max (Ideal.ofBits .f32 0xFF800000#32) _ = _
  rw [MaxSup.neg_inf_f32, max_bot_left]
  exact iSup_congr fun k => v20_at x0 x1 x2 x3 x4 x5 h b q k

theorem v27_at (h : Fin 16) (b : Fin 4) (q k : Fin 1024) :
    val_main_v27 (F := Ideal) x0 x1 x2 x3 x4 x5 (ix4 h b q k)
      = Ideal.exp (score (headOf (Qp x0 x2 x3) h b) (headOf (Kp x1 x4 x5) h b) q k
          - ⨆ k' : Fin 1024, score (headOf (Qp x0 x2 x3) h b) (headOf (Kp x1 x4 x5) h b) q k') := by
  rw [val_main_v27_apply, val_main_v26_apply, val_main_v25_apply, val_main_v24_apply,
    show idx_main_v24 (idx_main_v25 (ix4 h b q k)) = ix3 h b q from by idx_rfl, v23_at, v20_at]
  rfl

theorem v28_at (h : Fin 16) (b : Fin 4) (q : Fin 1024) :
    val_main_v28 (F := Ideal) x0 x1 x2 x3 x4 x5 (ix3 h b q)
      = ∑ k : Fin 1024, Ideal.exp (score (headOf (Qp x0 x2 x3) h b) (headOf (Kp x1 x4 x5) h b) q k
          - ⨆ k' : Fin 1024, score (headOf (Qp x0 x2 x3) h b) (headOf (Kp x1 x4 x5) h b) q k') := by
  rw [val_main_v28_apply]
  show Ideal.ofBits .f32 0x00000000#32 + _ = _
  rw [Ideal.ofBits_zero_f32, zero_add]
  refine Finset.sum_congr rfl fun k _ => ?_
  rw [show idx_main_v28 (ix3 h b q) k = ix4 h b q k from by idx_rfl, v27_at]

/-- The attention weights at (head, batch, query, key). -/
theorem v31_at (h : Fin 16) (b : Fin 4) (q k : Fin 1024) :
    val_main_v31 (F := Ideal) x0 x1 x2 x3 x4 x5 (ix4 h b q k) = attn (Qp x0 x2 x3) (Kp x1 x4 x5) h b q k := by
  rw [val_main_v31_apply, val_main_v30_apply, val_main_v29_apply,
    show idx_main_v29 (idx_main_v30 (ix4 h b q k)) = ix3 h b q from by idx_rfl, v28_at, v27_at]
  rfl

theorem refA : val_main_v31 (F := Ideal) x0 x1 x2 x3 x4 x5
    = fun i => outA (act x0) (act x1) (mat x2) (vec x3) (mat x4) (vec x5) (i 0) (i 1) (i 2) (i 3) := by
  funext i
  obtain ⟨h, b, q, k, rfl⟩ : ∃ (h : Fin 16) (b : Fin 4) (q k : Fin 1024), i = ix4 h b q k := ⟨i 0, i 1, i 2, i 3, eq_ix4 i⟩
  exact v31_at x0 x1 x2 x3 x4 x5 h b q k

/-! ## The head outputs, merged back into channels -/

theorem v33_at (h : Fin 16) (b : Fin 4) (q : Fin 1024) (d : Fin 64) :
    val_main_v33 (F := Ideal) x0 x1 x2 x3 x4 x5 x6 x7 (ix4 h b q d)
      = headOut (headOf (Qp x0 x2 x3) h b) (attn (Qp x0 x2 x3) (Kp x1 x4 x5) h b) (headOf (Vp x1 x6 x7) h b) q d := by
  rewrite [val_main_v33_apply, val_main_v32_apply, v13_at]
  show _ + _ = headOf (Qp x0 x2 x3) h b q d + ∑ j, attn (Qp x0 x2 x3) (Kp x1 x4 x5) h b q j * headOf (Vp x1 x6 x7) h b j d
  refine congrArg (_ + ·) (Finset.sum_congr rfl fun j _ => ?_)
  rewrite [show lidx_main_v32 (ix4 h b q d) j = ix4 h b q j from by idx_rfl,
    show ridx_main_v32 (ix4 h b q d) j = ix4 h b j d from by idx_rfl, v31_at, v17_at]
  rfl

/-- Channel v of the merged array sits at flat offset (batch * 1024 + position) * 1024 + v of the transposed head
    outputs, which is (head v / 64, batch, position, offset v % 64). -/
theorem merge_idx (b : Fin 4) (n v : Fin 1024) :
    idx_main_v34 (idx_main_v35 (ix3 b n v)) = ix4 (headOfCol v) b n (offOfCol v) := by
  funext a
  apply Fin.ext
  have hb := b.isLt; have hn := n.isLt; have hv := v.isLt
  match a with
  | ⟨0, _⟩ => show ((b.val * 1024 + n.val) * 1024 + v.val) / 64 % 16 = v.val / 64; omega
  | ⟨1, _⟩ => show ((b.val * 1024 + n.val) * 1024 + v.val) / 1048576 = b.val; omega
  | ⟨2, _⟩ => show ((b.val * 1024 + n.val) * 1024 + v.val) / 1024 % 1024 = n.val; omega
  | ⟨3, _⟩ => show ((b.val * 1024 + n.val) * 1024 + v.val) % 64 = v.val % 64; omega

theorem v35_at (b : Fin 4) (n v : Fin 1024) :
    val_main_v35 (F := Ideal) x0 x1 x2 x3 x4 x5 x6 x7 (ix3 b n v) = Mg x0 x1 x2 x3 x4 x5 x6 x7 b n v := by
  rewrite [val_main_v35_apply, val_main_v34_apply, merge_idx, v33_at]
  rfl

/-! ## The first layer normalisation -/

theorem v39_at (b : Fin 4) (n : Fin 1024) (z : Fin 1) :
    val_main_v39 (F := Ideal) x0 x1 x2 x3 x4 x5 x6 x7 (ix3 b n z) = mean (Mg x0 x1 x2 x3 x4 x5 x6 x7 b n) := by
  rewrite [val_main_v39_apply, val_main_v38_apply, val_main_v37_apply, val_main_v36_apply]
  show Ideal.div (Ideal.ofBits .f32 0x00000000#32 + _) w1024 = Ideal.div (∑ k, (Mg x0 x1 x2 x3 x4 x5 x6 x7 b n) k) w1024
  rewrite [Ideal.ofBits_zero_f32, zero_add]
  refine congrArg (Ideal.div · w1024) (Finset.sum_congr rfl fun k _ => ?_)
  rewrite [show idx_main_v36 (idx_main_v37 (ix3 b n z)) k = ix3 b n k from by idx_rfl, v35_at]
  rfl

theorem v40_at (b : Fin 4) (n v : Fin 1024) :
    val_main_v40 (F := Ideal) x0 x1 x2 x3 x4 x5 x6 x7 (ix3 b n v) = mean (Mg x0 x1 x2 x3 x4 x5 x6 x7 b n) := by
  rewrite [val_main_v40_apply, show idx_main_v40 (ix3 b n v) = ix3 b n (⟨0, Nat.one_pos⟩ : Fin 1) from by idx_rfl, v39_at]
  rfl

theorem v47_at (b : Fin 4) (n v : Fin 1024) :
    val_main_v47 (F := Ideal) x0 x1 x2 x3 x4 x5 x6 x7 (ix3 b n v) = mean (Mg x0 x1 x2 x3 x4 x5 x6 x7 b n) := by
  rewrite [val_main_v47_apply, show idx_main_v47 (ix3 b n v) = ix3 b n (⟨0, Nat.one_pos⟩ : Fin 1) from by idx_rfl, v39_at]
  rfl

theorem v46_at (b : Fin 4) (n : Fin 1024) (z : Fin 1) :
    val_main_v46 (F := Ideal) x0 x1 x2 x3 x4 x5 x6 x7 (ix3 b n z) = var (Mg x0 x1 x2 x3 x4 x5 x6 x7 b n) := by
  rewrite [val_main_v46_apply, val_main_v45_apply, val_main_v44_apply, val_main_v43_apply]
  show Ideal.div (Ideal.ofBits .f32 0x00000000#32 + _) w1024
    = Ideal.div (∑ k, ((Mg x0 x1 x2 x3 x4 x5 x6 x7 b n) k - mean (Mg x0 x1 x2 x3 x4 x5 x6 x7 b n)) * ((Mg x0 x1 x2 x3 x4 x5 x6 x7 b n) k - mean (Mg x0 x1 x2 x3 x4 x5 x6 x7 b n))) w1024
  rewrite [Ideal.ofBits_zero_f32, zero_add]
  refine congrArg (Ideal.div · w1024) (Finset.sum_congr rfl fun k _ => ?_)
  rewrite [show idx_main_v43 (idx_main_v44 (ix3 b n z)) k = ix3 b n k from by idx_rfl, val_main_v42_apply, val_main_v41_apply, v35_at, v40_at]
  rfl

theorem v59_at (b : Fin 4) (n v : Fin 1024) :
    val_main_v59 (F := Ideal) x0 x1 x2 x3 x4 x5 x6 x7 x8 x9 (ix3 b n v) = ln (Mg x0 x1 x2 x3 x4 x5 x6 x7 b n) (vec x8) (vec x9) v := by
  rewrite [val_main_v59_apply, val_main_v56_apply, val_main_v53_apply, val_main_v48_apply, val_main_v52_apply, val_main_v51_apply, val_main_v50_apply, val_main_v49_apply,
    val_main_v55_apply, val_main_v54_apply, val_main_v58_apply, val_main_v57_apply,
    show idx_main_v52 (ix3 b n v) = ix3 b n (⟨0, Nat.one_pos⟩ : Fin 1) from by idx_rfl,
    show idx_main_v54 (idx_main_v55 (ix3 b n v)) = ix1 v from by idx_rfl,
    show idx_main_v57 (idx_main_v58 (ix3 b n v)) = ix1 v from by idx_rfl,
    v35_at, v47_at, v46_at]
  rfl

/-! ## The gated layer with its residual -/

theorem v63_at (b : Fin 4) (n : Fin 1024) (j : Fin 2048) :
    val_main_v63 (F := Ideal) x0 x1 x2 x3 x4 x5 x6 x7 x8 x9 x12 x13 (ix3 b n j) = lin (Xn x0 x1 x2 x3 x4 x5 x6 x7 x8 x9 b n) (mat x12) (vec x13) j := by
  rewrite [val_main_v63_apply, val_main_v60_apply, val_main_v62_apply, val_main_v61_apply]
  show _ + _ = (∑ k, (Xn x0 x1 x2 x3 x4 x5 x6 x7 x8 x9 b n) k * mat x12 j k) + vec x13 j
  refine congrArg₂ (· + ·) (Finset.sum_congr rfl fun k _ => ?_) (congrArg x13 (by idx_rfl))
  rewrite [show lidx_main_v60 (ix3 b n j) k = ix3 b n k from by idx_rfl,
    show ridx_main_v60 (ix3 b n j) k = ix2 j k from by idx_rfl, v59_at]
  rfl

/-- The first half through x * (1 / (1 + exp (-x))). -/
theorem v66_at (b : Fin 4) (n j : Fin 1024) :
    val_main_v66 (F := Ideal) x0 x1 x2 x3 x4 x5 x6 x7 x8 x9 x12 x13 (ix3 b n j) = silu (lin (Xn x0 x1 x2 x3 x4 x5 x6 x7 x8 x9 b n) (mat x12) (vec x13) (lo j)) := by
  rewrite [val_main_v66_apply, val_main_call0_v5_apply, val_main_call0_v4_apply, val_main_call0_v3_apply,
    val_main_call0_v2_apply, val_main_call0_v1_apply, val_main_call0_v0_apply, val_main_v64_apply,
    show idx_main_v64 (ix3 b n j) = ix3 b n (lo j) from by idx_rfl, v63_at]
  show _ * Ideal.div (Ideal.ofBits .f32 0x3F800000#32) (Ideal.ofBits .f32 0x3F800000#32 + Ideal.exp (- _)) = _
  rewrite [one_word]
  rfl

theorem v67_at (b : Fin 4) (n j : Fin 1024) :
    val_main_v67 (F := Ideal) x0 x1 x2 x3 x4 x5 x6 x7 x8 x9 x12 x13 (ix3 b n j) = gate (Xn x0 x1 x2 x3 x4 x5 x6 x7 x8 x9 b n) (mat x12) (vec x13) j := by
  rewrite [val_main_v67_apply, v66_at, val_main_v65_apply,
    show idx_main_v65 (ix3 b n j) = ix3 b n (hi j) from by idx_rfl, v63_at]
  rfl

theorem v72_at (b : Fin 4) (n v : Fin 1024) :
    val_main_v72 (F := Ideal) x0 x1 x2 x3 x4 x5 x6 x7 x8 x9 x12 x13 x14 x15 (ix3 b n v) = ffn (Xn x0 x1 x2 x3 x4 x5 x6 x7 x8 x9 b n) (mat x12) (vec x13) (mat x14) (vec x15) v := by
  rewrite [val_main_v72_apply, val_main_v71_apply, val_main_v68_apply, val_main_v70_apply, val_main_v69_apply, v59_at]
  show _ + (_ + _) = (Xn x0 x1 x2 x3 x4 x5 x6 x7 x8 x9 b n) v + ((∑ k, gate (Xn x0 x1 x2 x3 x4 x5 x6 x7 x8 x9 b n) (mat x12) (vec x13) k * mat x14 v k) + vec x15 v)
  refine congrArg ((Xn x0 x1 x2 x3 x4 x5 x6 x7 x8 x9 b n) v + ·) (congrArg₂ (· + ·) (Finset.sum_congr rfl fun k _ => ?_) (congrArg x15 (by idx_rfl)))
  rewrite [show lidx_main_v68 (ix3 b n v) k = ix3 b n k from by idx_rfl,
    show ridx_main_v68 (ix3 b n v) k = ix2 v k from by idx_rfl, v67_at]
  rfl

/-! ## The second layer normalisation -/

theorem v76_at (b : Fin 4) (n : Fin 1024) (z : Fin 1) :
    val_main_v76 (F := Ideal) x0 x1 x2 x3 x4 x5 x6 x7 x8 x9 x12 x13 x14 x15 (ix3 b n z) = mean (Ff x0 x1 x2 x3 x4 x5 x6 x7 x8 x9 x12 x13 x14 x15 b n) := by
  rewrite [val_main_v76_apply, val_main_v75_apply, val_main_v74_apply, val_main_v73_apply]
  show Ideal.div (Ideal.ofBits .f32 0x00000000#32 + _) w1024 = Ideal.div (∑ k, (Ff x0 x1 x2 x3 x4 x5 x6 x7 x8 x9 x12 x13 x14 x15 b n) k) w1024
  rewrite [Ideal.ofBits_zero_f32, zero_add]
  refine congrArg (Ideal.div · w1024) (Finset.sum_congr rfl fun k _ => ?_)
  rewrite [show idx_main_v73 (idx_main_v74 (ix3 b n z)) k = ix3 b n k from by idx_rfl, v72_at]
  rfl

theorem v77_at (b : Fin 4) (n v : Fin 1024) :
    val_main_v77 (F := Ideal) x0 x1 x2 x3 x4 x5 x6 x7 x8 x9 x12 x13 x14 x15 (ix3 b n v) = mean (Ff x0 x1 x2 x3 x4 x5 x6 x7 x8 x9 x12 x13 x14 x15 b n) := by
  rewrite [val_main_v77_apply, show idx_main_v77 (ix3 b n v) = ix3 b n (⟨0, Nat.one_pos⟩ : Fin 1) from by idx_rfl, v76_at]
  rfl

theorem v84_at (b : Fin 4) (n v : Fin 1024) :
    val_main_v84 (F := Ideal) x0 x1 x2 x3 x4 x5 x6 x7 x8 x9 x12 x13 x14 x15 (ix3 b n v) = mean (Ff x0 x1 x2 x3 x4 x5 x6 x7 x8 x9 x12 x13 x14 x15 b n) := by
  rewrite [val_main_v84_apply, show idx_main_v84 (ix3 b n v) = ix3 b n (⟨0, Nat.one_pos⟩ : Fin 1) from by idx_rfl, v76_at]
  rfl

theorem v83_at (b : Fin 4) (n : Fin 1024) (z : Fin 1) :
    val_main_v83 (F := Ideal) x0 x1 x2 x3 x4 x5 x6 x7 x8 x9 x12 x13 x14 x15 (ix3 b n z) = var (Ff x0 x1 x2 x3 x4 x5 x6 x7 x8 x9 x12 x13 x14 x15 b n) := by
  rewrite [val_main_v83_apply, val_main_v82_apply, val_main_v81_apply, val_main_v80_apply]
  show Ideal.div (Ideal.ofBits .f32 0x00000000#32 + _) w1024
    = Ideal.div (∑ k, ((Ff x0 x1 x2 x3 x4 x5 x6 x7 x8 x9 x12 x13 x14 x15 b n) k - mean (Ff x0 x1 x2 x3 x4 x5 x6 x7 x8 x9 x12 x13 x14 x15 b n)) * ((Ff x0 x1 x2 x3 x4 x5 x6 x7 x8 x9 x12 x13 x14 x15 b n) k - mean (Ff x0 x1 x2 x3 x4 x5 x6 x7 x8 x9 x12 x13 x14 x15 b n))) w1024
  rewrite [Ideal.ofBits_zero_f32, zero_add]
  refine congrArg (Ideal.div · w1024) (Finset.sum_congr rfl fun k _ => ?_)
  rewrite [show idx_main_v80 (idx_main_v81 (ix3 b n z)) k = ix3 b n k from by idx_rfl, val_main_v79_apply, val_main_v78_apply, v72_at, v77_at]
  rfl

theorem v96_at (b : Fin 4) (n v : Fin 1024) :
    val_main_v96 (F := Ideal) x0 x1 x2 x3 x4 x5 x6 x7 x8 x9 x10 x11 x12 x13 x14 x15 (ix3 b n v) = ln (Ff x0 x1 x2 x3 x4 x5 x6 x7 x8 x9 x12 x13 x14 x15 b n) (vec x10) (vec x11) v := by
  rewrite [val_main_v96_apply, val_main_v93_apply, val_main_v90_apply, val_main_v85_apply, val_main_v89_apply, val_main_v88_apply, val_main_v87_apply, val_main_v86_apply,
    val_main_v92_apply, val_main_v91_apply, val_main_v95_apply, val_main_v94_apply,
    show idx_main_v89 (ix3 b n v) = ix3 b n (⟨0, Nat.one_pos⟩ : Fin 1) from by idx_rfl,
    show idx_main_v91 (idx_main_v92 (ix3 b n v)) = ix1 v from by idx_rfl,
    show idx_main_v94 (idx_main_v95 (ix3 b n v)) = ix1 v from by idx_rfl,
    v72_at, v84_at, v83_at]
  rfl

theorem refO : val_main_v96 (F := Ideal) x0 x1 x2 x3 x4 x5 x6 x7 x8 x9 x10 x11 x12 x13 x14 x15
    = fun i => outO (act x0) (act x1) (mat x2) (vec x3) (mat x4) (vec x5) (mat x6) (vec x7) (vec x8) (vec x9) (vec x10) (vec x11)
        (mat x12) (vec x13) (mat x14) (vec x15) (i 0) (i 1) (i 2) := by
  funext i
  obtain ⟨b, n, v, rfl⟩ : ∃ (b : Fin 4) (n v : Fin 1024), i = ix3 b n v := ⟨i 0, i 1, i 2, eq_ix3 i⟩
  exact v96_at x0 x1 x2 x3 x4 x5 x6 x7 x8 x9 x10 x11 x12 x13 x14 x15 b n v

end Cert.ReferenceIdeal.IsSpec

end
-- ==== Proof.lean ====
/-
  The idealized kernel and the idealized reference of a multi-head attention block compute equal results over the
  extended reals.

  The kernel is four pipelined regions: the query projection, the fused key and value projections, the attention of each
  (head pair, batch) block, and the row-wise tail (layer normalisation, gated feed-forward layer with residual, layer
  normalisation), among host operations that reshape, narrow and pack its operands.  The reference is one straight line of
  host operations.  Both are proved equal to one specification over coordinates (Proof/Spec.lean): the first result is
  `outO` of the sixteen arguments, the second the reshape `[16, 4, 1024, 1024] → [64, 1024, 1024]` of `outA`.

  The two sides differ only in arrangement, never in arithmetic: the kernel multiplies the scores by the word of `1/32`
  where the reference divides by the word of `32` (equal on every extended real); the reference takes one more maximum with
  minus infinity; a lane sum from the zero word against a host sum from the zero word; a change of float format is the
  identity.  No step needs a finite input, so the precondition is never opened.

  The frames of the two kernel programs are the generated ones; the reference's frame is its run with the results dropped;
  the idealization rewrote no operation, so `preserves` is `True`.
-/
import proofs.«105725_j43181601194591_2_alg».proof.Defs
import proofs.«105725_j43181601194591_2_alg».proof.Proof.Gen.Kernel
import proofs.«105725_j43181601194591_2_alg».proof.Proof.Gen.Kernel.Skeleton
import proofs.«105725_j43181601194591_2_alg».proof.Proof.Gen.Kernel.Launch
import proofs.«105725_j43181601194591_2_alg».proof.Proof.Gen.Kernel.Points
import proofs.«105725_j43181601194591_2_alg».proof.Proof.Gen.Kernel.Frame
import proofs.«105725_j43181601194591_2_alg».proof.Proof.Gen.KernelIdeal
import proofs.«105725_j43181601194591_2_alg».proof.Proof.Gen.KernelIdeal.Skeleton
import proofs.«105725_j43181601194591_2_alg».proof.Proof.Gen.KernelIdeal.Launch
import proofs.«105725_j43181601194591_2_alg».proof.Proof.Gen.KernelIdeal.Points
import proofs.«105725_j43181601194591_2_alg».proof.Proof.Gen.KernelIdeal.Frame
import proofs.«105725_j43181601194591_2_alg».proof.Proof.Gen.ReferenceIdeal
import proofs.«105725_j43181601194591_2_alg».proof.Proof.Gen.Pre_finite_inputs
import proofs.«105725_j43181601194591_2_alg».proof.Proof.KernelRun
import proofs.«105725_j43181601194591_2_alg».proof.Proof.ChainBack
import proofs.«105725_j43181601194591_2_alg».proof.Proof.RefRun
import proofs.«105725_j43181601194591_2_alg».proof.Proof.RefRead
import proofs.«105725_j43181601194591_2_alg».proof.Proof.RefIsSpec
import Idealize.ShloMosaic.Adequacy
import Idealize.ShloMosaic.Init

noncomputable section

namespace Cert.Proof

open Idealize.ShloMosaic Idealize.SL.Sem AttnBlock

theorem frame_k : Cert.frame_Kernel := fun m ρ _ => Cert.Kernel.Gen.frame m ρ

theorem frame_ki : Cert.frame_KernelIdeal := fun m ρ _ => Cert.KernelIdeal.Gen.frame m ρ

/-- The reference's run names its two results and gives the arguments back; the frame keeps the arguments. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the first result at `outO` of the arguments and the second at the reshape of `outA`. -/
theorem algebraic : Cert.algebraic_KernelIdeal_ReferenceIdeal := by
  intro m ρ m' ρ' _ hagree
  refine ⟨fun c => fun i => outO (Cert.KernelIdeal.Chain.Qin m c) (Cert.KernelIdeal.Chain.Kin m c)
      (Cert.KernelIdeal.Chain.Wq m c) (Cert.KernelIdeal.Chain.bq m c) (Cert.KernelIdeal.Chain.Wk m c) (Cert.KernelIdeal.Chain.bk m c)
      (Cert.KernelIdeal.Chain.Wv m c) (Cert.KernelIdeal.Chain.bv m c) (Cert.KernelIdeal.Chain.g0 m c) (Cert.KernelIdeal.Chain.β0 m c)
      (Cert.KernelIdeal.Chain.g1 m c) (Cert.KernelIdeal.Chain.β1 m c) (Cert.KernelIdeal.Chain.W12 m c) (Cert.KernelIdeal.Chain.b12 m c)
      (Cert.KernelIdeal.Chain.W3 m c) (Cert.KernelIdeal.Chain.b3 m c) (i 0) (i 1) (i 2),
    fun c => shapeCast Cert.KernelIdeal.S64x1024x1024 (fun i : Cert.KernelIdeal.S16x4x1024x1024.Idx =>
      outA (Cert.KernelIdeal.Chain.Qin m c) (Cert.KernelIdeal.Chain.Kin m c) (Cert.KernelIdeal.Chain.Wq m c)
        (Cert.KernelIdeal.Chain.bq m c) (Cert.KernelIdeal.Chain.Wk m c) (Cert.KernelIdeal.Chain.bk m c) (i 0) (i 1) (i 2) (i 3))
      Cert.KernelIdeal.Facts₀.shapeCasts_S16x4x1024x1024_S64x1024x1024, ?_, ?_⟩
  · refine (θ_run Cert.KernelIdeal.defs _ _).mono (fun r h c => ?_) (Cert.KernelIdeal.RunValue.run (F := Ideal) m ρ)
    obtain ⟨h12, h13, hargs⟩ := h c
    exact ⟨h12.trans (Cert.KernelIdeal.Chain.resO m ρ c), h13.trans (Cert.KernelIdeal.Chain.resA m ρ c), hargs⟩
  · refine (θ_run Cert.ReferenceIdeal.defs _ _).mono (fun r h c => ?_) (Cert.ReferenceIdeal.Value.run (F := Ideal) m' ρ')
    obtain ⟨h96, h97, hargs⟩ := h c
    obtain ⟨a0, a1, a2, a3, a4, a5, a6, a7, a8, a9, a10, a11, a12, a13, a14, a15⟩ := hagree c
    refine ⟨h96.trans ?_, h97.trans ?_, hargs⟩
    · rw [Cert.ReferenceIdeal.Read.val_main_v96_eq, Cert.ReferenceIdeal.IsSpec.refO, a0, a1, a2, a3, a4, a5, a6, a7, a8, a9, a10, a11, a12, a13, a14, a15]
      rfl
    · rw [Cert.ReferenceIdeal.Read.val_main_v97_eq]
      show shapeCast _ (Cert.ReferenceIdeal.Read.val_main_v31 (F := Ideal) _ _ _ _ _ _) _ = _
      rw [Cert.ReferenceIdeal.IsSpec.refA, a0, a1, a2, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
